-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S50000x128 : Shape := ⟨2, ![50000, 128]⟩
abbrev S3x256x1 : Shape := ⟨3, ![3, 256, 1]⟩
abbrev S3x1 : Shape := ⟨2, ![3, 1]⟩
abbrev S3x256x128 : Shape := ⟨3, ![3, 256, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x256x1 : S_.BroadcastsInDim S3x256x1 (![] : Fin 0 → Fin S3x256x1.rank)
  reducesTo_S3x256x1_S_d0_1_2 : S3x256x1.ReducesTo [0, 1, 2] S_
  bcast_S_S3x1 : S_.BroadcastsInDim S3x1 (![] : Fin 0 → Fin S3x1.rank)
  reducesTo_S3x1_S_d0_1 : S3x1.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x256x128 .f32) (main_arg6 : FVec F S3x128 .f32) (main_v13 : IVec S_ 1) (main_v16 : IVec S3x1 1) : IVec S_ 1 :=
  let main_c_5 : IVec S_ 1 := constantI S_ 1 1#1
  let main_v17 : IVec S_ 1 := (fun x v => Host.reduce IntOp.andi x v reducesTo_S3x1_S_d0_1 h_S_) main_v16 main_c_5
  let main_v18 : IVec S_ 1 := andi main_v13 main_v17
  let main_v19 : FVec F S3x256x128 .f32 := Host.absf main_arg5
  let main_cst_6 : FVec F S_ .f32 := constant S_ .f32 0x7F800000#32
  let main_v20 : FVec F S3x256x128 .f32 := broadcastInDim S3x256x128 ![] bcast_S_S3x256x128 main_cst_6
  let main_v21 : IVec S3x256x128 1 := cmpf .olt main_v19 main_v20
  let main_c_7 : IVec S_ 1 := constantI S_ 1 1#1
  let main_v22 : IVec S_ 1 := (fun x v => Host.reduce IntOp.andi x v reducesTo_S3x256x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : IVec S2x600000 32) (main_arg1 : FVec F S50000x128 .f32) (main_arg2 : FVec F S50000x128 .f32) (main_arg3 : FVec F S3x256x1 .f32) (main_arg4 : FVec F S3x1 .f32) (main_arg5 : FVec F S3x256x128 .f32) (main_arg6 : FVec F S3x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x256x1 .f32 := Host.absf main_arg3
  let main_cst_2 : FVec F S_ .f32 := constant S_ .f32 0x7F800000#32
  let main_v10 : FVec F S3x256x1 .f32 := broadcastInDim S3x256x1 ![] bcast_S_S3x256x1 main_cst_2
  let main_v11 : IVec S3x256x1 1 := cmpf .olt main_v9 main_v10
  let main_c_3 : IVec S_ 1 := constantI S_ 1 1#1
  let main_v12 : IVec S_ 1 := (fun x v => Host.reduce IntOp.andi x v reducesTo_S3x256x1_S_d0_1_2 h_S_) main_v11 main_c_3
  let main_v13 : IVec S_ 1 := andi main_v8 main_v12
  let main_v14 : FVec F S3x1 .f32 := Host.absf main_arg4
  let main_cst_4 : FVec F S_ .f32 := constant S_ .f32 0x7F800000#32
  let main_v15 : FVec F S3x1 .f32 := broadcastInDim S3x1 ![] bcast_S_S3x1 main_cst_4
  let main_v16 : IVec S3x1 1 := cmpf .olt main_v14 main_v15
  fn_part1 (F := F) main_arg5 main_arg6 main_v13 main_v16
-- ==== Kernel.lean ====
abbrev S2x600000 : Shape := ⟨2, ![2, 600000]⟩
abbrev S50000x128 : Shape := ⟨2, ![50000, 128]⟩
abbrev S3x256x1 : Shape := ⟨3, ![3, 256, 1]⟩
abbrev S3x1 : Shape := ⟨2, ![3, 1]⟩
abbrev S3x256x128 : Shape := ⟨3, ![3, 256, 128]⟩
abbrev S3x128 : Shape := ⟨2, ![3, 128]⟩
abbrev S1x600000 : Shape := ⟨2, ![1, 600000]⟩
abbrev S600000 : Shape := ⟨1, ![600000]⟩
abbrev S100000x128 : Shape := ⟨2, ![100000, 128]⟩
abbrev S_ : Shape := ⟨0, ![]⟩
abbrev S600000x1 : Shape := ⟨2, ![600000, 1]⟩
abbrev S600000x128 : Shape := ⟨2, ![600000, 128]⟩
abbrev S1x256x1 : Shape := ⟨3, ![1, 256, 1]⟩
abbrev S256x1 : Shape := ⟨2, ![256, 1]⟩
abbrev S128x1 : Shape := ⟨2, ![128, 1]⟩
abbrev S1x128 : Shape := ⟨2, ![1, 128]⟩
abbrev S1x1 : Shape := ⟨2, ![1, 1]⟩
abbrev S1 : Shape := ⟨1, ![1]⟩
abbrev S8000x128 : Shape := ⟨2, ![8000, 128]⟩
abbrev S8000 : Shape := ⟨1, ![8000]⟩
abbrev S8000x1 : Shape := ⟨2, ![8000, 1]⟩
abbrev S1x256x128 : Shape := ⟨3, ![1, 256, 128]⟩
abbrev S256x128 : Shape := ⟨2, ![256, 128]⟩
abbrev S128x128 : Shape := ⟨2, ![128, 128]⟩
abbrev S128 : Shape := ⟨1, ![128]⟩
abbrev S5000x128 : Shape := ⟨2, ![5000, 128]⟩

abbrev nBuf : Space → Nat
  | .hbm => 134
  | .vmem => 54
  | .smem => 0
  | _ => 0

abbrev hbmTy0_0 (i : Nat) : BufTy := match i % 128 with
  | 0 => ⟨S2x600000, .i32⟩
  | 1 => ⟨S50000x128, .f32⟩
  | 2 => ⟨S50000x128, .f32⟩
  | 3 => ⟨S3x256x1, .f32⟩
  | 4 => ⟨S3x1, .f32⟩
  | 5 => ⟨S3x256x128, .f32⟩
  | 6 => ⟨S3x128, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S1x256x1, .f32⟩
  | 31 => ⟨S256x1, .f32⟩
  | 32 => ⟨S128x1, .f32⟩
  | 33 => ⟨S1x128, .f32⟩
  | 34 => ⟨S128x1, .f32⟩
  | 35 => ⟨S1x128, .f32⟩
  | 36 => ⟨S1x1, .f32⟩
  | 37 => ⟨S1, .f32⟩
  | 38 => ⟨S1x1, .f32⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S1x256x128, .f32⟩
  | 45 => ⟨S256x128, .f32⟩
  | 46 => ⟨S128x128, .f32⟩
  | 47 => ⟨S128x128, .f32⟩
  | 48 => ⟨S1x128, .f32⟩
  | 49 => ⟨S128, .f32⟩
  | 50 => ⟨S1x128, .f32⟩
  | 51 => ⟨S100000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S1x256x1, .f32⟩
  | 71 => ⟨S256x1, .f32⟩
  | 72 => ⟨S128x1, .f32⟩
  | 73 => ⟨S1x128, .f32⟩
  | 74 => ⟨S128x1, .f32⟩
  | 75 => ⟨S1x128, .f32⟩
  | 76 => ⟨S1x1, .f32⟩
  | 77 => ⟨S1, .f32⟩
  | 78 => ⟨S1x1, .f32⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S1x256x128, .f32⟩
  | 85 => ⟨S256x128, .f32⟩
  | 86 => ⟨S128x128, .f32⟩
  | 87 => ⟨S128x128, .f32⟩
  | 88 => ⟨S1x128, .f32⟩
  | 89 => ⟨S128, .f32⟩
  | 90 => ⟨S1x128, .f32⟩
  | 91 => ⟨S100000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S1x256x1, .f32⟩
  | 111 => ⟨S256x1, .f32⟩
  | 112 => ⟨S128x1, .f32⟩
  | 113 => ⟨S1x128, .f32⟩
  | 114 => ⟨S128x1, .f32⟩
  | 115 => ⟨S1x128, .f32⟩
  | 116 => ⟨S1x1, .f32⟩
  | 117 => ⟨S1, .f32⟩
  | 118 => ⟨S1x1, .f32⟩
  | 119 => ⟨S600000x128, .f32⟩
  | 120 => ⟨S_, .f32⟩
  | 121 => ⟨S100000x128, .f32⟩
  | 122 => ⟨S600000x1, .i32⟩
  | 123 => ⟨S100000x128, .f32⟩
  | 124 => ⟨S1x256x128, .f32⟩
  | 125 => ⟨S256x128, .f32⟩
  | 126 => ⟨S128x128, .f32⟩
  | 127 => ⟨S128x128, .f32⟩
  | _ => ⟨S2x600000, .i32⟩

abbrev hbmTy0_1 (i : Nat) : BufTy := match i % 128 with
  | 0 => ⟨S1x128, .f32⟩
  | 1 => ⟨S128, .f32⟩
  | 2 => ⟨S1x128, .f32⟩
  | 3 => ⟨S100000x128, .f32⟩
  | 4 => ⟨S50000x128, .f32⟩
  | 5 => ⟨S50000x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S1x128, .f32⟩
  | .local _ .vmem, ⟨5, _⟩ => ⟨S1x128, .f32⟩
  | .local _ .vmem, ⟨6, _⟩ => ⟨S1x1, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S1x128, .f32⟩
  | .local _ .vmem, ⟨23, _⟩ => ⟨S1x128, .f32⟩
  | .local _ .vmem, ⟨24, _⟩ => ⟨S1x1, .f32⟩
  | .local _ .vmem, ⟨25, _⟩ => ⟨S8000x128, .f32⟩
  | .local _ .vmem, ⟨26, _⟩ => ⟨S8000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S8000x128, .f32⟩
  | .local _ .vmem, ⟨37, _⟩ => ⟨S8000x128, .f32⟩
  | .local _ .vmem, ⟨38, _⟩ => ⟨S8000x128, .f32⟩
  | .local _ .vmem, ⟨39, _⟩ => ⟨S8000x128, .f32⟩
  | .local _ .vmem, ⟨40, _⟩ => ⟨S1x128, .f32⟩
  | .local _ .vmem, ⟨41, _⟩ => ⟨S1x128, .f32⟩
  | .local _ .vmem, ⟨42, _⟩ => ⟨S1x1, .f32⟩
  | .local _ .vmem, ⟨43, _⟩ => ⟨S8000x128, .f32⟩
  | .local _ .vmem, ⟨44, _⟩ => ⟨S8000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_8 : Ref sig .tc := ⟨.hbm, 92, rfl⟩
abbrev main_v75 : Ref sig .tc := ⟨.hbm, 93, rfl⟩
abbrev main_v76 : Ref sig .tc := ⟨.hbm, 94, rfl⟩
abbrev main_c_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_c_10 : Ref sig .tc := ⟨.hbm, 101, rfl⟩
abbrev main_v82 : Ref sig .tc := ⟨.hbm, 102, rfl⟩
abbrev main_v83 : Ref sig .tc := ⟨.hbm, 103, rfl⟩
abbrev main_c_11 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S50000x128_S50000x128_S100000x128_d0 : Shape.Concatenates [S50000x128, S50000x128] S100000x128 0
  bcast_S_S600000 : S_.BroadcastsInDim S600000 (![] : Fin 0 → Fin S600000.rank)
  bcast_S600000_S600000x1_0 : S600000.BroadcastsInDim S600000x1 (![0] : Fin 1 → Fin S600000x1.rank)
  slices_S3x256x1_S1x256x1_0_0_0 : S3x256x1.Slices ![0, 0, 0] S1x256x1
  shapeCasts_S1x256x1_S256x1 : S1x256x1.ShapeCasts S256x1
  slices_S256x1_S128x1_0_0 : S256x1.Slices ![0, 0] S128x1
  transposes_S128x1_S1x128_1_0 : S128x1.Transposes [1, 0] S1x128
  slices_S256x1_S128x1_128_0 : S256x1.Slices ![128, 0] S128x1
  slices_S3x1_S1x1_0_0 : S3x1.Slices ![0, 0] S1x1
  shapeCasts_S1x1_S1 : S1x1.ShapeCasts S1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x128 : S8000x1.Broadcasts S8000x128
  bcast_S_S100000x128 : S_.BroadcastsInDim S100000x128 (![] : Fin 0 → Fin S100000x128.rank)
  slices_S3x256x128_S1x256x128_0_0_0 : S3x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S3x256x1_S1x256x1_1_0_0 : S3x256x1.Slices ![1, 0, 0] S1x256x1
  slices_S3x1_S1x1_1_0 : S3x1.Slices ![1, 0] S1x1
  slices_S3x256x128_S1x256x128_1_0_0 : S3x256x128.Slices ![1, 0, 0] S1x256x128
  slices_S3x128_S1x128_1_0 : S3x128.Slices ![1, 0] S1x128
  slices_S3x256x1_S1x256x1_2_0_0 : S3x256x1.Slices ![2, 0, 0] S1x256x1
  slices_S3x1_S1x1_2_0 : S3x1.Slices ![2, 0] S1x1
  slices_S3x256x128_S1x256x128_2_0_0 : S3x256x128.Slices ![2, 0, 0] S1x256x128
  slices_S3x128_S1x128_2_0 : S3x128.Slices ![2, 0] S1x128
  slices_S100000x128_S50000x128_0_0 : S100000x128.Slices ![0, 0] S50000x128
  slices_S100000x128_S50000x128_50000_0 : S100000x128.Slices ![50000, 0] S50000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .f32 = 32 ∨ (Rect.block (s := S600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .f32 = 32 ∨ (Rect.block (s := S600000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S600000x128.size a
  hwx0_5 : ∀ i : grid0.Coords, EltTy.bits .f32 = 32 ∨ (Rect.block (s := S600000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S600000x128.size a
  hwx2_0 : ∀ i : grid2.Coords, EltTy.bits .f32 = 32 ∨ (Rect.block (s := S600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S600000x128.size a
  hwx2_1 : ∀ i : grid2.Coords, EltTy.bits .f32 = 32 ∨ (Rect.block (s := S600000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S600000x128.size a
  hwx2_5 : ∀ i : grid2.Coords, EltTy.bits .f32 = 32 ∨ (Rect.block (s := S600000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S600000x128.size a
  hwx4_0 : ∀ i : grid4.Coords, EltTy.bits .f32 = 32 ∨ (Rect.block (s := S600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S600000x128.size a
  hwx4_1 : ∀ i : grid4.Coords, EltTy.bits .f32 = 32 ∨ (Rect.block (s := S600000x128) S8000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S600000x128.size a
  hwx4_5 : ∀ i : grid4.Coords, EltTy.bits .f32 = 32 ∨ (Rect.block (s := S600000x128) S8000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S2x600000 : Shape := ⟨2, ![2, 600000]⟩
abbrev S50000x128 : Shape := ⟨2, ![50000, 128]⟩
abbrev S3x256x1 : Shape := ⟨3, ![3, 256, 1]⟩
abbrev S3x1 : Shape := ⟨2, ![3, 1]⟩
abbrev S3x256x128 : Shape := ⟨3, ![3, 256, 128]⟩
abbrev S3x128 : Shape := ⟨2, ![3, 128]⟩
abbrev S1x600000 : Shape := ⟨2, ![1, 600000]⟩
abbrev S600000 : Shape := ⟨1, ![600000]⟩
abbrev S100000x128 : Shape := ⟨2, ![100000, 128]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S100000x256 : Shape := ⟨2, ![100000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 173
  | .vmem => 0
  | .smem => 0
  | _ => 0

abbrev hbmTy0_0 (i : Nat) : BufTy := match i % 128 with
  | 0 => ⟨S2x600000, .i32⟩
  | 1 => ⟨S50000x128, .f32⟩
  | 2 => ⟨S50000x128, .f32⟩
  | 3 => ⟨S3x256x1, .f32⟩
  | 4 => ⟨S3x1, .f32⟩
  | 5 => ⟨S3x256x128, .f32⟩
  | 6 => ⟨S3x128, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x256, .f32⟩
  | 31 => ⟨S1x256x1, .f32⟩
  | 32 => ⟨S256x1, .f32⟩
  | 33 => ⟨S600000x1, .f32⟩
  | 34 => ⟨S1x1, .f32⟩
  | 35 => ⟨S1, .f32⟩
  | 36 => ⟨S1x1, .f32⟩
  | 37 => ⟨S600000x1, .f32⟩
  | 38 => ⟨S600000x1, .f32⟩
  | 39 => ⟨S600000x1, .f32⟩
  | 40 => ⟨S600000x1, .f32⟩
  | 41 => ⟨S_, .f32⟩
  | 42 => ⟨S600000x1, .f32⟩
  | 43 => ⟨S600000x1, .f32⟩
  | 44 => ⟨S_, .f32⟩
  | 45 => ⟨S600000x1, .f32⟩
  | 46 => ⟨S600000x1, .f32⟩
  | 47 => ⟨S600000x128, .f32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S100000x256, .f32⟩
  | 54 => ⟨S1x256x128, .f32⟩
  | 55 => ⟨S256x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S600000x256, .f32⟩
  | 84 => ⟨S1x256x1, .f32⟩
  | 85 => ⟨S256x1, .f32⟩
  | 86 => ⟨S600000x1, .f32⟩
  | 87 => ⟨S1x1, .f32⟩
  | 88 => ⟨S1, .f32⟩
  | 89 => ⟨S1x1, .f32⟩
  | 90 => ⟨S600000x1, .f32⟩
  | 91 => ⟨S600000x1, .f32⟩
  | 92 => ⟨S600000x1, .f32⟩
  | 93 => ⟨S600000x1, .f32⟩
  | 94 => ⟨S_, .f32⟩
  | 95 => ⟨S600000x1, .f32⟩
  | 96 => ⟨S600000x1, .f32⟩
  | 97 => ⟨S_, .f32⟩
  | 98 => ⟨S600000x1, .f32⟩
  | 99 => ⟨S600000x1, .f32⟩
  | 100 => ⟨S600000x128, .f32⟩
  | 101 => ⟨S600000x128, .f32⟩
  | 102 => ⟨S_, .f32⟩
  | 103 => ⟨S100000x128, .f32⟩
  | 104 => ⟨S600000x1, .i32⟩
  | 105 => ⟨S100000x128, .f32⟩
  | 106 => ⟨S100000x256, .f32⟩
  | 107 => ⟨S1x256x128, .f32⟩
  | 108 => ⟨S256x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .i32⟩
  | _ => ⟨S2x600000, .i32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S600000x256, .f32⟩
  | 9 => ⟨S1x256x1, .f32⟩
  | 10 => ⟨S256x1, .f32⟩
  | 11 => ⟨S600000x1, .f32⟩
  | 12 => ⟨S1x1, .f32⟩
  | 13 => ⟨S1, .f32⟩
  | 14 => ⟨S1x1, .f32⟩
  | 15 => ⟨S600000x1, .f32⟩
  | 16 => ⟨S600000x1, .f32⟩
  | 17 => ⟨S600000x1, .f32⟩
  | 18 => ⟨S600000x1, .f32⟩
  | 19 => ⟨S_, .f32⟩
  | 20 => ⟨S600000x1, .f32⟩
  | 21 => ⟨S600000x1, .f32⟩
  | 22 => ⟨S_, .f32⟩
  | 23 => ⟨S600000x1, .f32⟩
  | 24 => ⟨S600000x1, .f32⟩
  | 25 => ⟨S600000x128, .f32⟩
  | 26 => ⟨S600000x128, .f32⟩
  | 27 => ⟨S_, .f32⟩
  | 28 => ⟨S100000x128, .f32⟩
  | 29 => ⟨S600000x1, .i32⟩
  | 30 => ⟨S100000x128, .f32⟩
  | 31 => ⟨S100000x256, .f32⟩
  | 32 => ⟨S1x256x128, .f32⟩
  | 33 => ⟨S256x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S50000x128, .f32⟩
  | 44 => ⟨S50000x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_c_5 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_7 : Ref sig .tc := ⟨.hbm, 74, rfl⟩
abbrev main_v56 : Ref sig .tc := ⟨.hbm, 75, rfl⟩
abbrev main_v57 : Ref sig .tc := ⟨.hbm, 76, rfl⟩
abbrev main_c_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_call1_cst : Ref sig .tc := ⟨.hbm, 115, rfl⟩
abbrev main_call1_v0 : Ref sig .tc := ⟨.hbm, 116, rfl⟩
abbrev main_v92 : Ref sig .tc := ⟨.hbm, 117, rfl⟩
abbrev main_c_12 : Ref sig .tc := ⟨.hbm, 118, rfl⟩
abbrev main_v93 : Ref sig .tc := ⟨.hbm, 119, rfl⟩
abbrev main_v94 : Ref sig .tc := ⟨.hbm, 120, rfl⟩
abbrev main_c_13 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_14 : Ref sig .tc := ⟨.hbm, 127, rfl⟩
abbrev main_v100 : Ref sig .tc := ⟨.hbm, 128, rfl⟩
abbrev main_v101 : Ref sig .tc := ⟨.hbm, 129, rfl⟩
abbrev main_c_15 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_16 : Ref sig .tc := ⟨.hbm, 147, rfl⟩
abbrev main_v118 : Ref sig .tc := ⟨.hbm, 148, rfl⟩
abbrev main_v119 : Ref sig .tc := ⟨.hbm, 149, rfl⟩
abbrev main_cst_17 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_18 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_call2_cst : Ref sig .tc := ⟨.hbm, 168, rfl⟩
abbrev main_call2_v0 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S50000x128_S50000x128_S100000x128_d0 : Shape.Concatenates [S50000x128, S50000x128] S100000x128 0
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  slices_S3x256x1_S1x256x1_0_0_0 : S3x256x1.Slices ![0, 0, 0] S1x256x1
  shapeCasts_S1x256x1_S256x1 : S1x256x1.ShapeCasts S256x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x256x1_S1x256x1_1_0_0 : S3x256x1.Slices ![1, 0, 0] S1x256x1
  slices_S3x1_S1x1_1_0 : S3x1.Slices ![1, 0] S1x1
  slices_S3x256x128_S1x256x128_1_0_0 : S3x256x128.Slices ![1, 0, 0] S1x256x128
  slices_S3x128_S1x128_1_0 : S3x128.Slices ![1, 0] S1x128
  slices_S3x256x1_S1x256x1_2_0_0 : S3x256x1.Slices ![2, 0, 0] S1x256x1
  slices_S3x1_S1x1_2_0 : S3x1.Slices ![2, 0] S1x1
  slices_S3x256x128_S1x256x128_2_0_0 : S3x256x128.Slices ![2, 0, 0] S1x256x128
  slices_S3x128_S1x128_2_0 : S3x128.Slices ![2, 0] S1x128
  slices_S100000x128_S50000x128_0_0 : S100000x128.Slices ![0, 0] S50000x128
  slices_S100000x128_S50000x128_50000_0 : S100000x128.Slices ![50000, 0] S50000x128
  gather_S100000x128_S600000x1_S600000x128_1_0_n_n_0_1_1128_wf : GatherDims.WF S100000x128 S600000x1 S600000x128 [1] [0] [] [0] [] 1 ![1, 128]
  dot_S600000x256_S256x1_S600000x1_1_0_0_1_n_n_wf : DotDims.WF S600000x256 S256x1 S600000x1 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x1_S600000x1_1_0_0_1_n_n : DotDims S600000x256 S256x1 S600000x1 where
  lhsContracting := [1]
  rhsContracting := [0]
  lhsNonContracting := [0]
  rhsNonContracting := [1]
  lhsBatch := []
  rhsBatch := []
  wf := dot_S600000x256_S256x1_S600000x1_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KerRun.lean ====
/-
  The idealized kernel program's run with its two results named.

  The program is thirteen segments: seven stretches of host operations and six kernel regions. The buffer
  contents at every boundary are a fold from the launch memory (a host stretch applies its operations, a
  region leaves its arrays at what its write-backs give and everything else in place). The frame certificate
  of this program states only that the arguments survive; here the same run is re-posted with the two result
  buffers read off the last boundary's contents, so that a value proof can open them.
-/
import proofs.«123907_j40140764349010_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at
    the last boundary's contents and the seven argument buffers end as launched. -/
theorem run_results : θ_run defs (onTc (τ := τ) (main (F := F))) ⟨m, fun _ => 0, ρ⟩ (fun r => ∀ c : Dev nD,
      r.2.mem ((c.tc : Thread nD τ).loc main_v110) = W13 m ρ c (Proc.devRef .tc main_v110)
      ∧ r.2.mem ((c.tc : Thread nD τ).loc main_v111) = W13 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v110 (by decide)),
       h c _ (mem_uc main_v111 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Hand

end
-- ==== Proof.Spec.lean ====
/-
  One layer of attention-weighted message passing, as formulas on the extended reals.

  A layer reads a table of node rows `x : [N,128]`. For an edge `e` with source row `s` and destination row `d` the
  attention score is the inner product of `s` with one weight row plus the inner product of `d` with a second weight
  row plus a bias; the coefficient is `1 / (1 + exp (0 - score))`; the edge's message is `s` scaled by its coefficient. Messages are
  summed into their destination rows, and the node update is `max (x·Wx + agg·Wa + b) 0`.

  Both formulas are stated for any number of rows `n`: the same definition reads a whole array and one block of it,
  and a block of rows of the whole-array value is the value on that block of rows (`attn_rows`, `upd_rows`), since a
  row of the result depends on that row of the two row operands only.

  The literals `1.0` and `0.0` stay as the words they are printed as; nothing here evaluates them.
-/
import Idealize.ShloMosaic.PureOps.Ideal.Laws
import Idealize.ShloMosaic.Lib.ValueIdx

noncomputable section

open scoped BigOperators

namespace Cert.Spec

open Idealize.ShloMosaic Idealize.ShloMosaic.ValueIdx

/-- The word of `1.0`. -/
abbrev one : EReal := Ideal.ofBits .f32 0x3F800000#32
/-- The word of `0.0`. -/
abbrev zero : EReal := Ideal.ofBits .f32 0x00000000#32

/-- The attention score of row `e`: two inner products over the 128 features and a bias. -/
def score {n : Nat} (gs gd : (⟨2, ![n, 128]⟩ : Shape).Idx → EReal) (was wad : (⟨2, ![1, 128]⟩ : Shape).Idx → EReal)
    (b : (⟨2, ![1, 1]⟩ : Shape).Idx → EReal) (e : Fin n) : EReal :=
  ((∑ k : Fin 128, gs (ix2 e k) * was (ix2 0 k)) + (∑ k : Fin 128, gd (ix2 e k) * wad (ix2 0 k))) + b (ix2 0 0)

/-- The attention coefficient of row `e`: the logistic function of its score, written `1 / (1 + exp (0 - score))`. -/
def coef {n : Nat} (gs gd : (⟨2, ![n, 128]⟩ : Shape).Idx → EReal) (was wad : (⟨2, ![1, 128]⟩ : Shape).Idx → EReal)
    (b : (⟨2, ![1, 1]⟩ : Shape).Idx → EReal) (e : Fin n) : EReal :=
  Ideal.div one (one + Ideal.exp (zero - score gs gd was wad b e))

/-- The scaled source rows: entry `(e, q)` is the source entry times the row's coefficient. -/
def attn {n : Nat} (gs gd : (⟨2, ![n, 128]⟩ : Shape).Idx → EReal) (was wad : (⟨2, ![1, 128]⟩ : Shape).Idx → EReal)
    (b : (⟨2, ![1, 1]⟩ : Shape).Idx → EReal) : (⟨2, ![n, 128]⟩ : Shape).Idx → EReal :=
  fun i => gs i * coef gs gd was wad b (i 0)

/-- The node update: entry `(r, q)` is `max (x_r · Wx_q + agg_r · Wa_q + b_q) 0`. -/
def upd {n : Nat} (x agg : (⟨2, ![n, 128]⟩ : Shape).Idx → EReal) (wx wa : (⟨2, ![128, 128]⟩ : Shape).Idx → EReal)
    (b : (⟨2, ![1, 128]⟩ : Shape).Idx → EReal) : (⟨2, ![n, 128]⟩ : Shape).Idx → EReal :=
  fun i => max (((∑ k : Fin 128, x (ix2 (i 0) k) * wx (ix2 k (i 1))) + (∑ k : Fin 128, agg (ix2 (i 0) k) * wa (ix2 k (i 1))))
    + b (ix2 0 (i 1))) zero

theorem attn_apply {n : Nat} (gs gd : (⟨2, ![n, 128]⟩ : Shape).Idx → EReal) (was wad : (⟨2, ![1, 128]⟩ : Shape).Idx → EReal)
    (b : (⟨2, ![1, 1]⟩ : Shape).Idx → EReal) (e : Fin n) (q : Fin 128) :
    attn gs gd was wad b (ix2 e q) = gs (ix2 e q) * coef gs gd was wad b e := rfl

theorem upd_apply {n : Nat} (x agg : (⟨2, ![n, 128]⟩ : Shape).Idx → EReal) (wx wa : (⟨2, ![128, 128]⟩ : Shape).Idx → EReal)
    (b : (⟨2, ![1, 128]⟩ : Shape).Idx → EReal) (r : Fin n) (q : Fin 128) :
    upd x agg wx wa b (ix2 r q) = max (((∑ k : Fin 128, x (ix2 r k) * wx (ix2 k q)) + (∑ k : Fin 128, agg (ix2 r k) * wa (ix2 k q)))
      + b (ix2 0 q)) zero := rfl

/-- Rows of the scaled rows: if a block's rows are rows `ρ p` of the arrays, the block's value is those rows of the
    arrays' value. -/
theorem attn_rows {n N : Nat} (ρ : Fin n → Fin N)
    (gs gd : (⟨2, ![n, 128]⟩ : Shape).Idx → EReal) (GS GD : (⟨2, ![N, 128]⟩ : Shape).Idx → EReal)
    (was wad : (⟨2, ![1, 128]⟩ : Shape).Idx → EReal) (b : (⟨2, ![1, 1]⟩ : Shape).Idx → EReal)
    (hs : ∀ p k, gs (ix2 p k) = GS (ix2 (ρ p) k)) (hd : ∀ p k, gd (ix2 p k) = GD (ix2 (ρ p) k)) (p : Fin n) (q : Fin 128) :
    attn gs gd was wad b (ix2 p q) = attn GS GD was wad b (ix2 (ρ p) q) := by
  rw [attn_apply, attn_apply, hs]
  unfold coef score
  simp only [hs, hd]

/-- Rows of the node update, likewise. -/
theorem upd_rows {n N : Nat} (ρ : Fin n → Fin N)
    (x agg : (⟨2, ![n, 128]⟩ : Shape).Idx → EReal) (X AGG : (⟨2, ![N, 128]⟩ : Shape).Idx → EReal)
    (wx wa : (⟨2, ![128, 128]⟩ : Shape).Idx → EReal) (b : (⟨2, ![1, 128]⟩ : Shape).Idx → EReal)
    (hx : ∀ p k, x (ix2 p k) = X (ix2 (ρ p) k)) (ha : ∀ p k, agg (ix2 p k) = AGG (ix2 (ρ p) k)) (p : Fin n) (q : Fin 128) :
    upd x agg wx wa b (ix2 p q) = upd X AGG wx wa b (ix2 (ρ p) q) := by
  rw [upd_apply, upd_apply]
  simp only [hx, ha]

end Cert.Spec

end
-- ==== Proof.KerStep.lean ====
/-
  The vocabulary of one layer on the kernel's side, and the layer as one function.

  Between the kernel regions the program runs short stretches of host operations: they split the edge table into its
  source and destination rows, join the user and item rows into one node table, gather the node rows the edges name,
  cut a layer's weights out of the stacked weight arrays and lay them out as the kernels take them, and sum the
  scaled rows into their destination rows. Each of these is named here once, as a function of what it reads, so
  that the contents of the program's buffers can be stated in a few words. `step` is a whole layer: gather, scale
  (the specification's `attn`), sum by destination, update (the specification's `upd`).
-/
import proofs.«123907_j40140764349010_1_alg».proof.Proof.Gen.KernelIdeal
import proofs.«123907_j40140764349010_1_alg».proof.Proof.Spec

set_option maxRecDepth 16384

noncomputable section

namespace Cert.KernelIdeal.Hand

open Cert.KernelIdeal Cert.KernelIdeal.Gen
open Idealize.ShloMosaic Idealize.SL.Sem

/-- Row 0 of the edge table: the source node of every edge. -/
def idxRow0 (a0 : (⟨S2x600000, .i32⟩ : BufTy).Contents (Elt Ideal)) : (⟨S600000, .i32⟩ : BufTy).Contents (Elt Ideal) :=
  (shapeCast S600000 (extractStridedSlice S1x600000 ![0, 0] a0 slices_S2x600000_S1x600000_0_0) shapeCasts_S1x600000_S600000)

/-- Row 1 of the edge table: the destination node of every edge. -/
def idxRow1 (a0 : (⟨S2x600000, .i32⟩ : BufTy).Contents (Elt Ideal)) : (⟨S600000, .i32⟩ : BufTy).Contents (Elt Ideal) :=
  (shapeCast S600000 (extractStridedSlice S1x600000 ![1, 0] a0 slices_S2x600000_S1x600000_1_0) shapeCasts_S1x600000_S600000)

/-- The node table a layer starts from: the user rows followed by the item rows. -/
def nodes0 (a1 a2 : FVec Ideal S50000x128 .f32) : FVec Ideal S100000x128 .f32 :=
  (concatenate S100000x128 0 [⟨S50000x128, a1⟩, ⟨S50000x128, a2⟩] concatenates_S50000x128_S50000x128_S100000x128_d0)

/-- The node rows the edges name: a negative node number counts from the end of the table, then the row is gathered. -/
def gath (x : FVec Ideal S100000x128 .f32) (s : (⟨S600000, .i32⟩ : BufTy).Contents (Elt Ideal)) : FVec Ideal S600000x128 .f32 :=
  (Host.gather gather_S100000x128_S600000x1_S600000x128_1_0_n_n_0_1_1128 x (broadcastInDim S600000x1 ![0] bcast_S600000_S600000x1_0 (select (cmpi .slt s (broadcastInDim S600000 ![] bcast_S_S600000 (constantI S_ 32 0#32))) (addi s (broadcastInDim S600000 ![] bcast_S_S600000 (constantI S_ 32 100000#32))) s)))

/-- Layer 0's attention weights, a column of 256. -/
def wa0 (a3 : FVec Ideal S3x256x1 .f32) : FVec Ideal S256x1 .f32 :=
  (shapeCast S256x1 (extractStridedSlice S1x256x1 ![0, 0, 0] a3 slices_S3x256x1_S1x256x1_0_0_0) shapeCasts_S1x256x1_S256x1)

/-- Layer 0's attention bias. -/
def ba0 (a4 : FVec Ideal S3x1 .f32) : FVec Ideal S1 .f32 :=
  (shapeCast S1 (extractStridedSlice S1x1 ![0, 0] a4 slices_S3x1_S1x1_0_0) shapeCasts_S1x1_S1)

/-- Layer 0's update weights, 256 rows of 128. -/
def wg0 (a5 : FVec Ideal S3x256x128 .f32) : FVec Ideal S256x128 .f32 :=
  (shapeCast S256x128 (extractStridedSlice S1x256x128 ![0, 0, 0] a5 slices_S3x256x128_S1x256x128_0_0_0) shapeCasts_S1x256x128_S256x128)

/-- Layer 0's update bias, a vector of 128. -/
def bg0 (a6 : FVec Ideal S3x128 .f32) : FVec Ideal S128 .f32 :=
  (shapeCast S128 (extractStridedSlice S1x128 ![0, 0] a6 slices_S3x128_S1x128_0_0) shapeCasts_S1x128_S128)

/-- Layer 1's attention weights, a column of 256. -/
def wa1 (a3 : FVec Ideal S3x256x1 .f32) : FVec Ideal S256x1 .f32 :=
  (shapeCast S256x1 (extractStridedSlice S1x256x1 ![1, 0, 0] a3 slices_S3x256x1_S1x256x1_1_0_0) shapeCasts_S1x256x1_S256x1)

/-- Layer 1's attention bias. -/
def ba1 (a4 : FVec Ideal S3x1 .f32) : FVec Ideal S1 .f32 :=
  (shapeCast S1 (extractStridedSlice S1x1 ![1, 0] a4 slices_S3x1_S1x1_1_0) shapeCasts_S1x1_S1)

/-- Layer 1's update weights, 256 rows of 128. -/
def wg1 (a5 : FVec Ideal S3x256x128 .f32) : FVec Ideal S256x128 .f32 :=
  (shapeCast S256x128 (extractStridedSlice S1x256x128 ![1, 0, 0] a5 slices_S3x256x128_S1x256x128_1_0_0) shapeCasts_S1x256x128_S256x128)

/-- Layer 1's update bias, a vector of 128. -/
def bg1 (a6 : FVec Ideal S3x128 .f32) : FVec Ideal S128 .f32 :=
  (shapeCast S128 (extractStridedSlice S1x128 ![1, 0] a6 slices_S3x128_S1x128_1_0) shapeCasts_S1x128_S128)

/-- Layer 2's attention weights, a column of 256. -/
def wa2 (a3 : FVec Ideal S3x256x1 .f32) : FVec Ideal S256x1 .f32 :=
  (shapeCast S256x1 (extractStridedSlice S1x256x1 ![2, 0, 0] a3 slices_S3x256x1_S1x256x1_2_0_0) shapeCasts_S1x256x1_S256x1)

/-- Layer 2's attention bias. -/
def ba2 (a4 : FVec Ideal S3x1 .f32) : FVec Ideal S1 .f32 :=
  (shapeCast S1 (extractStridedSlice S1x1 ![2, 0] a4 slices_S3x1_S1x1_2_0) shapeCasts_S1x1_S1)

/-- Layer 2's update weights, 256 rows of 128. -/
def wg2 (a5 : FVec Ideal S3x256x128 .f32) : FVec Ideal S256x128 .f32 :=
  (shapeCast S256x128 (extractStridedSlice S1x256x128 ![2, 0, 0] a5 slices_S3x256x128_S1x256x128_2_0_0) shapeCasts_S1x256x128_S256x128)

/-- Layer 2's update bias, a vector of 128. -/
def bg2 (a6 : FVec Ideal S3x128 .f32) : FVec Ideal S128 .f32 :=
  (shapeCast S128 (extractStridedSlice S1x128 ![2, 0] a6 slices_S3x128_S1x128_2_0) shapeCasts_S1x128_S128)

/-- The first 128 attention weights as a row: the weights of the source features. -/
def waS (wa : FVec Ideal S256x1 .f32) : FVec Ideal S1x128 .f32 :=
  (transpose S1x128 [1, 0] (extractStridedSlice S128x1 ![0, 0] wa slices_S256x1_S128x1_0_0) transposes_S128x1_S1x128_1_0)

/-- The last 128 attention weights as a row: the weights of the destination features. -/
def waD (wa : FVec Ideal S256x1 .f32) : FVec Ideal S1x128 .f32 :=
  (transpose S1x128 [1, 0] (extractStridedSlice S128x1 ![128, 0] wa slices_S256x1_S128x1_128_0) transposes_S128x1_S1x128_1_0)

/-- The attention bias as a 1 × 1 array. -/
def ba11 (b : FVec Ideal S1 .f32) : FVec Ideal S1x1 .f32 :=
  (shapeCast S1x1 b shapeCasts_S1_S1x1)

/-- The messages summed into their destination rows, from zero; an edge whose destination is outside the table adds nothing. -/
def agg (dst : (⟨S600000, .i32⟩ : BufTy).Contents (Elt Ideal)) (u : FVec Ideal S600000x128 .f32) : FVec Ideal S100000x128 .f32 :=
  (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 dst) u)

/-- The first 128 rows of the update weights: they multiply the node's own row. -/
def wgX (wg : FVec Ideal S256x128 .f32) : FVec Ideal S128x128 .f32 :=
  (extractStridedSlice S128x128 ![0, 0] wg slices_S256x128_S128x128_0_0)

/-- The last 128 rows of the update weights: they multiply the aggregated messages. -/
def wgA (wg : FVec Ideal S256x128 .f32) : FVec Ideal S128x128 .f32 :=
  (extractStridedSlice S128x128 ![128, 0] wg slices_S256x128_S128x128_128_0)

/-- The update bias as a row. -/
def bgRow (bg : FVec Ideal S128 .f32) : FVec Ideal S1x128 .f32 :=
  (shapeCast S1x128 bg shapeCasts_S128_S1x128)

/-- One layer: from the node table `x` to the next node table. -/
def step (src dst : (⟨S600000, .i32⟩ : BufTy).Contents (Elt Ideal)) (wa : FVec Ideal S256x1 .f32) (b : FVec Ideal S1 .f32) (wg : FVec Ideal S256x128 .f32)
    (bg : FVec Ideal S128 .f32) (x : FVec Ideal S100000x128 .f32) : FVec Ideal S100000x128 .f32 :=
  Cert.Spec.upd x (agg dst (Cert.Spec.attn (gath x src) (gath x dst) (waS wa) (waD wa) (ba11 b))) (wgX wg) (wgA wg) (bgRow bg)

end Cert.KernelIdeal.Hand

end
-- ==== Proof.KerHost0.lean ====
/-
  Host stretch 0 read back: from any buffer contents `W`, what each buffer a later segment reads holds after the
  stretch's operations — the edge table's two rows, the node table, the gathered source and destination rows, and layer 0's attention weights and bias laid out for the kernel — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host0_v1 : StableHlo.after hostOps0 W (Proc.devRef .tc main_v1) = idxRow0 (W (Proc.devRef .tc main_arg0)) := by
  after_results_simp <;> rfl

theorem host0_v3 : StableHlo.after hostOps0 W (Proc.devRef .tc main_v3) = idxRow1 (W (Proc.devRef .tc main_arg0)) := by
  after_results_simp <;> rfl

theorem host0_v4 : StableHlo.after hostOps0 W (Proc.devRef .tc main_v4) = nodes0 (W (Proc.devRef .tc main_arg1)) (W (Proc.devRef .tc main_arg2)) := by
  after_results_simp <;> rfl

theorem host0_v11 : StableHlo.after hostOps0 W (Proc.devRef .tc main_v11) = gath (nodes0 (W (Proc.devRef .tc main_arg1)) (W (Proc.devRef .tc main_arg2))) (idxRow0 (W (Proc.devRef .tc main_arg0))) := by
  after_results_simp <;> rfl

theorem host0_v18 : StableHlo.after hostOps0 W (Proc.devRef .tc main_v18) = gath (nodes0 (W (Proc.devRef .tc main_arg1)) (W (Proc.devRef .tc main_arg2))) (idxRow1 (W (Proc.devRef .tc main_arg0))) := by
  after_results_simp <;> rfl

theorem host0_v22 : StableHlo.after hostOps0 W (Proc.devRef .tc main_v22) = waS (wa0 (W (Proc.devRef .tc main_arg3))) := by
  after_results_simp <;> rfl

theorem host0_v24 : StableHlo.after hostOps0 W (Proc.devRef .tc main_v24) = waD (wa0 (W (Proc.devRef .tc main_arg3))) := by
  after_results_simp <;> rfl

theorem host0_v27 : StableHlo.after hostOps0 W (Proc.devRef .tc main_v27) = ba11 (ba0 (W (Proc.devRef .tc main_arg4))) := by
  after_results_simp <;> rfl

theorem host0_keep_arg3 : StableHlo.after hostOps0 W (Proc.devRef .tc main_arg3) = W (Proc.devRef .tc main_arg3) := by
  after_results_simp <;> rfl

theorem host0_keep_arg4 : StableHlo.after hostOps0 W (Proc.devRef .tc main_arg4) = W (Proc.devRef .tc main_arg4) := by
  after_results_simp <;> rfl

theorem host0_keep_arg5 : StableHlo.after hostOps0 W (Proc.devRef .tc main_arg5) = W (Proc.devRef .tc main_arg5) := by
  after_results_simp <;> rfl

theorem host0_keep_arg6 : StableHlo.after hostOps0 W (Proc.devRef .tc main_arg6) = W (Proc.devRef .tc main_arg6) := by
  after_results_simp <;> rfl

end Cert.KernelIdeal.Hand

end
-- ==== Proof.KerHost1.lean ====
/-
  Host stretch 1 read back: from any buffer contents `W`, what each buffer a later segment reads holds after the
  stretch's operations — layer 0's messages summed by destination, and its update weights and bias laid out for the kernel — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host1_v31 : StableHlo.after hostOps1 W (Proc.devRef .tc main_v31) = agg (W (Proc.devRef .tc main_v3)) (W (Proc.devRef .tc main_v28)) := by
  after_results_simp <;> rfl

theorem host1_v34 : StableHlo.after hostOps1 W (Proc.devRef .tc main_v34) = wgX (wg0 (W (Proc.devRef .tc main_arg5))) := by
  after_results_simp <;> rfl

theorem host1_v35 : StableHlo.after hostOps1 W (Proc.devRef .tc main_v35) = wgA (wg0 (W (Proc.devRef .tc main_arg5))) := by
  after_results_simp <;> rfl

theorem host1_v38 : StableHlo.after hostOps1 W (Proc.devRef .tc main_v38) = bgRow (bg0 (W (Proc.devRef .tc main_arg6))) := by
  after_results_simp <;> rfl

theorem host1_keep_v1 : StableHlo.after hostOps1 W (Proc.devRef .tc main_v1) = W (Proc.devRef .tc main_v1) := by
  after_results_simp <;> rfl

theorem host1_keep_v3 : StableHlo.after hostOps1 W (Proc.devRef .tc main_v3) = W (Proc.devRef .tc main_v3) := by
  after_results_simp <;> rfl

theorem host1_keep_v4 : StableHlo.after hostOps1 W (Proc.devRef .tc main_v4) = W (Proc.devRef .tc main_v4) := by
  after_results_simp <;> rfl

theorem host1_keep_arg3 : StableHlo.after hostOps1 W (Proc.devRef .tc main_arg3) = W (Proc.devRef .tc main_arg3) := by
  after_results_simp <;> rfl

theorem host1_keep_arg4 : StableHlo.after hostOps1 W (Proc.devRef .tc main_arg4) = W (Proc.devRef .tc main_arg4) := by
  after_results_simp <;> rfl

theorem host1_keep_arg5 : StableHlo.after hostOps1 W (Proc.devRef .tc main_arg5) = W (Proc.devRef .tc main_arg5) := by
  after_results_simp <;> rfl

theorem host1_keep_arg6 : StableHlo.after hostOps1 W (Proc.devRef .tc main_arg6) = W (Proc.devRef .tc main_arg6) := by
  after_results_simp <;> rfl

end Cert.KernelIdeal.Hand

end
-- ==== Proof.KerHost2.lean ====
/-
  Host stretch 2 read back: from any buffer contents `W`, what each buffer a later segment reads holds after the
  stretch's operations — layer 1's gathered rows and its attention weights and bias — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host2_v46 : StableHlo.after hostOps2 W (Proc.devRef .tc main_v46) = gath (W (Proc.devRef .tc main_v39)) (W (Proc.devRef .tc main_v1)) := by
  after_results_simp <;> rfl

theorem host2_v53 : StableHlo.after hostOps2 W (Proc.devRef .tc main_v53) = gath (W (Proc.devRef .tc main_v39)) (W (Proc.devRef .tc main_v3)) := by
  after_results_simp <;> rfl

theorem host2_v57 : StableHlo.after hostOps2 W (Proc.devRef .tc main_v57) = waS (wa1 (W (Proc.devRef .tc main_arg3))) := by
  after_results_simp <;> rfl

theorem host2_v59 : StableHlo.after hostOps2 W (Proc.devRef .tc main_v59) = waD (wa1 (W (Proc.devRef .tc main_arg3))) := by
  after_results_simp <;> rfl

theorem host2_v62 : StableHlo.after hostOps2 W (Proc.devRef .tc main_v62) = ba11 (ba1 (W (Proc.devRef .tc main_arg4))) := by
  after_results_simp <;> rfl

theorem host2_keep_v1 : StableHlo.after hostOps2 W (Proc.devRef .tc main_v1) = W (Proc.devRef .tc main_v1) := by
  after_results_simp <;> rfl

theorem host2_keep_v3 : StableHlo.after hostOps2 W (Proc.devRef .tc main_v3) = W (Proc.devRef .tc main_v3) := by
  after_results_simp <;> rfl

theorem host2_keep_v39 : StableHlo.after hostOps2 W (Proc.devRef .tc main_v39) = W (Proc.devRef .tc main_v39) := by
  after_results_simp <;> rfl

theorem host2_keep_arg3 : StableHlo.after hostOps2 W (Proc.devRef .tc main_arg3) = W (Proc.devRef .tc main_arg3) := by
  after_results_simp <;> rfl

theorem host2_keep_arg4 : StableHlo.after hostOps2 W (Proc.devRef .tc main_arg4) = W (Proc.devRef .tc main_arg4) := by
  after_results_simp <;> rfl

theorem host2_keep_arg5 : StableHlo.after hostOps2 W (Proc.devRef .tc main_arg5) = W (Proc.devRef .tc main_arg5) := by
  after_results_simp <;> rfl

theorem host2_keep_arg6 : StableHlo.after hostOps2 W (Proc.devRef .tc main_arg6) = W (Proc.devRef .tc main_arg6) := by
  after_results_simp <;> rfl

end Cert.KernelIdeal.Hand

end
-- ==== Proof.KerHost3.lean ====
/-
  Host stretch 3 read back: from any buffer contents `W`, what each buffer a later segment reads holds after the
  stretch's operations — layer 1's summed messages and its update weights and bias — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host3_v66 : StableHlo.after hostOps3 W (Proc.devRef .tc main_v66) = agg (W (Proc.devRef .tc main_v3)) (W (Proc.devRef .tc main_v63)) := by
  after_results_simp <;> rfl

theorem host3_v69 : StableHlo.after hostOps3 W (Proc.devRef .tc main_v69) = wgX (wg1 (W (Proc.devRef .tc main_arg5))) := by
  after_results_simp <;> rfl

theorem host3_v70 : StableHlo.after hostOps3 W (Proc.devRef .tc main_v70) = wgA (wg1 (W (Proc.devRef .tc main_arg5))) := by
  after_results_simp <;> rfl

theorem host3_v73 : StableHlo.after hostOps3 W (Proc.devRef .tc main_v73) = bgRow (bg1 (W (Proc.devRef .tc main_arg6))) := by
  after_results_simp <;> rfl

theorem host3_keep_v1 : StableHlo.after hostOps3 W (Proc.devRef .tc main_v1) = W (Proc.devRef .tc main_v1) := by
  after_results_simp <;> rfl

theorem host3_keep_v3 : StableHlo.after hostOps3 W (Proc.devRef .tc main_v3) = W (Proc.devRef .tc main_v3) := by
  after_results_simp <;> rfl

theorem host3_keep_v39 : StableHlo.after hostOps3 W (Proc.devRef .tc main_v39) = W (Proc.devRef .tc main_v39) := by
  after_results_simp <;> rfl

theorem host3_keep_arg3 : StableHlo.after hostOps3 W (Proc.devRef .tc main_arg3) = W (Proc.devRef .tc main_arg3) := by
  after_results_simp <;> rfl

theorem host3_keep_arg4 : StableHlo.after hostOps3 W (Proc.devRef .tc main_arg4) = W (Proc.devRef .tc main_arg4) := by
  after_results_simp <;> rfl

theorem host3_keep_arg5 : StableHlo.after hostOps3 W (Proc.devRef .tc main_arg5) = W (Proc.devRef .tc main_arg5) := by
  after_results_simp <;> rfl

theorem host3_keep_arg6 : StableHlo.after hostOps3 W (Proc.devRef .tc main_arg6) = W (Proc.devRef .tc main_arg6) := by
  after_results_simp <;> rfl

end Cert.KernelIdeal.Hand

end
-- ==== Proof.KerHost4.lean ====
/-
  Host stretch 4 read back: from any buffer contents `W`, what each buffer a later segment reads holds after the
  stretch's operations — layer 2's gathered rows and its attention weights and bias — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host4_v81 : StableHlo.after hostOps4 W (Proc.devRef .tc main_v81) = gath (W (Proc.devRef .tc main_v74)) (W (Proc.devRef .tc main_v1)) := by
  after_results_simp <;> rfl

theorem host4_v88 : StableHlo.after hostOps4 W (Proc.devRef .tc main_v88) = gath (W (Proc.devRef .tc main_v74)) (W (Proc.devRef .tc main_v3)) := by
  after_results_simp <;> rfl

theorem host4_v92 : StableHlo.after hostOps4 W (Proc.devRef .tc main_v92) = waS (wa2 (W (Proc.devRef .tc main_arg3))) := by
  after_results_simp <;> rfl

theorem host4_v94 : StableHlo.after hostOps4 W (Proc.devRef .tc main_v94) = waD (wa2 (W (Proc.devRef .tc main_arg3))) := by
  after_results_simp <;> rfl

theorem host4_v97 : StableHlo.after hostOps4 W (Proc.devRef .tc main_v97) = ba11 (ba2 (W (Proc.devRef .tc main_arg4))) := by
  after_results_simp <;> rfl

theorem host4_keep_v3 : StableHlo.after hostOps4 W (Proc.devRef .tc main_v3) = W (Proc.devRef .tc main_v3) := by
  after_results_simp <;> rfl

theorem host4_keep_v74 : StableHlo.after hostOps4 W (Proc.devRef .tc main_v74) = W (Proc.devRef .tc main_v74) := by
  after_results_simp <;> rfl

theorem host4_keep_arg5 : StableHlo.after hostOps4 W (Proc.devRef .tc main_arg5) = W (Proc.devRef .tc main_arg5) := by
  after_results_simp <;> rfl

theorem host4_keep_arg6 : StableHlo.after hostOps4 W (Proc.devRef .tc main_arg6) = W (Proc.devRef .tc main_arg6) := by
  after_results_simp <;> rfl

end Cert.KernelIdeal.Hand

end
-- ==== Proof.KerHost5.lean ====
/-
  Host stretch 5 read back: from any buffer contents `W`, what each buffer a later segment reads holds after the
  stretch's operations — layer 2's summed messages and its update weights and bias — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host5_v101 : StableHlo.after hostOps5 W (Proc.devRef .tc main_v101) = agg (W (Proc.devRef .tc main_v3)) (W (Proc.devRef .tc main_v98)) := by
  after_results_simp <;> rfl

theorem host5_v104 : StableHlo.after hostOps5 W (Proc.devRef .tc main_v104) = wgX (wg2 (W (Proc.devRef .tc main_arg5))) := by
  after_results_simp <;> rfl

theorem host5_v105 : StableHlo.after hostOps5 W (Proc.devRef .tc main_v105) = wgA (wg2 (W (Proc.devRef .tc main_arg5))) := by
  after_results_simp <;> rfl

theorem host5_v108 : StableHlo.after hostOps5 W (Proc.devRef .tc main_v108) = bgRow (bg2 (W (Proc.devRef .tc main_arg6))) := by
  after_results_simp <;> rfl

theorem host5_keep_v74 : StableHlo.after hostOps5 W (Proc.devRef .tc main_v74) = W (Proc.devRef .tc main_v74) := by
  after_results_simp <;> rfl

end Cert.KernelIdeal.Hand

end
-- ==== Proof.KerHost6.lean ====
/-
  Host stretch 6 read back: from any buffer contents `W`, what each buffer a later segment reads holds after the
  stretch's operations — the two results: the user rows and the item rows of the last node table — and the buffers the stretch leaves alone.
-/
import proofs.«123907_j40140764349010_1_alg».proof.Proof.Gen.KernelIdeal.Launch
import proofs.«123907_j40140764349010_1_alg».proof.Proof.KerStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

theorem host6_v110 : StableHlo.after hostOps6 W (Proc.devRef .tc main_v110) = extractStridedSlice S50000x128 ![0, 0] (W (Proc.devRef .tc main_v109)) slices_S100000x128_S50000x128_0_0 := by
  after_results_simp <;> rfl

theorem host6_v111 : StableHlo.after hostOps6 W (Proc.devRef .tc main_v111) = extractStridedSlice S50000x128 ![50000, 0] (W (Proc.devRef .tc main_v109)) slices_S100000x128_S50000x128_50000_0 := by
  after_results_simp <;> rfl

end Cert.KernelIdeal.Hand

end
-- ==== Proof.KerPayload.lean ====
/-
  The two kernel bodies' stored values, read as formulas on the extended reals.

  The attention body loads a block of source rows, the matching block of destination rows, two weight rows and a bias,
  and stores, at row `p` and feature `q`, the source entry times the row's coefficient `1 / (1 + exp (0 - score p))`, where
  `score p` is the lane sum of source × first weight row plus the lane sum of destination × second weight row plus the
  bias. The update body stores `max (x·Wx + agg·Wa + b) 0` with both products accumulated into zero; its roundings to
  a shorter format are the identity on the extended reals. Each is the layer formula of the specification on the
  block's rows. The three launches of each body are one function.
-/
import proofs.«123907_j40140764349010_1_alg».proof.Proof.Gen.KernelIdeal.Skeleton
import proofs.«123907_j40140764349010_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Idealize.SL.Sem

/-! ## Layout operations at coordinates -/

/-- A row `[1,128]` repeated down `[n,128]` reads the row's entry. -/
theorem bcast_row {n : Nat} (v : FVec Ideal S1x128 .f32) (h : S1x128.Broadcasts ⟨2, ![n, 128]⟩) (p : Fin n) (q : Fin 128) :
    broadcastTo ⟨2, ![n, 128]⟩ v h (ix2 p q) = v (ix2 0 q) :=
  broadcastTo_apply v h (ix2 p q) (ix2 0 q) (fun a => match a with | ⟨0, _⟩ => rfl | ⟨1, _⟩ => rfl)

/-- A column `[8000,1]` repeated across `[8000,128]` reads the column's entry. -/
theorem bcast_col (v : FVec Ideal S8000x1 .f32) (h : S8000x1.Broadcasts S8000x128) (p : Fin 8000) (q : Fin 128) :
    broadcastTo S8000x128 v h (ix2 p q) = v (ix2 p 0) :=
  broadcastTo_apply v h (ix2 p q) (ix2 p 0) (fun a => match a with | ⟨0, _⟩ => rfl | ⟨1, _⟩ => rfl)

/-- The one entry of `[1,1]` repeated down `[8000,1]`. -/
theorem bcast_one (v : FVec Ideal S1x1 .f32) (h : S1x1.Broadcasts S8000x1) (p : Fin 8000) :
    broadcastTo S8000x1 v h (ix2 p 0) = v (ix2 0 0) :=
  broadcastTo_apply v h (ix2 p 0) (ix2 0 0) (fun a => match a with | ⟨0, _⟩ => rfl | ⟨1, _⟩ => rfl)

/-- A vector `[8000]` viewed as the column `[8000,1]`. -/
theorem cast_col (v : FVec Ideal S8000 .f32) (h : S8000.ShapeCasts S8000x1) (p : Fin 8000) :
    shapeCast S8000x1 v h (ix2 p 0) = v (ix1 p) :=
  shapeCast_apply v h (ix2 p 0) (ix1 p) (by
    rw [Shape.rowMajor_val_one, Shape.rowMajor_val_two]
    show p.val = p.val * 1 + 0
    omega)

/-- The lane sum of `[8000,128]` at row `p` is the sum of the row's 128 entries. -/
theorem lane_sum (v : FVec Ideal S8000x128 .f32) (h : S8000x128.Reduces [1] S8000) (hφ : FKind.Formats .f32)
    (hacc : (0x00000000#32 : BitVec 32) = FKind.add.neutral .f32 hφ) (p : Fin 8000) :
    multiReduction .add [1] S8000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

theorem exp_apply {s : Shape} (a : FVec Ideal s .f32) (i : s.Idx) : exp a i = Ideal.exp (a i) := rfl

/-! ## The attention body -/

set_option backward.isDefEq.respectTransparency.types false in
/-- The attention body's stored block is the scaled source rows of the specification on the block. -/
theorem attn_payload (x0 x1 : Vec Ideal S8000x128 .f32) (x2 x3 : Vec Ideal S1x128 .f32) (x4 : Vec Ideal S1x1 .f32) :
    k0_pay1 (F := Ideal) x0 x1 x2 x3 x4 = Cert.Spec.attn x0 x1 x2 x3 x4 := by
  funext j
  obtain ⟨p, q, rfl⟩ : ∃ (p : Fin 8000) (q : Fin 128), j = ix2 p q := ⟨j 0, j 1, eq_ix2 j⟩
  rw [Cert.Spec.attn_apply]
  unfold k0_pay1 Cert.Spec.coef Cert.Spec.score
  simp only [mulf_apply, divf_apply, addf_apply, subf_apply, exp_apply, broadcast_apply, shapeCast_self, bcast_col, bcast_one,
    cast_col, lane_sum, bcast_row]
  rw [lane_sum, lane_sum]
  simp only [mulf_apply, bcast_row]
  rfl

theorem attn_payload2 : @k2_pay1 Ideal _ = @k0_pay1 Ideal _ := rfl
theorem attn_payload4 : @k4_pay1 Ideal _ = @k0_pay1 Ideal _ := rfl

/-! ## The update body -/

/-- The kernel's matrix product `[5000,128] × [128,128]`, with one contracted axis. -/
abbrev DK := dot_S5000x128_S128x128_S5000x128_1_0_0_1_n_n

theorem DK_lhs0 (i : S5000x128.Idx) (r : DK.contr.Idx) : (DK.lhsIdx i r 0).val = (i 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_lhs1 (i : S5000x128.Idx) (r : DK.contr.Idx) : (DK.lhsIdx i r 1).val = (r ⟨0, by decide⟩).val :=
  DK.lhsIdx_val_of_single rfl i r
theorem DK_rhs0 (i : S5000x128.Idx) (r : DK.contr.Idx) : (DK.rhsIdx i r 0).val = (r ⟨0, by decide⟩).val :=
  DK.rhsIdx_val_of_single rfl i r
theorem DK_rhs1 (i : S5000x128.Idx) (r : DK.contr.Idx) : (DK.rhsIdx i r 1).val = (i 1).val := by
  unfold DotDims.rhsIdx
  rw [dif_neg (show ¬(1 : Fin S128x128.rank) ∈ DK.rhsBatch by decide), dif_pos (show (1 : Fin S128x128.rank) ∈ DK.rhsNonContracting by decide)]
  rfl

/-- The product into a zero accumulator at `(p, q)`: row `p` of the left operand against column `q` of the right. -/
theorem mm_apply {φ₁ φ₂ : FTy} (a : FVec Ideal S5000x128 φ₁) (w : FVec Ideal S128x128 φ₂) (p : Fin 5000) (q : Fin 128) :
    matmul DK none a w (constant S5000x128 .f32 0x00000000#32) (ix2 p q) = ∑ k : Fin 128, a (ix2 p k) * w (ix2 k q) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : DK.lhsIdx (ix2 p q) ((contrEquiv1 DK 128 rfl rfl).symm k) = ix2 p k := funext fun a => Fin.ext (by
    match a with
    | ⟨0, _⟩ => exact DK_lhs0 _ _
    | ⟨1, _⟩ => exact (DK_lhs1 _ _).trans hk)
  have er : DK.rhsIdx (ix2 p q) ((contrEquiv1 DK 128 rfl rfl).symm k) = ix2 k q := funext fun a => Fin.ext (by
    match a with
    | ⟨0, _⟩ => exact (DK_rhs0 _ _).trans hk
    | ⟨1, _⟩ => exact DK_rhs1 _ _)
  rw [el, er]

/-- The update body's stored block is the node update of the specification on the block. -/
theorem upd_payload (x0 x1 : Vec Ideal S5000x128 .f32) (x2 x3 : Vec Ideal S128x128 .f32) (x4 : Vec Ideal S1x128 .f32) :
    k1_pay1 (F := Ideal) x0 x1 x2 x3 x4 = Cert.Spec.upd x0 x1 x2 x3 x4 := by
  funext j
  obtain ⟨p, q, rfl⟩ : ∃ (p : Fin 5000) (q : Fin 128), j = ix2 p q := ⟨j 0, j 1, eq_ix2 j⟩
  rw [Cert.Spec.upd_apply]
  unfold k1_pay1
  simp only [maximumf_apply, addf_apply, broadcast_apply, shapeCast_self, bcast_row, mm_apply, truncf_apply]
  rfl

theorem upd_payload3 : @k3_pay1 Ideal _ = @k1_pay1 Ideal _ := rfl
theorem upd_payload5 : @k5_pay1 Ideal _ = @k1_pay1 Ideal _ := rfl

end Cert.KernelIdeal.Hand

end
-- ==== Proof.KerRegion0.lean ====
/-
  Region 0: the attention kernel over its grid of 75 points. Point `t` stages rows `8000·t … 8000·t + 7999` of the
  gathered source rows and of the gathered destination rows, the two weight rows and the bias whole, computes the
  scaled source rows of its block and writes them back to rows `8000·t …` of the result. A row of the scaled rows
  depends on that row of the operands only, so each written block is the block of ONE whole-array value, and the
  75 blocks tile the 600000 rows: the result array ends holding the scaled source rows of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the two row windows and the result window sit at block row `t`, the
    small operands at block `(0, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array value the region leaves: the scaled source rows of the arrays as the region finds them. -/
def G0 (c : Dev nD) : S600000x128.Idx → EReal :=
  Cert.Spec.attn (V c main_v11) (V c main_v18) (V c main_v22) (V c main_v24) (V c main_v27)

/-- A row window's block at point `t` is rows `8000·t …` of its array. -/
theorem rows0_0 (c : Dev nD) (t : Fin cfg0.N) (x : S8000x128.Idx) (k : S600000x128.Idx)
    (hk0 : (k 0).val = t.val * 8000 + (x 0).val) (hk1 : (k 1).val = (x 1).val) :
    (iblk0 V c 0 t : Vec Ideal S8000x128 .f32) x = (V c main_v11 : S600000x128.Idx → EReal) k := by
  obtain ⟨e00, e01, -⟩ := idx_facts0 t
  unfold iblk0
  rw [View.read_apply]
  show V c main_v11 _ = V c main_v11 _
  congr 1
  funext a
  apply Fin.ext
  match a with
  | ⟨0, _⟩ => show win0_0.index t 0 * 8000 + 1 * (x 0).val = (k 0).val; rw [e00, hk0]; omega
  | ⟨1, _⟩ => show win0_0.index t 1 * 128 + 1 * (x 1).val = (k 1).val; rw [e01, hk1]; omega

theorem rows0_1 (c : Dev nD) (t : Fin cfg0.N) (x : S8000x128.Idx) (k : S600000x128.Idx)
    (hk0 : (k 0).val = t.val * 8000 + (x 0).val) (hk1 : (k 1).val = (x 1).val) :
    (iblk0 V c 1 t : Vec Ideal S8000x128 .f32) x = (V c main_v18 : S600000x128.Idx → EReal) k := by
  obtain ⟨-, -, e10, e11, -⟩ := idx_facts0 t
  unfold iblk0
  rw [View.read_apply]
  show V c main_v18 _ = V c main_v18 _
  congr 1
  funext a
  apply Fin.ext
  match a with
  | ⟨0, _⟩ => show win0_1.index t 0 * 8000 + 1 * (x 0).val = (k 0).val; rw [e10, hk0]; omega
  | ⟨1, _⟩ => show win0_1.index t 1 * 128 + 1 * (x 1).val = (k 1).val; rw [e11, hk1]; omega

/-- A small operand's one block is its whole array. -/
theorem whole0_2 (c : Dev nD) (t : Fin cfg0.N) :
    (iblk0 V c 2 t : Vec Ideal S1x128 .f32) = (V c main_v22 : S1x128.Idx → EReal) := by
  obtain ⟨-, -, -, -, e20, e21, -⟩ := idx_facts0 t
  funext x
  unfold iblk0
  rw [View.read_apply]
  show V c main_v22 _ = V c main_v22 _
  congr 1
  funext a
  apply Fin.ext
  match a with
  | ⟨0, _⟩ => show win0_2.index t 0 * 1 + 1 * (x 0).val = (x 0).val; rw [e20]; omega
  | ⟨1, _⟩ => show win0_2.index t 1 * 128 + 1 * (x 1).val = (x 1).val; rw [e21]; omega

theorem whole0_3 (c : Dev nD) (t : Fin cfg0.N) :
    (iblk0 V c 3 t : Vec Ideal S1x128 .f32) = (V c main_v24 : S1x128.Idx → EReal) := by
  obtain ⟨-, -, -, -, -, -, e30, e31, -⟩ := idx_facts0 t
  funext x
  unfold iblk0
  rw [View.read_apply]
  show V c main_v24 _ = V c main_v24 _
  congr 1
  funext a
  apply Fin.ext
  match a with
  | ⟨0, _⟩ => show win0_3.index t 0 * 1 + 1 * (x 0).val = (x 0).val; rw [e30]; omega
  | ⟨1, _⟩ => show win0_3.index t 1 * 128 + 1 * (x 1).val = (x 1).val; rw [e31]; omega

theorem whole0_4 (c : Dev nD) (t : Fin cfg0.N) :
    (iblk0 V c 4 t : Vec Ideal S1x1 .f32) = (V c main_v27 : S1x1.Idx → EReal) := by
  obtain ⟨-, -, -, -, -, -, -, -, e40, e41, -⟩ := idx_facts0 t
  funext x
  unfold iblk0
  rw [View.read_apply]
  show V c main_v27 _ = V c main_v27 _
  congr 1
  funext a
  apply Fin.ext
  match a with
  | ⟨0, _⟩ => show win0_4.index t 0 * 1 + 1 * (x 0).val = (x 0).val; rw [e40]; omega
  | ⟨1, _⟩ => show win0_4.index t 1 * 1 + 1 * (x 1).val = (x 1).val; rw [e41]; omega

/-- What point `t` writes back is block `t` of the whole-array value. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S8000x128) hz0, View.ld_unit_zero (S := S1x128) hz0, View.ld_unit_zero (S := S1x1) hz0]
  rw [attn_payload, whole0_2, whole0_3, whole0_4]
  obtain ⟨-, -, -, -, -, -, -, -, -, -, e50, e51⟩ := idx_facts0 t
  funext j
  obtain ⟨p, q, rfl⟩ : ∃ (p : Fin 8000) (q : Fin 128), j = (ix2 p q : S8000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 75 := t.isLt
  have hp : p.val < 8000 := p.isLt
  have hji : (((cfg0.win 5).blk t).view.emb (ix2 p q) : S600000x128.Idx) = ix2 (⟨t.val * 8000 + p.val, by omega⟩ : Fin 600000) q := by
    funext a
    apply Fin.ext
    match a with
    | ⟨0, _⟩ => show win0_5.index t 0 * 8000 + 1 * p.val = t.val * 8000 + p.val; rw [e50]; omega
    | ⟨1, _⟩ => show win0_5.index t 1 * 128 + 1 * q.val = q.val; rw [e51]; omega
  show Cert.Spec.attn (iblk0 V c 0 t) (iblk0 V c 1 t) (V c main_v22) (V c main_v24) (V c main_v27) (ix2 p q) = G0 V c _
  rw [hji]
  unfold G0
  exact Cert.Spec.attn_rows (fun p : Fin 8000 => (⟨t.val * 8000 + p.val, by have := p.isLt; omega⟩ : Fin 600000))
    (iblk0 V c 0 t) (iblk0 V c 1 t) (V c main_v11) (V c main_v18) (V c main_v22) (V c main_v24) (V c main_v27)
    (fun p k => rows0_0 V c t (ix2 p k) _ rfl rfl) (fun p k => rows0_1 V c t (ix2 p k) _ rfl rfl) p q

/-- An index of the result array is in point `t`'s block iff each coordinate is in the block's range. -/
theorem mem_blk0 (t : Fin cfg0.N) (i : S600000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v28).slice (win0_5.rect t)).set ↔ _
  rw [View.set_slice_whole, Rect.mem_set_unit]
  exact Iff.rfl

/-- Every row of the result is in the block of the point its row index divided by 8000 names. -/
theorem cover0 (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 75 := N_0
  refine ⟨⟨(i 0).val / 8000, by rw [hN]; omega⟩, flush0_5 _, ?_⟩
  rw [mem_blk0]
  obtain ⟨-, -, -, -, -, -, -, -, -, -, e50, e51⟩ := idx_facts0 ⟨(i 0).val / 8000, by rw [hN]; omega⟩
  intro a
  match a with
  | ⟨0, _⟩ => show win0_5.index _ (0 : Fin 2) * 8000 ≤ (i 0).val ∧ (i 0).val < win0_5.index _ (0 : Fin 2) * 8000 + 8000; rw [e50]; show (i 0).val / 8000 * 8000 ≤ (i 0).val ∧ (i 0).val < (i 0).val / 8000 * 8000 + 8000; omega
  | ⟨1, _⟩ => show win0_5.index _ (1 : Fin 2) * 128 ≤ (i 1).val ∧ (i 1).val < win0_5.index _ (1 : Fin 2) * 128 + 128; rw [e51]; omega

/-- The result array after the region is the whole-array value. -/
theorem final0 (c : Dev nD) : (dat0 V c).arrAt 5 cfg0.N = G0 V c :=
  (dat0 V c).arrAt_eq_of_cover 5 (G0 V c) (fun t _ => flushed0 V c t) cover0

end Cert.KernelIdeal.Hand

end
-- ==== Proof.KerRegion1.lean ====
/-
  Region 1: the update kernel over its grid of 20 points. Point `t` stages rows `5000·t … 5000·t + 4999` of the
  node table and of the aggregated messages, the two weight matrices and the bias row whole, computes the updated
  rows of its block and writes them back to rows `5000·t …` of the result. A row of the update depends on that row
  of the two row operands only, so each written block is the block of ONE whole-array value, and the 20 blocks tile
  the 100000 rows: the result array ends holding the node update of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the two row windows and the result window sit at block row `t`, the
    small operands at block `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole-array value the region leaves: the updated node rows of the arrays as the region finds them. -/
def G1 (c : Dev nD) : S100000x128.Idx → EReal :=
  Cert.Spec.upd (V c main_v4) (V c main_v31) (V c main_v34) (V c main_v35) (V c main_v38)

/-- A row window's block at point `t` is rows `5000·t …` of its array. -/
theorem rows1_0 (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v4 : S100000x128.Idx → EReal) k := by
  obtain ⟨e00, e01, -⟩ := idx_facts1 t
  unfold iblk1
  rw [View.read_apply]
  show V c main_v4 _ = V c main_v4 _
  congr 1
  funext a
  apply Fin.ext
  match a with
  | ⟨0, _⟩ => show win1_0.index t 0 * 5000 + 1 * (x 0).val = (k 0).val; rw [e00, hk0]; omega
  | ⟨1, _⟩ => show win1_0.index t 1 * 128 + 1 * (x 1).val = (k 1).val; rw [e01, hk1]; omega

theorem rows1_1 (c : Dev nD) (t : Fin cfg1.N) (x : S5000x128.Idx) (k : S100000x128.Idx)
    (hk0 : (k 0).val = t.val * 5000 + (x 0).val) (hk1 : (k 1).val = (x 1).val) :
    (iblk1 V c 1 t : Vec Ideal S5000x128 .f32) x = (V c main_v31 : S100000x128.Idx → EReal) k := by
  obtain ⟨-, -, e10, e11, -⟩ := idx_facts1 t
  unfold iblk1
  rw [View.read_apply]
  show V c main_v31 _ = V c main_v31 _
  congr 1
  funext a
  apply Fin.ext
  match a with
  | ⟨0, _⟩ => show win1_1.index t 0 * 5000 + 1 * (x 0).val = (k 0).val; rw [e10, hk0]; omega
  | ⟨1, _⟩ => show win1_1.index t 1 * 128 + 1 * (x 1).val = (k 1).val; rw [e11, hk1]; omega

/-- A small operand's one block is its whole array. -/
theorem whole1_2 (c : Dev nD) (t : Fin cfg1.N) :
    (iblk1 V c 2 t : Vec Ideal S128x128 .f32) = (V c main_v34 : S128x128.Idx → EReal) := by
  obtain ⟨-, -, -, -, e20, e21, -⟩ := idx_facts1 t
  funext x
  unfold iblk1
  rw [View.read_apply]
  show V c main_v34 _ = V c main_v34 _
  congr 1
  funext a
  apply Fin.ext
  match a with
  | ⟨0, _⟩ => show win1_2.index t 0 * 128 + 1 * (x 0).val = (x 0).val; rw [e20]; omega
  | ⟨1, _⟩ => show win1_2.index t 1 * 128 + 1 * (x 1).val = (x 1).val; rw [e21]; omega

theorem whole1_3 (c : Dev nD) (t : Fin cfg1.N) :
    (iblk1 V c 3 t : Vec Ideal S128x128 .f32) = (V c main_v35 : S128x128.Idx → EReal) := by
  obtain ⟨-, -, -, -, -, -, e30, e31, -⟩ := idx_facts1 t
  funext x
  unfold iblk1
  rw [View.read_apply]
  show V c main_v35 _ = V c main_v35 _
  congr 1
  funext a
  apply Fin.ext
  match a with
  | ⟨0, _⟩ => show win1_3.index t 0 * 128 + 1 * (x 0).val = (x 0).val; rw [e30]; omega
  | ⟨1, _⟩ => show win1_3.index t 1 * 128 + 1 * (x 1).val = (x 1).val; rw [e31]; omega

theorem whole1_4 (c : Dev nD) (t : Fin cfg1.N) :
    (iblk1 V c 4 t : Vec Ideal S1x128 .f32) = (V c main_v38 : S1x128.Idx → EReal) := by
  obtain ⟨-, -, -, -, -, -, -, -, e40, e41, -⟩ := idx_facts1 t
  funext x
  unfold iblk1
  rw [View.read_apply]
  show V c main_v38 _ = V c main_v38 _
  congr 1
  funext a
  apply Fin.ext
  match a with
  | ⟨0, _⟩ => show win1_4.index t 0 * 1 + 1 * (x 0).val = (x 0).val; rw [e40]; omega
  | ⟨1, _⟩ => show win1_4.index t 1 * 128 + 1 * (x 1).val = (x 1).val; rw [e41]; omega

/-- What point `t` writes back is block `t` of the whole-array value. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1, View.ld_unit_zero (S := S1x128) hz1]
  rw [upd_payload, whole1_2, whole1_3, whole1_4]
  obtain ⟨-, -, -, -, -, -, -, -, -, -, e50, e51⟩ := idx_facts1 t
  funext j
  obtain ⟨p, q, rfl⟩ : ∃ (p : Fin 5000) (q : Fin 128), j = (ix2 p q : S5000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 20 := t.isLt
  have hp : p.val < 5000 := p.isLt
  have hji : (((cfg1.win 5).blk t).view.emb (ix2 p q) : S100000x128.Idx) = ix2 (⟨t.val * 5000 + p.val, by omega⟩ : Fin 100000) q := by
    funext a
    apply Fin.ext
    match a with
    | ⟨0, _⟩ => show win1_5.index t 0 * 5000 + 1 * p.val = t.val * 5000 + p.val; rw [e50]; omega
    | ⟨1, _⟩ => show win1_5.index t 1 * 128 + 1 * q.val = q.val; rw [e51]; omega
  show Cert.Spec.upd (iblk1 V c 0 t) (iblk1 V c 1 t) (V c main_v34) (V c main_v35) (V c main_v38) (ix2 p q) = G1 V c _
  rw [hji]
  unfold G1
  exact Cert.Spec.upd_rows (fun p : Fin 5000 => (⟨t.val * 5000 + p.val, by have := p.isLt; omega⟩ : Fin 100000))
    (iblk1 V c 0 t) (iblk1 V c 1 t) (V c main_v4) (V c main_v31) (V c main_v34) (V c main_v35) (V c main_v38)
    (fun p k => rows1_0 V c t (ix2 p k) _ rfl rfl) (fun p k => rows1_1 V c t (ix2 p k) _ rfl rfl) p q

/-- An index of the result array is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every row of the result is in the block of the point its row index divided by 5000 names. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, -, e50, e51⟩ := idx_facts1 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e51]; omega

/-- The result array after the region is the whole-array value. -/
theorem final1 (c : Dev nD) : (dat1 V c).arrAt 5 cfg1.N = G1 V c :=
  (dat1 V c).arrAt_eq_of_cover 5 (G1 V c) (fun t _ => flushed1 V c t) cover1

end Cert.KernelIdeal.Hand

end
-- ==== Proof.KerRegion2.lean ====
/-
  Region 2: the attention kernel over its grid of 75 points. Point `t` stages rows `8000·t … 8000·t + 7999` of the
  gathered source rows and of the gathered destination rows, the two weight rows and the bias whole, computes the
  scaled source rows of its block and writes them back to rows `8000·t …` of the result. A row of the scaled rows
  depends on that row of the operands only, so each written block is the block of ONE whole-array value, and the
  75 blocks tile the 600000 rows: the result array ends holding the scaled source rows of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the two row windows and the result window sit at block row `t`, the
    small operands at block `(0, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole-array value the region leaves: the scaled source rows of the arrays as the region finds them. -/
def G2 (c : Dev nD) : S600000x128.Idx → EReal :=
  Cert.Spec.attn (V c main_v46) (V c main_v53) (V c main_v57) (V c main_v59) (V c main_v62)

/-- A row window's block at point `t` is rows `8000·t …` of its array. -/
theorem rows2_0 (c : Dev nD) (t : Fin cfg2.N) (x : S8000x128.Idx) (k : S600000x128.Idx)
    (hk0 : (k 0).val = t.val * 8000 + (x 0).val) (hk1 : (k 1).val = (x 1).val) :
    (iblk2 V c 0 t : Vec Ideal S8000x128 .f32) x = (V c main_v46 : S600000x128.Idx → EReal) k := by
  obtain ⟨e00, e01, -⟩ := idx_facts2 t
  unfold iblk2
  rw [View.read_apply]
  show V c main_v46 _ = V c main_v46 _
  congr 1
  funext a
  apply Fin.ext
  match a with
  | ⟨0, _⟩ => show win2_0.index t 0 * 8000 + 1 * (x 0).val = (k 0).val; rw [e00, hk0]; omega
  | ⟨1, _⟩ => show win2_0.index t 1 * 128 + 1 * (x 1).val = (k 1).val; rw [e01, hk1]; omega

theorem rows2_1 (c : Dev nD) (t : Fin cfg2.N) (x : S8000x128.Idx) (k : S600000x128.Idx)
    (hk0 : (k 0).val = t.val * 8000 + (x 0).val) (hk1 : (k 1).val = (x 1).val) :
    (iblk2 V c 1 t : Vec Ideal S8000x128 .f32) x = (V c main_v53 : S600000x128.Idx → EReal) k := by
  obtain ⟨-, -, e10, e11, -⟩ := idx_facts2 t
  unfold iblk2
  rw [View.read_apply]
  show V c main_v53 _ = V c main_v53 _
  congr 1
  funext a
  apply Fin.ext
  match a with
  | ⟨0, _⟩ => show win2_1.index t 0 * 8000 + 1 * (x 0).val = (k 0).val; rw [e10, hk0]; omega
  | ⟨1, _⟩ => show win2_1.index t 1 * 128 + 1 * (x 1).val = (k 1).val; rw [e11, hk1]; omega

/-- A small operand's one block is its whole array. -/
theorem whole2_2 (c : Dev nD) (t : Fin cfg2.N) :
    (iblk2 V c 2 t : Vec Ideal S1x128 .f32) = (V c main_v57 : S1x128.Idx → EReal) := by
  obtain ⟨-, -, -, -, e20, e21, -⟩ := idx_facts2 t
  funext x
  unfold iblk2
  rw [View.read_apply]
  show V c main_v57 _ = V c main_v57 _
  congr 1
  funext a
  apply Fin.ext
  match a with
  | ⟨0, _⟩ => show win2_2.index t 0 * 1 + 1 * (x 0).val = (x 0).val; rw [e20]; omega
  | ⟨1, _⟩ => show win2_2.index t 1 * 128 + 1 * (x 1).val = (x 1).val; rw [e21]; omega

theorem whole2_3 (c : Dev nD) (t : Fin cfg2.N) :
    (iblk2 V c 3 t : Vec Ideal S1x128 .f32) = (V c main_v59 : S1x128.Idx → EReal) := by
  obtain ⟨-, -, -, -, -, -, e30, e31, -⟩ := idx_facts2 t
  funext x
  unfold iblk2
  rw [View.read_apply]
  show V c main_v59 _ = V c main_v59 _
  congr 1
  funext a
  apply Fin.ext
  match a with
  | ⟨0, _⟩ => show win2_3.index t 0 * 1 + 1 * (x 0).val = (x 0).val; rw [e30]; omega
  | ⟨1, _⟩ => show win2_3.index t 1 * 128 + 1 * (x 1).val = (x 1).val; rw [e31]; omega

theorem whole2_4 (c : Dev nD) (t : Fin cfg2.N) :
    (iblk2 V c 4 t : Vec Ideal S1x1 .f32) = (V c main_v62 : S1x1.Idx → EReal) := by
  obtain ⟨-, -, -, -, -, -, -, -, e40, e41, -⟩ := idx_facts2 t
  funext x
  unfold iblk2
  rw [View.read_apply]
  show V c main_v62 _ = V c main_v62 _
  congr 1
  funext a
  apply Fin.ext
  match a with
  | ⟨0, _⟩ => show win2_4.index t 0 * 1 + 1 * (x 0).val = (x 0).val; rw [e40]; omega
  | ⟨1, _⟩ => show win2_4.index t 1 * 1 + 1 * (x 1).val = (x 1).val; rw [e41]; omega

/-- What point `t` writes back is block `t` of the whole-array value. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S8000x128) hz2, View.ld_unit_zero (S := S1x128) hz2, View.ld_unit_zero (S := S1x1) hz2]
  rw [show @k2_pay1 Ideal _ = @k0_pay1 Ideal _ from rfl]
  rw [attn_payload, whole2_2, whole2_3, whole2_4]
  obtain ⟨-, -, -, -, -, -, -, -, -, -, e50, e51⟩ := idx_facts2 t
  funext j
  obtain ⟨p, q, rfl⟩ : ∃ (p : Fin 8000) (q : Fin 128), j = (ix2 p q : S8000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 75 := t.isLt
  have hp : p.val < 8000 := p.isLt
  have hji : (((cfg2.win 5).blk t).view.emb (ix2 p q) : S600000x128.Idx) = ix2 (⟨t.val * 8000 + p.val, by omega⟩ : Fin 600000) q := by
    funext a
    apply Fin.ext
    match a with
    | ⟨0, _⟩ => show win2_5.index t 0 * 8000 + 1 * p.val = t.val * 8000 + p.val; rw [e50]; omega
    | ⟨1, _⟩ => show win2_5.index t 1 * 128 + 1 * q.val = q.val; rw [e51]; omega
  show Cert.Spec.attn (iblk2 V c 0 t) (iblk2 V c 1 t) (V c main_v57) (V c main_v59) (V c main_v62) (ix2 p q) = G2 V c _
  rw [hji]
  unfold G2
  exact Cert.Spec.attn_rows (fun p : Fin 8000 => (⟨t.val * 8000 + p.val, by have := p.isLt; omega⟩ : Fin 600000))
    (iblk2 V c 0 t) (iblk2 V c 1 t) (V c main_v46) (V c main_v53) (V c main_v57) (V c main_v59) (V c main_v62)
    (fun p k => rows2_0 V c t (ix2 p k) _ rfl rfl) (fun p k => rows2_1 V c t (ix2 p k) _ rfl rfl) p q

/-- An index of the result array is in point `t`'s block iff each coordinate is in the block's range. -/
theorem mem_blk2 (t : Fin cfg2.N) (i : S600000x128.Idx) :
    i ∈ ((cfg2.win 5).blk t).view.set ↔ ∀ a : Fin 2, win2_5.index t a * S8000x128.size a ≤ (i a).val ∧ (i a).val < win2_5.index t a * S8000x128.size a + S8000x128.size a := by
  show i ∈ ((View.whole main_v63).slice (win2_5.rect t)).set ↔ _
  rw [View.set_slice_whole, Rect.mem_set_unit]
  exact Iff.rfl

/-- Every row of the result is in the block of the point its row index divided by 8000 names. -/
theorem cover2 (i : S600000x128.Idx) : ∃ t : Fin cfg2.N, (cfg2.win 5).flush t = true ∧ i ∈ ((cfg2.win 5).blk t).view.set := by
  have hi0 : (i 0).val < 600000 := (i 0).isLt
  have hi1 : (i 1).val < 128 := (i 1).isLt
  have hN : cfg2.N = 75 := N_2
  refine ⟨⟨(i 0).val / 8000, by rw [hN]; omega⟩, flush2_5 _, ?_⟩
  rw [mem_blk2]
  obtain ⟨-, -, -, -, -, -, -, -, -, -, e50, e51⟩ := idx_facts2 ⟨(i 0).val / 8000, by rw [hN]; omega⟩
  intro a
  match a with
  | ⟨0, _⟩ => show win2_5.index _ (0 : Fin 2) * 8000 ≤ (i 0).val ∧ (i 0).val < win2_5.index _ (0 : Fin 2) * 8000 + 8000; rw [e50]; show (i 0).val / 8000 * 8000 ≤ (i 0).val ∧ (i 0).val < (i 0).val / 8000 * 8000 + 8000; omega
  | ⟨1, _⟩ => show win2_5.index _ (1 : Fin 2) * 128 ≤ (i 1).val ∧ (i 1).val < win2_5.index _ (1 : Fin 2) * 128 + 128; rw [e51]; omega

/-- The result array after the region is the whole-array value. -/
theorem final2 (c : Dev nD) : (dat2 V c).arrAt 5 cfg2.N = G2 V c :=
  (dat2 V c).arrAt_eq_of_cover 5 (G2 V c) (fun t _ => flushed2 V c t) cover2

end Cert.KernelIdeal.Hand

end
-- ==== Proof.KerRegion3.lean ====
/-
  Region 3: the update kernel over its grid of 20 points. Point `t` stages rows `5000·t … 5000·t + 4999` of the
  node table and of the aggregated messages, the two weight matrices and the bias row whole, computes the updated
  rows of its block and writes them back to rows `5000·t …` of the result. A row of the update depends on that row
  of the two row operands only, so each written block is the block of ONE whole-array value, and the 20 blocks tile
  the 100000 rows: the result array ends holding the node update of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the two row windows and the result window sit at block row `t`, the
    small operands at block `(0, 0)`. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The whole-array value the region leaves: the updated node rows of the arrays as the region finds them. -/
def G3 (c : Dev nD) : S100000x128.Idx → EReal :=
  Cert.Spec.upd (V c main_v39) (V c main_v66) (V c main_v69) (V c main_v70) (V c main_v73)

/-- A row window's block at point `t` is rows `5000·t …` of its array. -/
theorem rows3_0 (c : Dev nD) (t : Fin cfg3.N) (x : S5000x128.Idx) (k : S100000x128.Idx)
    (hk0 : (k 0).val = t.val * 5000 + (x 0).val) (hk1 : (k 1).val = (x 1).val) :
    (iblk3 V c 0 t : Vec Ideal S5000x128 .f32) x = (V c main_v39 : S100000x128.Idx → EReal) k := by
  obtain ⟨e00, e01, -⟩ := idx_facts3 t
  unfold iblk3
  rw [View.read_apply]
  show V c main_v39 _ = V c main_v39 _
  congr 1
  funext a
  apply Fin.ext
  match a with
  | ⟨0, _⟩ => show win3_0.index t 0 * 5000 + 1 * (x 0).val = (k 0).val; rw [e00, hk0]; omega
  | ⟨1, _⟩ => show win3_0.index t 1 * 128 + 1 * (x 1).val = (k 1).val; rw [e01, hk1]; omega

theorem rows3_1 (c : Dev nD) (t : Fin cfg3.N) (x : S5000x128.Idx) (k : S100000x128.Idx)
    (hk0 : (k 0).val = t.val * 5000 + (x 0).val) (hk1 : (k 1).val = (x 1).val) :
    (iblk3 V c 1 t : Vec Ideal S5000x128 .f32) x = (V c main_v66 : S100000x128.Idx → EReal) k := by
  obtain ⟨-, -, e10, e11, -⟩ := idx_facts3 t
  unfold iblk3
  rw [View.read_apply]
  show V c main_v66 _ = V c main_v66 _
  congr 1
  funext a
  apply Fin.ext
  match a with
  | ⟨0, _⟩ => show win3_1.index t 0 * 5000 + 1 * (x 0).val = (k 0).val; rw [e10, hk0]; omega
  | ⟨1, _⟩ => show win3_1.index t 1 * 128 + 1 * (x 1).val = (k 1).val; rw [e11, hk1]; omega

/-- A small operand's one block is its whole array. -/
theorem whole3_2 (c : Dev nD) (t : Fin cfg3.N) :
    (iblk3 V c 2 t : Vec Ideal S128x128 .f32) = (V c main_v69 : S128x128.Idx → EReal) := by
  obtain ⟨-, -, -, -, e20, e21, -⟩ := idx_facts3 t
  funext x
  unfold iblk3
  rw [View.read_apply]
  show V c main_v69 _ = V c main_v69 _
  congr 1
  funext a
  apply Fin.ext
  match a with
  | ⟨0, _⟩ => show win3_2.index t 0 * 128 + 1 * (x 0).val = (x 0).val; rw [e20]; omega
  | ⟨1, _⟩ => show win3_2.index t 1 * 128 + 1 * (x 1).val = (x 1).val; rw [e21]; omega

theorem whole3_3 (c : Dev nD) (t : Fin cfg3.N) :
    (iblk3 V c 3 t : Vec Ideal S128x128 .f32) = (V c main_v70 : S128x128.Idx → EReal) := by
  obtain ⟨-, -, -, -, -, -, e30, e31, -⟩ := idx_facts3 t
  funext x
  unfold iblk3
  rw [View.read_apply]
  show V c main_v70 _ = V c main_v70 _
  congr 1
  funext a
  apply Fin.ext
  match a with
  | ⟨0, _⟩ => show win3_3.index t 0 * 128 + 1 * (x 0).val = (x 0).val; rw [e30]; omega
  | ⟨1, _⟩ => show win3_3.index t 1 * 128 + 1 * (x 1).val = (x 1).val; rw [e31]; omega

theorem whole3_4 (c : Dev nD) (t : Fin cfg3.N) :
    (iblk3 V c 4 t : Vec Ideal S1x128 .f32) = (V c main_v73 : S1x128.Idx → EReal) := by
  obtain ⟨-, -, -, -, -, -, -, -, e40, e41, -⟩ := idx_facts3 t
  funext x
  unfold iblk3
  rw [View.read_apply]
  show V c main_v73 _ = V c main_v73 _
  congr 1
  funext a
  apply Fin.ext
  match a with
  | ⟨0, _⟩ => show win3_4.index t 0 * 1 + 1 * (x 0).val = (x 0).val; rw [e40]; omega
  | ⟨1, _⟩ => show win3_4.index t 1 * 128 + 1 * (x 1).val = (x 1).val; rw [e41]; omega

/-- What point `t` writes back is block `t` of the whole-array value. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3, View.ld_unit_zero (S := S1x128) hz3]
  rw [show @k3_pay1 Ideal _ = @k1_pay1 Ideal _ from rfl]
  rw [upd_payload, whole3_2, whole3_3, whole3_4]
  obtain ⟨-, -, -, -, -, -, -, -, -, -, e50, e51⟩ := idx_facts3 t
  funext j
  obtain ⟨p, q, rfl⟩ : ∃ (p : Fin 5000) (q : Fin 128), j = (ix2 p q : S5000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 20 := t.isLt
  have hp : p.val < 5000 := p.isLt
  have hji : (((cfg3.win 5).blk t).view.emb (ix2 p q) : S100000x128.Idx) = ix2 (⟨t.val * 5000 + p.val, by omega⟩ : Fin 100000) q := by
    funext a
    apply Fin.ext
    match a with
    | ⟨0, _⟩ => show win3_5.index t 0 * 5000 + 1 * p.val = t.val * 5000 + p.val; rw [e50]; omega
    | ⟨1, _⟩ => show win3_5.index t 1 * 128 + 1 * q.val = q.val; rw [e51]; omega
  show Cert.Spec.upd (iblk3 V c 0 t) (iblk3 V c 1 t) (V c main_v69) (V c main_v70) (V c main_v73) (ix2 p q) = G3 V c _
  rw [hji]
  unfold G3
  exact Cert.Spec.upd_rows (fun p : Fin 5000 => (⟨t.val * 5000 + p.val, by have := p.isLt; omega⟩ : Fin 100000))
    (iblk3 V c 0 t) (iblk3 V c 1 t) (V c main_v39) (V c main_v66) (V c main_v69) (V c main_v70) (V c main_v73)
    (fun p k => rows3_0 V c t (ix2 p k) _ rfl rfl) (fun p k => rows3_1 V c t (ix2 p k) _ rfl rfl) p q

/-- An index of the result array is in point `t`'s block iff each coordinate is in the block's range. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v74).slice (win3_5.rect t)).set ↔ _
  rw [View.set_slice_whole, Rect.mem_set_unit]
  exact Iff.rfl

/-- Every row of the result is in the block of the point its row index divided by 5000 names. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_5 _, ?_⟩
  rw [mem_blk3]
  obtain ⟨-, -, -, -, -, -, -, -, -, -, e50, e51⟩ := idx_facts3 ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e50]; show (i 0).val / 5000 * 5000 ≤ (i 0).val ∧ (i 0).val < (i 0).val / 5000 * 5000 + 5000; omega
  | ⟨1, _⟩ => show win3_5.index _ (1 : Fin 2) * 128 ≤ (i 1).val ∧ (i 1).val < win3_5.index _ (1 : Fin 2) * 128 + 128; rw [e51]; omega

/-- The result array after the region is the whole-array value. -/
theorem final3 (c : Dev nD) : (dat3 V c).arrAt 5 cfg3.N = G3 V c :=
  (dat3 V c).arrAt_eq_of_cover 5 (G3 V c) (fun t _ => flushed3 V c t) cover3

end Cert.KernelIdeal.Hand

end
-- ==== Proof.KerRegion4.lean ====
/-
  Region 4: the attention kernel over its grid of 75 points. Point `t` stages rows `8000·t … 8000·t + 7999` of the
  gathered source rows and of the gathered destination rows, the two weight rows and the bias whole, computes the
  scaled source rows of its block and writes them back to rows `8000·t …` of the result. A row of the scaled rows
  depends on that row of the operands only, so each written block is the block of ONE whole-array value, and the
  75 blocks tile the 600000 rows: the result array ends holding the scaled source rows of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the two row windows and the result window sit at block row `t`, the
    small operands at block `(0, 0)`. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The whole-array value the region leaves: the scaled source rows of the arrays as the region finds them. -/
def G4 (c : Dev nD) : S600000x128.Idx → EReal :=
  Cert.Spec.attn (V c main_v81) (V c main_v88) (V c main_v92) (V c main_v94) (V c main_v97)

/-- A row window's block at point `t` is rows `8000·t …` of its array. -/
theorem rows4_0 (c : Dev nD) (t : Fin cfg4.N) (x : S8000x128.Idx) (k : S600000x128.Idx)
    (hk0 : (k 0).val = t.val * 8000 + (x 0).val) (hk1 : (k 1).val = (x 1).val) :
    (iblk4 V c 0 t : Vec Ideal S8000x128 .f32) x = (V c main_v81 : S600000x128.Idx → EReal) k := by
  obtain ⟨e00, e01, -⟩ := idx_facts4 t
  unfold iblk4
  rw [View.read_apply]
  show V c main_v81 _ = V c main_v81 _
  congr 1
  funext a
  apply Fin.ext
  match a with
  | ⟨0, _⟩ => show win4_0.index t 0 * 8000 + 1 * (x 0).val = (k 0).val; rw [e00, hk0]; omega
  | ⟨1, _⟩ => show win4_0.index t 1 * 128 + 1 * (x 1).val = (k 1).val; rw [e01, hk1]; omega

theorem rows4_1 (c : Dev nD) (t : Fin cfg4.N) (x : S8000x128.Idx) (k : S600000x128.Idx)
    (hk0 : (k 0).val = t.val * 8000 + (x 0).val) (hk1 : (k 1).val = (x 1).val) :
    (iblk4 V c 1 t : Vec Ideal S8000x128 .f32) x = (V c main_v88 : S600000x128.Idx → EReal) k := by
  obtain ⟨-, -, e10, e11, -⟩ := idx_facts4 t
  unfold iblk4
  rw [View.read_apply]
  show V c main_v88 _ = V c main_v88 _
  congr 1
  funext a
  apply Fin.ext
  match a with
  | ⟨0, _⟩ => show win4_1.index t 0 * 8000 + 1 * (x 0).val = (k 0).val; rw [e10, hk0]; omega
  | ⟨1, _⟩ => show win4_1.index t 1 * 128 + 1 * (x 1).val = (k 1).val; rw [e11, hk1]; omega

/-- A small operand's one block is its whole array. -/
theorem whole4_2 (c : Dev nD) (t : Fin cfg4.N) :
    (iblk4 V c 2 t : Vec Ideal S1x128 .f32) = (V c main_v92 : S1x128.Idx → EReal) := by
  obtain ⟨-, -, -, -, e20, e21, -⟩ := idx_facts4 t
  funext x
  unfold iblk4
  rw [View.read_apply]
  show V c main_v92 _ = V c main_v92 _
  congr 1
  funext a
  apply Fin.ext
  match a with
  | ⟨0, _⟩ => show win4_2.index t 0 * 1 + 1 * (x 0).val = (x 0).val; rw [e20]; omega
  | ⟨1, _⟩ => show win4_2.index t 1 * 128 + 1 * (x 1).val = (x 1).val; rw [e21]; omega

theorem whole4_3 (c : Dev nD) (t : Fin cfg4.N) :
    (iblk4 V c 3 t : Vec Ideal S1x128 .f32) = (V c main_v94 : S1x128.Idx → EReal) := by
  obtain ⟨-, -, -, -, -, -, e30, e31, -⟩ := idx_facts4 t
  funext x
  unfold iblk4
  rw [View.read_apply]
  show V c main_v94 _ = V c main_v94 _
  congr 1
  funext a
  apply Fin.ext
  match a with
  | ⟨0, _⟩ => show win4_3.index t 0 * 1 + 1 * (x 0).val = (x 0).val; rw [e30]; omega
  | ⟨1, _⟩ => show win4_3.index t 1 * 128 + 1 * (x 1).val = (x 1).val; rw [e31]; omega

theorem whole4_4 (c : Dev nD) (t : Fin cfg4.N) :
    (iblk4 V c 4 t : Vec Ideal S1x1 .f32) = (V c main_v97 : S1x1.Idx → EReal) := by
  obtain ⟨-, -, -, -, -, -, -, -, e40, e41, -⟩ := idx_facts4 t
  funext x
  unfold iblk4
  rw [View.read_apply]
  show V c main_v97 _ = V c main_v97 _
  congr 1
  funext a
  apply Fin.ext
  match a with
  | ⟨0, _⟩ => show win4_4.index t 0 * 1 + 1 * (x 0).val = (x 0).val; rw [e40]; omega
  | ⟨1, _⟩ => show win4_4.index t 1 * 1 + 1 * (x 1).val = (x 1).val; rw [e41]; omega

/-- What point `t` writes back is block `t` of the whole-array value. -/
theorem flushed4 (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S8000x128) hz4, View.ld_unit_zero (S := S1x128) hz4, View.ld_unit_zero (S := S1x1) hz4]
  rw [show @k4_pay1 Ideal _ = @k0_pay1 Ideal _ from rfl]
  rw [attn_payload, whole4_2, whole4_3, whole4_4]
  obtain ⟨-, -, -, -, -, -, -, -, -, -, e50, e51⟩ := idx_facts4 t
  funext j
  obtain ⟨p, q, rfl⟩ : ∃ (p : Fin 8000) (q : Fin 128), j = (ix2 p q : S8000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 75 := t.isLt
  have hp : p.val < 8000 := p.isLt
  have hji : (((cfg4.win 5).blk t).view.emb (ix2 p q) : S600000x128.Idx) = ix2 (⟨t.val * 8000 + p.val, by omega⟩ : Fin 600000) q := by
    funext a
    apply Fin.ext
    match a with
    | ⟨0, _⟩ => show win4_5.index t 0 * 8000 + 1 * p.val = t.val * 8000 + p.val; rw [e50]; omega
    | ⟨1, _⟩ => show win4_5.index t 1 * 128 + 1 * q.val = q.val; rw [e51]; omega
  show Cert.Spec.attn (iblk4 V c 0 t) (iblk4 V c 1 t) (V c main_v92) (V c main_v94) (V c main_v97) (ix2 p q) = G4 V c _
  rw [hji]
  unfold G4
  exact Cert.Spec.attn_rows (fun p : Fin 8000 => (⟨t.val * 8000 + p.val, by have := p.isLt; omega⟩ : Fin 600000))
    (iblk4 V c 0 t) (iblk4 V c 1 t) (V c main_v81) (V c main_v88) (V c main_v92) (V c main_v94) (V c main_v97)
    (fun p k => rows4_0 V c t (ix2 p k) _ rfl rfl) (fun p k => rows4_1 V c t (ix2 p k) _ rfl rfl) p q

/-- An index of the result array is in point `t`'s block iff each coordinate is in the block's range. -/
theorem mem_blk4 (t : Fin cfg4.N) (i : S600000x128.Idx) :
    i ∈ ((cfg4.win 5).blk t).view.set ↔ ∀ a : Fin 2, win4_5.index t a * S8000x128.size a ≤ (i a).val ∧ (i a).val < win4_5.index t a * S8000x128.size a + S8000x128.size a := by
  show i ∈ ((View.whole main_v98).slice (win4_5.rect t)).set ↔ _
  rw [View.set_slice_whole, Rect.mem_set_unit]
  exact Iff.rfl

/-- Every row of the result is in the block of the point its row index divided by 8000 names. -/
theorem cover4 (i : S600000x128.Idx) : ∃ t : Fin cfg4.N, (cfg4.win 5).flush t = true ∧ i ∈ ((cfg4.win 5).blk t).view.set := by
  have hi0 : (i 0).val < 600000 := (i 0).isLt
  have hi1 : (i 1).val < 128 := (i 1).isLt
  have hN : cfg4.N = 75 := N_4
  refine ⟨⟨(i 0).val / 8000, by rw [hN]; omega⟩, flush4_5 _, ?_⟩
  rw [mem_blk4]
  obtain ⟨-, -, -, -, -, -, -, -, -, -, e50, e51⟩ := idx_facts4 ⟨(i 0).val / 8000, by rw [hN]; omega⟩
  intro a
  match a with
  | ⟨0, _⟩ => show win4_5.index _ (0 : Fin 2) * 8000 ≤ (i 0).val ∧ (i 0).val < win4_5.index _ (0 : Fin 2) * 8000 + 8000; rw [e50]; show (i 0).val / 8000 * 8000 ≤ (i 0).val ∧ (i 0).val < (i 0).val / 8000 * 8000 + 8000; omega
  | ⟨1, _⟩ => show win4_5.index _ (1 : Fin 2) * 128 ≤ (i 1).val ∧ (i 1).val < win4_5.index _ (1 : Fin 2) * 128 + 128; rw [e51]; omega

/-- The result array after the region is the whole-array value. -/
theorem final4 (c : Dev nD) : (dat4 V c).arrAt 5 cfg4.N = G4 V c :=
  (dat4 V c).arrAt_eq_of_cover 5 (G4 V c) (fun t _ => flushed4 V c t) cover4

end Cert.KernelIdeal.Hand

end
-- ==== Proof.KerRegion5.lean ====
/-
  Region 5: the update kernel over its grid of 20 points. Point `t` stages rows `5000·t … 5000·t + 4999` of the
  node table and of the aggregated messages, the two weight matrices and the bias row whole, computes the updated
  rows of its block and writes them back to rows `5000·t …` of the result. A row of the update depends on that row
  of the two row operands only, so each written block is the block of ONE whole-array value, and the 20 blocks tile
  the 100000 rows: the result array ends holding the node update of the whole arrays.
-/
import proofs.«123907_j40140764349010_1_alg».proof.Proof.Gen.KernelIdeal.Frame
import proofs.«123907_j40140764349010_1_alg».proof.Proof.KerPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the two row windows and the result window sit at block row `t`, the
    small operands at block `(0, 0)`. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The whole-array value the region leaves: the updated node rows of the arrays as the region finds them. -/
def G5 (c : Dev nD) : S100000x128.Idx → EReal :=
  Cert.Spec.upd (V c main_v74) (V c main_v101) (V c main_v104) (V c main_v105) (V c main_v108)

/-- A row window's block at point `t` is rows `5000·t …` of its array. -/
theorem rows5_0 (c : Dev nD) (t : Fin cfg5.N) (x : S5000x128.Idx) (k : S100000x128.Idx)
    (hk0 : (k 0).val = t.val * 5000 + (x 0).val) (hk1 : (k 1).val = (x 1).val) :
    (iblk5 V c 0 t : Vec Ideal S5000x128 .f32) x = (V c main_v74 : S100000x128.Idx → EReal) k := by
  obtain ⟨e00, e01, -⟩ := idx_facts5 t
  unfold iblk5
  rw [View.read_apply]
  show V c main_v74 _ = V c main_v74 _
  congr 1
  funext a
  apply Fin.ext
  match a with
  | ⟨0, _⟩ => show win5_0.index t 0 * 5000 + 1 * (x 0).val = (k 0).val; rw [e00, hk0]; omega
  | ⟨1, _⟩ => show win5_0.index t 1 * 128 + 1 * (x 1).val = (k 1).val; rw [e01, hk1]; omega

theorem rows5_1 (c : Dev nD) (t : Fin cfg5.N) (x : S5000x128.Idx) (k : S100000x128.Idx)
    (hk0 : (k 0).val = t.val * 5000 + (x 0).val) (hk1 : (k 1).val = (x 1).val) :
    (iblk5 V c 1 t : Vec Ideal S5000x128 .f32) x = (V c main_v101 : S100000x128.Idx → EReal) k := by
  obtain ⟨-, -, e10, e11, -⟩ := idx_facts5 t
  unfold iblk5
  rw [View.read_apply]
  show V c main_v101 _ = V c main_v101 _
  congr 1
  funext a
  apply Fin.ext
  match a with
  | ⟨0, _⟩ => show win5_1.index t 0 * 5000 + 1 * (x 0).val = (k 0).val; rw [e10, hk0]; omega
  | ⟨1, _⟩ => show win5_1.index t 1 * 128 + 1 * (x 1).val = (k 1).val; rw [e11, hk1]; omega

/-- A small operand's one block is its whole array. -/
theorem whole5_2 (c : Dev nD) (t : Fin cfg5.N) :
    (iblk5 V c 2 t : Vec Ideal S128x128 .f32) = (V c main_v104 : S128x128.Idx → EReal) := by
  obtain ⟨-, -, -, -, e20, e21, -⟩ := idx_facts5 t
  funext x
  unfold iblk5
  rw [View.read_apply]
  show V c main_v104 _ = V c main_v104 _
  congr 1
  funext a
  apply Fin.ext
  match a with
  | ⟨0, _⟩ => show win5_2.index t 0 * 128 + 1 * (x 0).val = (x 0).val; rw [e20]; omega
  | ⟨1, _⟩ => show win5_2.index t 1 * 128 + 1 * (x 1).val = (x 1).val; rw [e21]; omega

theorem whole5_3 (c : Dev nD) (t : Fin cfg5.N) :
    (iblk5 V c 3 t : Vec Ideal S128x128 .f32) = (V c main_v105 : S128x128.Idx → EReal) := by
  obtain ⟨-, -, -, -, -, -, e30, e31, -⟩ := idx_facts5 t
  funext x
  unfold iblk5
  rw [View.read_apply]
  show V c main_v105 _ = V c main_v105 _
  congr 1
  funext a
  apply Fin.ext
  match a with
  | ⟨0, _⟩ => show win5_3.index t 0 * 128 + 1 * (x 0).val = (x 0).val; rw [e30]; omega
  | ⟨1, _⟩ => show win5_3.index t 1 * 128 + 1 * (x 1).val = (x 1).val; rw [e31]; omega

theorem whole5_4 (c : Dev nD) (t : Fin cfg5.N) :
    (iblk5 V c 4 t : Vec Ideal S1x128 .f32) = (V c main_v108 : S1x128.Idx → EReal) := by
  obtain ⟨-, -, -, -, -, -, -, -, e40, e41, -⟩ := idx_facts5 t
  funext x
  unfold iblk5
  rw [View.read_apply]
  show V c main_v108 _ = V c main_v108 _
  congr 1
  funext a
  apply Fin.ext
  match a with
  | ⟨0, _⟩ => show win5_4.index t 0 * 1 + 1 * (x 0).val = (x 0).val; rw [e40]; omega
  | ⟨1, _⟩ => show win5_4.index t 1 * 128 + 1 * (x 1).val = (x 1).val; rw [e41]; omega

/-- What point `t` writes back is block `t` of the whole-array value. -/
theorem flushed5 (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S128x128) hz5, View.ld_unit_zero (S := S1x128) hz5]
  rw [show @k5_pay1 Ideal _ = @k1_pay1 Ideal _ from rfl]
  rw [upd_payload, whole5_2, whole5_3, whole5_4]
  obtain ⟨-, -, -, -, -, -, -, -, -, -, e50, e51⟩ := idx_facts5 t
  funext j
  obtain ⟨p, q, rfl⟩ : ∃ (p : Fin 5000) (q : Fin 128), j = (ix2 p q : S5000x128.Idx) :=
    ⟨⟨(j 0).val, (j 0).isLt⟩, ⟨(j 1).val, (j 1).isLt⟩, funext fun a => Fin.ext (by match a with | ⟨0, _⟩ => rfl | ⟨1, _⟩ => rfl)⟩
  rw [View.read_apply]
  have ht : t.val < 20 := t.isLt
  have hp : p.val < 5000 := p.isLt
  have hji : (((cfg5.win 5).blk t).view.emb (ix2 p q) : S100000x128.Idx) = ix2 (⟨t.val * 5000 + p.val, by omega⟩ : Fin 100000) q := by
    funext a
    apply Fin.ext
    match a with
    | ⟨0, _⟩ => show win5_5.index t 0 * 5000 + 1 * p.val = t.val * 5000 + p.val; rw [e50]; omega
    | ⟨1, _⟩ => show win5_5.index t 1 * 128 + 1 * q.val = q.val; rw [e51]; omega
  show Cert.Spec.upd (iblk5 V c 0 t) (iblk5 V c 1 t) (V c main_v104) (V c main_v105) (V c main_v108) (ix2 p q) = G5 V c _
  rw [hji]
  unfold G5
  exact Cert.Spec.upd_rows (fun p : Fin 5000 => (⟨t.val * 5000 + p.val, by have := p.isLt; omega⟩ : Fin 100000))
    (iblk5 V c 0 t) (iblk5 V c 1 t) (V c main_v74) (V c main_v101) (V c main_v104) (V c main_v105) (V c main_v108)
    (fun p k => rows5_0 V c t (ix2 p k) _ rfl rfl) (fun p k => rows5_1 V c t (ix2 p k) _ rfl rfl) p q

/-- An index of the result array is in point `t`'s block iff each coordinate is in the block's range. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v109).slice (win5_5.rect t)).set ↔ _
  rw [View.set_slice_whole, Rect.mem_set_unit]
  exact Iff.rfl

/-- Every row of the result is in the block of the point its row index divided by 5000 names. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  rw [mem_blk5]
  obtain ⟨-, -, -, -, -, -, -, -, -, -, e50, e51⟩ := idx_facts5 ⟨(i 0).val / 5000, by rw [hN]; omega⟩
  intro a
  match a with
  | ⟨0, _⟩ => show win5_5.index _ (0 : Fin 2) * 5000 ≤ (i 0).val ∧ (i 0).val < win5_5.index _ (0 : Fin 2) * 5000 + 5000; rw [e50]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e51]; omega

/-- The result array after the region is the whole-array value. -/
theorem final5 (c : Dev nD) : (dat5 V c).arrAt 5 cfg5.N = G5 V c :=
  (dat5 V c).arrAt_eq_of_cover 5 (G5 V c) (fun t _ => flushed5 V c t) cover5

end Cert.KernelIdeal.Hand

end
-- ==== Proof.KerChain.lean ====
/-
  The idealized kernel program's two results as three layers applied to the launch arrays.

  The buffer contents at the thirteen segment boundaries are followed from the launch memory to the return: a host
  stretch by its read-back lemmas, a kernel region by its whole-array value and by the fact that it writes its result
  array only. What is carried from boundary to boundary is small: the edge table's two rows, the four stacked weight
  arrays, and the current node table. After region `2l + 1` the node table is layer `l` applied to the previous
  one; the two results are the first and the last 50000 rows of the third.
-/
import proofs.«123907_j40140764349010_1_alg».proof.Proof.Gen.KernelIdeal.Frame
import proofs.«123907_j40140764349010_1_alg».proof.Proof.KerStep
import proofs.«123907_j40140764349010_1_alg».proof.Proof.KerHost0
import proofs.«123907_j40140764349010_1_alg».proof.Proof.KerHost1
import proofs.«123907_j40140764349010_1_alg».proof.Proof.KerHost2
import proofs.«123907_j40140764349010_1_alg».proof.Proof.KerHost3
import proofs.«123907_j40140764349010_1_alg».proof.Proof.KerHost4
import proofs.«123907_j40140764349010_1_alg».proof.Proof.KerHost5
import proofs.«123907_j40140764349010_1_alg».proof.Proof.KerHost6
import proofs.«123907_j40140764349010_1_alg».proof.Proof.KerRegion0
import proofs.«123907_j40140764349010_1_alg».proof.Proof.KerRegion1
import proofs.«123907_j40140764349010_1_alg».proof.Proof.KerRegion2
import proofs.«123907_j40140764349010_1_alg».proof.Proof.KerRegion3
import proofs.«123907_j40140764349010_1_alg».proof.Proof.KerRegion4
import proofs.«123907_j40140764349010_1_alg».proof.Proof.KerRegion5

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The source node of every edge, from the launch memory. -/
def SRC : (⟨S600000, .i32⟩ : BufTy).Contents (Elt Ideal) := idxRow0 (m ((c.tc : Thread nD τ).loc main_arg0))
/-- The destination node of every edge, from the launch memory. -/
def DST : (⟨S600000, .i32⟩ : BufTy).Contents (Elt Ideal) := idxRow1 (m ((c.tc : Thread nD τ).loc main_arg0))
/-- The node table the first layer starts from. -/
def X0 : FVec Ideal S100000x128 .f32 := nodes0 (m ((c.tc : Thread nD τ).loc main_arg1)) (m ((c.tc : Thread nD τ).loc main_arg2))
/-- The node table after layer 0. -/
def X1 : FVec Ideal S100000x128 .f32 := step (SRC m c) (DST m c) (wa0 (m ((c.tc : Thread nD τ).loc main_arg3))) (ba0 (m ((c.tc : Thread nD τ).loc main_arg4))) (wg0 (m ((c.tc : Thread nD τ).loc main_arg5))) (bg0 (m ((c.tc : Thread nD τ).loc main_arg6))) (X0 m c)
/-- The node table after layer 1. -/
def X2 : FVec Ideal S100000x128 .f32 := step (SRC m c) (DST m c) (wa1 (m ((c.tc : Thread nD τ).loc main_arg3))) (ba1 (m ((c.tc : Thread nD τ).loc main_arg4))) (wg1 (m ((c.tc : Thread nD τ).loc main_arg5))) (bg1 (m ((c.tc : Thread nD τ).loc main_arg6))) (X1 m c)
/-- The node table after layer 2. -/
def X3 : FVec Ideal S100000x128 .f32 := step (SRC m c) (DST m c) (wa2 (m ((c.tc : Thread nD τ).loc main_arg3))) (ba2 (m ((c.tc : Thread nD τ).loc main_arg4))) (wg2 (m ((c.tc : Thread nD τ).loc main_arg5))) (bg2 (m ((c.tc : Thread nD τ).loc main_arg6))) (X2 m c)

theorem b1_v1 : W1 m ρ c (Proc.devRef .tc main_v1) = SRC m c :=
  (host0_v1 (W0 m ρ c)).trans (by rfl)

theorem b1_v3 : W1 m ρ c (Proc.devRef .tc main_v3) = DST m c :=
  (host0_v3 (W0 m ρ c)).trans (by rfl)

theorem b1_v4 : W1 m ρ c (Proc.devRef .tc main_v4) = X0 m c :=
  (host0_v4 (W0 m ρ c)).trans (by rfl)

theorem b1_v11 : W1 m ρ c (Proc.devRef .tc main_v11) = gath (X0 m c) (SRC m c) :=
  (host0_v11 (W0 m ρ c)).trans (by rfl)

theorem b1_v18 : W1 m ρ c (Proc.devRef .tc main_v18) = gath (X0 m c) (DST m c) :=
  (host0_v18 (W0 m ρ c)).trans (by rfl)

theorem b1_v22 : W1 m ρ c (Proc.devRef .tc main_v22) = waS (wa0 (m ((c.tc : Thread nD τ).loc main_arg3))) :=
  (host0_v22 (W0 m ρ c)).trans (by rfl)

theorem b1_v24 : W1 m ρ c (Proc.devRef .tc main_v24) = waD (wa0 (m ((c.tc : Thread nD τ).loc main_arg3))) :=
  (host0_v24 (W0 m ρ c)).trans (by rfl)

theorem b1_v27 : W1 m ρ c (Proc.devRef .tc main_v27) = ba11 (ba0 (m ((c.tc : Thread nD τ).loc main_arg4))) :=
  (host0_v27 (W0 m ρ c)).trans (by rfl)

theorem b1_arg3 : W1 m ρ c (Proc.devRef .tc main_arg3) = m ((c.tc : Thread nD τ).loc main_arg3) :=
  (host0_keep_arg3 (W0 m ρ c)).trans rfl

theorem b1_arg4 : W1 m ρ c (Proc.devRef .tc main_arg4) = m ((c.tc : Thread nD τ).loc main_arg4) :=
  (host0_keep_arg4 (W0 m ρ c)).trans rfl

theorem b1_arg5 : W1 m ρ c (Proc.devRef .tc main_arg5) = m ((c.tc : Thread nD τ).loc main_arg5) :=
  (host0_keep_arg5 (W0 m ρ c)).trans rfl

theorem b1_arg6 : W1 m ρ c (Proc.devRef .tc main_arg6) = m ((c.tc : Thread nD τ).loc main_arg6) :=
  (host0_keep_arg6 (W0 m ρ c)).trans rfl

theorem b2_v28 : W2 m ρ c (Proc.devRef .tc main_v28) = Cert.Spec.attn (gath (X0 m c) (SRC m c)) (gath (X0 m c) (DST m c)) (waS (wa0 (m ((c.tc : Thread nD τ).loc main_arg3)))) (waD (wa0 (m ((c.tc : Thread nD τ).loc main_arg3)))) (ba11 (ba0 (m ((c.tc : Thread nD τ).loc main_arg4)))) := by
  refine (W2_arr m ρ c 5).trans ((final0 (V1 m ρ) c).trans ?_)
  unfold G0
  show Cert.Spec.attn (W1 m ρ c (Proc.devRef .tc main_v11)) (W1 m ρ c (Proc.devRef .tc main_v18)) (W1 m ρ c (Proc.devRef .tc main_v22)) (W1 m ρ c (Proc.devRef .tc main_v24)) (W1 m ρ c (Proc.devRef .tc main_v27)) = _
  rw [b1_v11 m ρ c, b1_v18 m ρ c, b1_v22 m ρ c, b1_v24 m ρ c, b1_v27 m ρ c]

theorem b2_v1 : W2 m ρ c (Proc.devRef .tc main_v1) = SRC m c :=
  (W2_of_ne m ρ c main_v1 (by decide)).trans (b1_v1 m ρ c)

theorem b2_v3 : W2 m ρ c (Proc.devRef .tc main_v3) = DST m c :=
  (W2_of_ne m ρ c main_v3 (by decide)).trans (b1_v3 m ρ c)

theorem b2_v4 : W2 m ρ c (Proc.devRef .tc main_v4) = X0 m c :=
  (W2_of_ne m ρ c main_v4 (by decide)).trans (b1_v4 m ρ c)

theorem b2_arg3 : W2 m ρ c (Proc.devRef .tc main_arg3) = m ((c.tc : Thread nD τ).loc main_arg3) :=
  (W2_of_ne m ρ c main_arg3 (by decide)).trans (b1_arg3 m ρ c)

theorem b2_arg4 : W2 m ρ c (Proc.devRef .tc main_arg4) = m ((c.tc : Thread nD τ).loc main_arg4) :=
  (W2_of_ne m ρ c main_arg4 (by decide)).trans (b1_arg4 m ρ c)

theorem b2_arg5 : W2 m ρ c (Proc.devRef .tc main_arg5) = m ((c.tc : Thread nD τ).loc main_arg5) :=
  (W2_of_ne m ρ c main_arg5 (by decide)).trans (b1_arg5 m ρ c)

theorem b2_arg6 : W2 m ρ c (Proc.devRef .tc main_arg6) = m ((c.tc : Thread nD τ).loc main_arg6) :=
  (W2_of_ne m ρ c main_arg6 (by decide)).trans (b1_arg6 m ρ c)

theorem b3_v31 : W3 m ρ c (Proc.devRef .tc main_v31) = agg (DST m c) (Cert.Spec.attn (gath (X0 m c) (SRC m c)) (gath (X0 m c) (DST m c)) (waS (wa0 (m ((c.tc : Thread nD τ).loc main_arg3)))) (waD (wa0 (m ((c.tc : Thread nD τ).loc main_arg3)))) (ba11 (ba0 (m ((c.tc : Thread nD τ).loc main_arg4))))) :=
  (host1_v31 (W2 m ρ c)).trans (by rw [b2_v3 m ρ c, b2_v28 m ρ c])

theorem b3_v34 : W3 m ρ c (Proc.devRef .tc main_v34) = wgX (wg0 (m ((c.tc : Thread nD τ).loc main_arg5))) :=
  (host1_v34 (W2 m ρ c)).trans (by rw [b2_arg5 m ρ c])

theorem b3_v35 : W3 m ρ c (Proc.devRef .tc main_v35) = wgA (wg0 (m ((c.tc : Thread nD τ).loc main_arg5))) :=
  (host1_v35 (W2 m ρ c)).trans (by rw [b2_arg5 m ρ c])

theorem b3_v38 : W3 m ρ c (Proc.devRef .tc main_v38) = bgRow (bg0 (m ((c.tc : Thread nD τ).loc main_arg6))) :=
  (host1_v38 (W2 m ρ c)).trans (by rw [b2_arg6 m ρ c])

theorem b3_v1 : W3 m ρ c (Proc.devRef .tc main_v1) = SRC m c :=
  (host1_keep_v1 (W2 m ρ c)).trans (b2_v1 m ρ c)

theorem b3_v3 : W3 m ρ c (Proc.devRef .tc main_v3) = DST m c :=
  (host1_keep_v3 (W2 m ρ c)).trans (b2_v3 m ρ c)

theorem b3_v4 : W3 m ρ c (Proc.devRef .tc main_v4) = X0 m c :=
  (host1_keep_v4 (W2 m ρ c)).trans (b2_v4 m ρ c)

theorem b3_arg3 : W3 m ρ c (Proc.devRef .tc main_arg3) = m ((c.tc : Thread nD τ).loc main_arg3) :=
  (host1_keep_arg3 (W2 m ρ c)).trans (b2_arg3 m ρ c)

theorem b3_arg4 : W3 m ρ c (Proc.devRef .tc main_arg4) = m ((c.tc : Thread nD τ).loc main_arg4) :=
  (host1_keep_arg4 (W2 m ρ c)).trans (b2_arg4 m ρ c)

theorem b3_arg5 : W3 m ρ c (Proc.devRef .tc main_arg5) = m ((c.tc : Thread nD τ).loc main_arg5) :=
  (host1_keep_arg5 (W2 m ρ c)).trans (b2_arg5 m ρ c)

theorem b3_arg6 : W3 m ρ c (Proc.devRef .tc main_arg6) = m ((c.tc : Thread nD τ).loc main_arg6) :=
  (host1_keep_arg6 (W2 m ρ c)).trans (b2_arg6 m ρ c)

theorem b4_v39 : W4 m ρ c (Proc.devRef .tc main_v39) = X1 m c := by
  refine (W4_arr m ρ c 5).trans ((final1 (V3 m ρ) c).trans ?_)
  unfold G1
  show Cert.Spec.upd (W3 m ρ c (Proc.devRef .tc main_v4)) (W3 m ρ c (Proc.devRef .tc main_v31)) (W3 m ρ c (Proc.devRef .tc main_v34)) (W3 m ρ c (Proc.devRef .tc main_v35)) (W3 m ρ c (Proc.devRef .tc main_v38)) = _
  rw [b3_v4 m ρ c, b3_v31 m ρ c, b3_v34 m ρ c, b3_v35 m ρ c, b3_v38 m ρ c]
  rfl

theorem b4_v1 : W4 m ρ c (Proc.devRef .tc main_v1) = SRC m c :=
  (W4_of_ne m ρ c main_v1 (by decide)).trans (b3_v1 m ρ c)

theorem b4_v3 : W4 m ρ c (Proc.devRef .tc main_v3) = DST m c :=
  (W4_of_ne m ρ c main_v3 (by decide)).trans (b3_v3 m ρ c)

theorem b4_arg3 : W4 m ρ c (Proc.devRef .tc main_arg3) = m ((c.tc : Thread nD τ).loc main_arg3) :=
  (W4_of_ne m ρ c main_arg3 (by decide)).trans (b3_arg3 m ρ c)

theorem b4_arg4 : W4 m ρ c (Proc.devRef .tc main_arg4) = m ((c.tc : Thread nD τ).loc main_arg4) :=
  (W4_of_ne m ρ c main_arg4 (by decide)).trans (b3_arg4 m ρ c)

theorem b4_arg5 : W4 m ρ c (Proc.devRef .tc main_arg5) = m ((c.tc : Thread nD τ).loc main_arg5) :=
  (W4_of_ne m ρ c main_arg5 (by decide)).trans (b3_arg5 m ρ c)

theorem b4_arg6 : W4 m ρ c (Proc.devRef .tc main_arg6) = m ((c.tc : Thread nD τ).loc main_arg6) :=
  (W4_of_ne m ρ c main_arg6 (by decide)).trans (b3_arg6 m ρ c)

theorem b5_v46 : W5 m ρ c (Proc.devRef .tc main_v46) = gath (X1 m c) (SRC m c) :=
  (host2_v46 (W4 m ρ c)).trans (by rw [b4_v39 m ρ c, b4_v1 m ρ c])

theorem b5_v53 : W5 m ρ c (Proc.devRef .tc main_v53) = gath (X1 m c) (DST m c) :=
  (host2_v53 (W4 m ρ c)).trans (by rw [b4_v39 m ρ c, b4_v3 m ρ c])

theorem b5_v57 : W5 m ρ c (Proc.devRef .tc main_v57) = waS (wa1 (m ((c.tc : Thread nD τ).loc main_arg3))) :=
  (host2_v57 (W4 m ρ c)).trans (by rw [b4_arg3 m ρ c])

theorem b5_v59 : W5 m ρ c (Proc.devRef .tc main_v59) = waD (wa1 (m ((c.tc : Thread nD τ).loc main_arg3))) :=
  (host2_v59 (W4 m ρ c)).trans (by rw [b4_arg3 m ρ c])

theorem b5_v62 : W5 m ρ c (Proc.devRef .tc main_v62) = ba11 (ba1 (m ((c.tc : Thread nD τ).loc main_arg4))) :=
  (host2_v62 (W4 m ρ c)).trans (by rw [b4_arg4 m ρ c])

theorem b5_v1 : W5 m ρ c (Proc.devRef .tc main_v1) = SRC m c :=
  (host2_keep_v1 (W4 m ρ c)).trans (b4_v1 m ρ c)

theorem b5_v3 : W5 m ρ c (Proc.devRef .tc main_v3) = DST m c :=
  (host2_keep_v3 (W4 m ρ c)).trans (b4_v3 m ρ c)

theorem b5_v39 : W5 m ρ c (Proc.devRef .tc main_v39) = X1 m c :=
  (host2_keep_v39 (W4 m ρ c)).trans (b4_v39 m ρ c)

theorem b5_arg3 : W5 m ρ c (Proc.devRef .tc main_arg3) = m ((c.tc : Thread nD τ).loc main_arg3) :=
  (host2_keep_arg3 (W4 m ρ c)).trans (b4_arg3 m ρ c)

theorem b5_arg4 : W5 m ρ c (Proc.devRef .tc main_arg4) = m ((c.tc : Thread nD τ).loc main_arg4) :=
  (host2_keep_arg4 (W4 m ρ c)).trans (b4_arg4 m ρ c)

theorem b5_arg5 : W5 m ρ c (Proc.devRef .tc main_arg5) = m ((c.tc : Thread nD τ).loc main_arg5) :=
  (host2_keep_arg5 (W4 m ρ c)).trans (b4_arg5 m ρ c)

theorem b5_arg6 : W5 m ρ c (Proc.devRef .tc main_arg6) = m ((c.tc : Thread nD τ).loc main_arg6) :=
  (host2_keep_arg6 (W4 m ρ c)).trans (b4_arg6 m ρ c)

theorem b6_v63 : W6 m ρ c (Proc.devRef .tc main_v63) = Cert.Spec.attn (gath (X1 m c) (SRC m c)) (gath (X1 m c) (DST m c)) (waS (wa1 (m ((c.tc : Thread nD τ).loc main_arg3)))) (waD (wa1 (m ((c.tc : Thread nD τ).loc main_arg3)))) (ba11 (ba1 (m ((c.tc : Thread nD τ).loc main_arg4)))) := by
  refine (W6_arr m ρ c 5).trans ((final2 (V5 m ρ) c).trans ?_)
  unfold G2
  show Cert.Spec.attn (W5 m ρ c (Proc.devRef .tc main_v46)) (W5 m ρ c (Proc.devRef .tc main_v53)) (W5 m ρ c (Proc.devRef .tc main_v57)) (W5 m ρ c (Proc.devRef .tc main_v59)) (W5 m ρ c (Proc.devRef .tc main_v62)) = _
  rw [b5_v46 m ρ c, b5_v53 m ρ c, b5_v57 m ρ c, b5_v59 m ρ c, b5_v62 m ρ c]

theorem b6_v1 : W6 m ρ c (Proc.devRef .tc main_v1) = SRC m c :=
  (W6_of_ne m ρ c main_v1 (by decide)).trans (b5_v1 m ρ c)

theorem b6_v3 : W6 m ρ c (Proc.devRef .tc main_v3) = DST m c :=
  (W6_of_ne m ρ c main_v3 (by decide)).trans (b5_v3 m ρ c)

theorem b6_v39 : W6 m ρ c (Proc.devRef .tc main_v39) = X1 m c :=
  (W6_of_ne m ρ c main_v39 (by decide)).trans (b5_v39 m ρ c)

theorem b6_arg3 : W6 m ρ c (Proc.devRef .tc main_arg3) = m ((c.tc : Thread nD τ).loc main_arg3) :=
  (W6_of_ne m ρ c main_arg3 (by decide)).trans (b5_arg3 m ρ c)

theorem b6_arg4 : W6 m ρ c (Proc.devRef .tc main_arg4) = m ((c.tc : Thread nD τ).loc main_arg4) :=
  (W6_of_ne m ρ c main_arg4 (by decide)).trans (b5_arg4 m ρ c)

theorem b6_arg5 : W6 m ρ c (Proc.devRef .tc main_arg5) = m ((c.tc : Thread nD τ).loc main_arg5) :=
  (W6_of_ne m ρ c main_arg5 (by decide)).trans (b5_arg5 m ρ c)

theorem b6_arg6 : W6 m ρ c (Proc.devRef .tc main_arg6) = m ((c.tc : Thread nD τ).loc main_arg6) :=
  (W6_of_ne m ρ c main_arg6 (by decide)).trans (b5_arg6 m ρ c)

theorem b7_v66 : W7 m ρ c (Proc.devRef .tc main_v66) = agg (DST m c) (Cert.Spec.attn (gath (X1 m c) (SRC m c)) (gath (X1 m c) (DST m c)) (waS (wa1 (m ((c.tc : Thread nD τ).loc main_arg3)))) (waD (wa1 (m ((c.tc : Thread nD τ).loc main_arg3)))) (ba11 (ba1 (m ((c.tc : Thread nD τ).loc main_arg4))))) :=
  (host3_v66 (W6 m ρ c)).trans (by rw [b6_v3 m ρ c, b6_v63 m ρ c])

theorem b7_v69 : W7 m ρ c (Proc.devRef .tc main_v69) = wgX (wg1 (m ((c.tc : Thread nD τ).loc main_arg5))) :=
  (host3_v69 (W6 m ρ c)).trans (by rw [b6_arg5 m ρ c])

theorem b7_v70 : W7 m ρ c (Proc.devRef .tc main_v70) = wgA (wg1 (m ((c.tc : Thread nD τ).loc main_arg5))) :=
  (host3_v70 (W6 m ρ c)).trans (by rw [b6_arg5 m ρ c])

theorem b7_v73 : W7 m ρ c (Proc.devRef .tc main_v73) = bgRow (bg1 (m ((c.tc : Thread nD τ).loc main_arg6))) :=
  (host3_v73 (W6 m ρ c)).trans (by rw [b6_arg6 m ρ c])

theorem b7_v1 : W7 m ρ c (Proc.devRef .tc main_v1) = SRC m c :=
  (host3_keep_v1 (W6 m ρ c)).trans (b6_v1 m ρ c)

theorem b7_v3 : W7 m ρ c (Proc.devRef .tc main_v3) = DST m c :=
  (host3_keep_v3 (W6 m ρ c)).trans (b6_v3 m ρ c)

theorem b7_v39 : W7 m ρ c (Proc.devRef .tc main_v39) = X1 m c :=
  (host3_keep_v39 (W6 m ρ c)).trans (b6_v39 m ρ c)

theorem b7_arg3 : W7 m ρ c (Proc.devRef .tc main_arg3) = m ((c.tc : Thread nD τ).loc main_arg3) :=
  (host3_keep_arg3 (W6 m ρ c)).trans (b6_arg3 m ρ c)

theorem b7_arg4 : W7 m ρ c (Proc.devRef .tc main_arg4) = m ((c.tc : Thread nD τ).loc main_arg4) :=
  (host3_keep_arg4 (W6 m ρ c)).trans (b6_arg4 m ρ c)

theorem b7_arg5 : W7 m ρ c (Proc.devRef .tc main_arg5) = m ((c.tc : Thread nD τ).loc main_arg5) :=
  (host3_keep_arg5 (W6 m ρ c)).trans (b6_arg5 m ρ c)

theorem b7_arg6 : W7 m ρ c (Proc.devRef .tc main_arg6) = m ((c.tc : Thread nD τ).loc main_arg6) :=
  (host3_keep_arg6 (W6 m ρ c)).trans (b6_arg6 m ρ c)

theorem b8_v74 : W8 m ρ c (Proc.devRef .tc main_v74) = X2 m c := by
  refine (W8_arr m ρ c 5).trans ((final3 (V7 m ρ) c).trans ?_)
  unfold G3
  show Cert.Spec.upd (W7 m ρ c (Proc.devRef .tc main_v39)) (W7 m ρ c (Proc.devRef .tc main_v66)) (W7 m ρ c (Proc.devRef .tc main_v69)) (W7 m ρ c (Proc.devRef .tc main_v70)) (W7 m ρ c (Proc.devRef .tc main_v73)) = _
  rw [b7_v39 m ρ c, b7_v66 m ρ c, b7_v69 m ρ c, b7_v70 m ρ c, b7_v73 m ρ c]
  rfl

theorem b8_v1 : W8 m ρ c (Proc.devRef .tc main_v1) = SRC m c :=
  (W8_of_ne m ρ c main_v1 (by decide)).trans (b7_v1 m ρ c)

theorem b8_v3 : W8 m ρ c (Proc.devRef .tc main_v3) = DST m c :=
  (W8_of_ne m ρ c main_v3 (by decide)).trans (b7_v3 m ρ c)

theorem b8_arg3 : W8 m ρ c (Proc.devRef .tc main_arg3) = m ((c.tc : Thread nD τ).loc main_arg3) :=
  (W8_of_ne m ρ c main_arg3 (by decide)).trans (b7_arg3 m ρ c)

theorem b8_arg4 : W8 m ρ c (Proc.devRef .tc main_arg4) = m ((c.tc : Thread nD τ).loc main_arg4) :=
  (W8_of_ne m ρ c main_arg4 (by decide)).trans (b7_arg4 m ρ c)

theorem b8_arg5 : W8 m ρ c (Proc.devRef .tc main_arg5) = m ((c.tc : Thread nD τ).loc main_arg5) :=
  (W8_of_ne m ρ c main_arg5 (by decide)).trans (b7_arg5 m ρ c)

theorem b8_arg6 : W8 m ρ c (Proc.devRef .tc main_arg6) = m ((c.tc : Thread nD τ).loc main_arg6) :=
  (W8_of_ne m ρ c main_arg6 (by decide)).trans (b7_arg6 m ρ c)

theorem b9_v81 : W9 m ρ c (Proc.devRef .tc main_v81) = gath (X2 m c) (SRC m c) :=
  (host4_v81 (W8 m ρ c)).trans (by rw [b8_v74 m ρ c, b8_v1 m ρ c])

theorem b9_v88 : W9 m ρ c (Proc.devRef .tc main_v88) = gath (X2 m c) (DST m c) :=
  (host4_v88 (W8 m ρ c)).trans (by rw [b8_v74 m ρ c, b8_v3 m ρ c])

theorem b9_v92 : W9 m ρ c (Proc.devRef .tc main_v92) = waS (wa2 (m ((c.tc : Thread nD τ).loc main_arg3))) :=
  (host4_v92 (W8 m ρ c)).trans (by rw [b8_arg3 m ρ c])

theorem b9_v94 : W9 m ρ c (Proc.devRef .tc main_v94) = waD (wa2 (m ((c.tc : Thread nD τ).loc main_arg3))) :=
  (host4_v94 (W8 m ρ c)).trans (by rw [b8_arg3 m ρ c])

theorem b9_v97 : W9 m ρ c (Proc.devRef .tc main_v97) = ba11 (ba2 (m ((c.tc : Thread nD τ).loc main_arg4))) :=
  (host4_v97 (W8 m ρ c)).trans (by rw [b8_arg4 m ρ c])

theorem b9_v3 : W9 m ρ c (Proc.devRef .tc main_v3) = DST m c :=
  (host4_keep_v3 (W8 m ρ c)).trans (b8_v3 m ρ c)

theorem b9_v74 : W9 m ρ c (Proc.devRef .tc main_v74) = X2 m c :=
  (host4_keep_v74 (W8 m ρ c)).trans (b8_v74 m ρ c)

theorem b9_arg5 : W9 m ρ c (Proc.devRef .tc main_arg5) = m ((c.tc : Thread nD τ).loc main_arg5) :=
  (host4_keep_arg5 (W8 m ρ c)).trans (b8_arg5 m ρ c)

theorem b9_arg6 : W9 m ρ c (Proc.devRef .tc main_arg6) = m ((c.tc : Thread nD τ).loc main_arg6) :=
  (host4_keep_arg6 (W8 m ρ c)).trans (b8_arg6 m ρ c)

theorem b10_v98 : W10 m ρ c (Proc.devRef .tc main_v98) = Cert.Spec.attn (gath (X2 m c) (SRC m c)) (gath (X2 m c) (DST m c)) (waS (wa2 (m ((c.tc : Thread nD τ).loc main_arg3)))) (waD (wa2 (m ((c.tc : Thread nD τ).loc main_arg3)))) (ba11 (ba2 (m ((c.tc : Thread nD τ).loc main_arg4)))) := by
  refine (W10_arr m ρ c 5).trans ((final4 (V9 m ρ) c).trans ?_)
  unfold G4
  show Cert.Spec.attn (W9 m ρ c (Proc.devRef .tc main_v81)) (W9 m ρ c (Proc.devRef .tc main_v88)) (W9 m ρ c (Proc.devRef .tc main_v92)) (W9 m ρ c (Proc.devRef .tc main_v94)) (W9 m ρ c (Proc.devRef .tc main_v97)) = _
  rw [b9_v81 m ρ c, b9_v88 m ρ c, b9_v92 m ρ c, b9_v94 m ρ c, b9_v97 m ρ c]

theorem b10_v3 : W10 m ρ c (Proc.devRef .tc main_v3) = DST m c :=
  (W10_of_ne m ρ c main_v3 (by decide)).trans (b9_v3 m ρ c)

theorem b10_v74 : W10 m ρ c (Proc.devRef .tc main_v74) = X2 m c :=
  (W10_of_ne m ρ c main_v74 (by decide)).trans (b9_v74 m ρ c)

theorem b10_arg5 : W10 m ρ c (Proc.devRef .tc main_arg5) = m ((c.tc : Thread nD τ).loc main_arg5) :=
  (W10_of_ne m ρ c main_arg5 (by decide)).trans (b9_arg5 m ρ c)

theorem b10_arg6 : W10 m ρ c (Proc.devRef .tc main_arg6) = m ((c.tc : Thread nD τ).loc main_arg6) :=
  (W10_of_ne m ρ c main_arg6 (by decide)).trans (b9_arg6 m ρ c)

theorem b11_v101 : W11 m ρ c (Proc.devRef .tc main_v101) = agg (DST m c) (Cert.Spec.attn (gath (X2 m c) (SRC m c)) (gath (X2 m c) (DST m c)) (waS (wa2 (m ((c.tc : Thread nD τ).loc main_arg3)))) (waD (wa2 (m ((c.tc : Thread nD τ).loc main_arg3)))) (ba11 (ba2 (m ((c.tc : Thread nD τ).loc main_arg4))))) :=
  (host5_v101 (W10 m ρ c)).trans (by rw [b10_v3 m ρ c, b10_v98 m ρ c])

theorem b11_v104 : W11 m ρ c (Proc.devRef .tc main_v104) = wgX (wg2 (m ((c.tc : Thread nD τ).loc main_arg5))) :=
  (host5_v104 (W10 m ρ c)).trans (by rw [b10_arg5 m ρ c])

theorem b11_v105 : W11 m ρ c (Proc.devRef .tc main_v105) = wgA (wg2 (m ((c.tc : Thread nD τ).loc main_arg5))) :=
  (host5_v105 (W10 m ρ c)).trans (by rw [b10_arg5 m ρ c])

theorem b11_v108 : W11 m ρ c (Proc.devRef .tc main_v108) = bgRow (bg2 (m ((c.tc : Thread nD τ).loc main_arg6))) :=
  (host5_v108 (W10 m ρ c)).trans (by rw [b10_arg6 m ρ c])

theorem b11_v74 : W11 m ρ c (Proc.devRef .tc main_v74) = X2 m c :=
  (host5_keep_v74 (W10 m ρ c)).trans (b10_v74 m ρ c)

theorem b12_v109 : W12 m ρ c (Proc.devRef .tc main_v109) = X3 m c := by
  refine (W12_arr m ρ c 5).trans ((final5 (V11 m ρ) c).trans ?_)
  unfold G5
  show Cert.Spec.upd (W11 m ρ c (Proc.devRef .tc main_v74)) (W11 m ρ c (Proc.devRef .tc main_v101)) (W11 m ρ c (Proc.devRef .tc main_v104)) (W11 m ρ c (Proc.devRef .tc main_v105)) (W11 m ρ c (Proc.devRef .tc main_v108)) = _
  rw [b11_v74 m ρ c, b11_v101 m ρ c, b11_v104 m ρ c, b11_v105 m ρ c, b11_v108 m ρ c]
  rfl

theorem b13_v110 : W13 m ρ c (Proc.devRef .tc main_v110) = extractStridedSlice S50000x128 ![0, 0] (X3 m c) slices_S100000x128_S50000x128_0_0 :=
  (host6_v110 (W12 m ρ c)).trans (by rw [b12_v109 m ρ c])

theorem b13_v111 : W13 m ρ c (Proc.devRef .tc main_v111) = extractStridedSlice S50000x128 ![50000, 0] (X3 m c) slices_S100000x128_S50000x128_50000_0 :=
  (host6_v111 (W12 m ρ c)).trans (by rw [b12_v109 m ρ c])

end Cert.KernelIdeal.Hand

end
-- ==== Proof.RefOps.lean ====
/-
  The reference program as five stretches of host operations, and its run.

  The reference is a straight line of 166 host operations. They are listed here in program order, cut after the
  node table is formed and after each layer's node update: the first stretch splits the edge table and joins the node
  rows; the next three compute layers 0, 1 and 2; the last cuts the node table into the user rows and the item rows. The
  program is the sequence of the five stretches one after the other, so its run leaves every buffer at the fold of
  the five stretches over the launch memory.
-/
import proofs.«123907_j40140764349010_1_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The edge table's two rows and the node table. -/
abbrev opsP : List (HloOp τ sig (Elt F)) :=
  [ unary main_arg0 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg0 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg1 main_arg2 main_v4 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) ]

theorem opsP_sub : (opsP : List (HloOp τ sig (Elt F))).Forall fun op => op.bufs ⊆ tcRefs τ sig :=
  ⟨unary_bufs_sub .., reshape_bufs_sub .., unary_bufs_sub .., reshape_bufs_sub .., binary_bufs_sub ..⟩

theorem opsP_fresh : (opsP : List (HloOp τ sig (Elt F))).Forall fun op => op.fresh = ∅ := by
  simp only [List.Forall]; repeat' constructor

/-- Layer 0. -/
abbrev opsA : List (HloOp τ sig (Elt F)) :=
  [ nullary main_c (constantI S_ 32 0#32),
    unary main_c main_v5 (broadcastInDim S600000 ![] bcast_S_S600000 : (⟨S_, .i32⟩ : BufTy).Contents (Elt F) → (⟨S600000, .i32⟩ : BufTy).Contents (Elt F)),
    binary main_v1 main_v5 main_v6 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v7 (broadcastInDim S600000 ![] bcast_S_S600000 : (⟨S_, .i32⟩ : BufTy).Contents (Elt F) → (⟨S600000, .i32⟩ : BufTy).Contents (Elt F)),
    binary main_v1 main_v7 main_v8 (addi : (⟨S600000, .i32⟩ : BufTy).Contents (Elt F) → (⟨S600000, .i32⟩ : BufTy).Contents (Elt F) → (⟨S600000, .i32⟩ : BufTy).Contents (Elt F)),
    ternary main_v6 main_v8 main_v1 main_v9 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v9 main_v10 (broadcastInDim S600000x1 ![0] bcast_S600000_S600000x1_0 : (⟨S600000, .i32⟩ : BufTy).Contents (Elt F) → (⟨S600000x1, .i32⟩ : BufTy).Contents (Elt F)),
    binary main_v4 main_v10 main_v11 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v12 (broadcastInDim S600000 ![] bcast_S_S600000 : (⟨S_, .i32⟩ : BufTy).Contents (Elt F) → (⟨S600000, .i32⟩ : BufTy).Contents (Elt F)),
    binary main_v3 main_v12 main_v13 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v14 (broadcastInDim S600000 ![] bcast_S_S600000 : (⟨S_, .i32⟩ : BufTy).Contents (Elt F) → (⟨S600000, .i32⟩ : BufTy).Contents (Elt F)),
    binary main_v3 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v3 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v4 main_v17 main_v18 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v11 main_v18 main_v19 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    unary main_arg3 main_v20 ((extractStridedSlice S1x256x1 ![0, 0, 0] · slices_S3x256x1_S1x256x1_0_0_0) : (⟨S3x256x1, .f32⟩ : BufTy).Contents (Elt F) → (⟨S1x256x1, .f32⟩ : BufTy).Contents (Elt F)),
    reshape main_v20 main_v21 rfl shapeCasts_S1x256x1_S256x1,
    binary main_v19 main_v21 main_v22 ((fun l r => Host.dotGeneral dot_S600000x256_S256x1_S600000x1_1_0_0_1_n_n none l r) : (⟨S600000x256, .f32⟩ : BufTy).Contents (Elt F) → (⟨S256x1, .f32⟩ : BufTy).Contents (Elt F) → (⟨S600000x1, .f32⟩ : BufTy).Contents (Elt F)),
    unary main_arg4 main_v23 ((extractStridedSlice S1x1 ![0, 0] · slices_S3x1_S1x1_0_0) : (⟨S3x1, .f32⟩ : BufTy).Contents (Elt F) → (⟨S1x1, .f32⟩ : BufTy).Contents (Elt F)),
    reshape main_v23 main_v24 rfl shapeCasts_S1x1_S1,
    unary main_v24 main_v25 (broadcastInDim S1x1 ![1] bcast_S1_S1x1_1 : (⟨S1, .f32⟩ : BufTy).Contents (Elt F) → (⟨S1x1, .f32⟩ : BufTy).Contents (Elt F)),
    unary main_v25 main_v26 (broadcastInDim S600000x1 ![0, 1] bcast_S1x1_S600000x1_0_1 : (⟨S1x1, .f32⟩ : BufTy).Contents (Elt F) → (⟨S600000x1, .f32⟩ : BufTy).Contents (Elt F)),
    binary main_v22 main_v26 main_v27 (addf : (⟨S600000x1, .f32⟩ : BufTy).Contents (Elt F) → (⟨S600000x1, .f32⟩ : BufTy).Contents (Elt F) → (⟨S600000x1, .f32⟩ : BufTy).Contents (Elt F)),
    unary main_v27 main_v28 (Host.negf : (⟨S600000x1, .f32⟩ : BufTy).Contents (Elt F) → (⟨S600000x1, .f32⟩ : BufTy).Contents (Elt F)),
    unary main_v28 main_v29 (Host.exp : (⟨S600000x1, .f32⟩ : BufTy).Contents (Elt F) → (⟨S600000x1, .f32⟩ : BufTy).Contents (Elt F)),
    nullary main_cst (constant S_ .f32 0x3F800000#32),
    unary main_cst main_v30 (broadcastInDim S600000x1 ![] bcast_S_S600000x1 : (⟨S_, .f32⟩ : BufTy).Contents (Elt F) → (⟨S600000x1, .f32⟩ : BufTy).Contents (Elt F)),
    binary main_v30 main_v29 main_v31 (addf : (⟨S600000x1, .f32⟩ : BufTy).Contents (Elt F) → (⟨S600000x1, .f32⟩ : BufTy).Contents (Elt F) → (⟨S600000x1, .f32⟩ : BufTy).Contents (Elt F)),
    nullary main_cst_3 (constant S_ .f32 0x3F800000#32),
    unary main_cst_3 main_v32 (broadcastInDim S600000x1 ![] bcast_S_S600000x1 : (⟨S_, .f32⟩ : BufTy).Contents (Elt F) → (⟨S600000x1, .f32⟩ : BufTy).Contents (Elt F)),
    binary main_v32 main_v31 main_v33 (Host.divf : (⟨S600000x1, .f32⟩ : BufTy).Contents (Elt F) → (⟨S600000x1, .f32⟩ : BufTy).Contents (Elt F) → (⟨S600000x1, .f32⟩ : BufTy).Contents (Elt F)),
    unary main_v33 main_v34 (broadcastInDim S600000x128 ![0, 1] bcast_S600000x1_S600000x128_0_1 : (⟨S600000x1, .f32⟩ : BufTy).Contents (Elt F) → (⟨S600000x128, .f32⟩ : BufTy).Contents (Elt F)),
    binary main_v11 main_v34 main_v35 (mulf : (⟨S600000x128, .f32⟩ : BufTy).Contents (Elt F) → (⟨S600000x128, .f32⟩ : BufTy).Contents (Elt F) → (⟨S600000x128, .f32⟩ : BufTy).Contents (Elt F)),
    nullary main_cst_4 (constant S_ .f32 0x00000000#32),
    unary main_cst_4 main_v36 (broadcastInDim S100000x128 ![] bcast_S_S100000x128 : (⟨S_, .f32⟩ : BufTy).Contents (Elt F) → (⟨S100000x128, .f32⟩ : BufTy).Contents (Elt F)),
    unary main_v3 main_v37 (broadcastInDim S600000x1 ![0] bcast_S600000_S600000x1_0 : (⟨S600000, .i32⟩ : BufTy).Contents (Elt F) → (⟨S600000x1, .i32⟩ : BufTy).Contents (Elt F)),
    ternary main_v36 main_v37 main_v35 main_v38 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v4 main_v38 main_v39 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v40 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v40 main_v41 rfl shapeCasts_S1x256x128_S256x128,
    binary main_v39 main_v41 main_v42 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v43 ((extractStridedSlice S1x128 ![0, 0] · slices_S3x128_S1x128_0_0) : (⟨S3x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v42 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v47) (TRef.of (T := ⟨S100000x128, .f32⟩) main_call0_v0) (TRef.of (T := ⟨S100000x128, .f32⟩) main_v48) maximumf ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsA_fresh : (opsA : List (HloOp τ sig (Elt F))).Forall fun op => op.fresh = ∅ := by
  simp only [List.Forall]; repeat' constructor

/-- Layer 1. -/
abbrev opsB : List (HloOp τ sig (Elt F)) :=
  [ nullary main_c_5 (constantI S_ 32 0#32),
    unary main_c_5 main_v49 (broadcastInDim S600000 ![] bcast_S_S600000 : (⟨S_, .i32⟩ : BufTy).Contents (Elt F) → (⟨S600000, .i32⟩ : BufTy).Contents (Elt F)),
    binary main_v1 main_v49 main_v50 (cmpi .slt : (⟨S600000, .i32⟩ : BufTy).Contents (Elt F) → (⟨S600000, .i32⟩ : BufTy).Contents (Elt F) → (⟨S600000, .i1⟩ : BufTy).Contents (Elt F)),
    nullary main_c_6 (constantI S_ 32 100000#32),
    unary main_c_6 main_v51 (broadcastInDim S600000 ![] bcast_S_S600000 : (⟨S_, .i32⟩ : BufTy).Contents (Elt F) → (⟨S600000, .i32⟩ : BufTy).Contents (Elt F)),
    binary main_v1 main_v51 main_v52 (addi : (⟨S600000, .i32⟩ : BufTy).Contents (Elt F) → (⟨S600000, .i32⟩ : BufTy).Contents (Elt F) → (⟨S600000, .i32⟩ : BufTy).Contents (Elt F)),
    ternary main_v50 main_v52 main_v1 main_v53 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v53 main_v54 (broadcastInDim S600000x1 ![0] bcast_S600000_S600000x1_0 : (⟨S600000, .i32⟩ : BufTy).Contents (Elt F) → (⟨S600000x1, .i32⟩ : BufTy).Contents (Elt F)),
    binary main_v48 main_v54 main_v55 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_7 (constantI S_ 32 0#32),
    unary main_c_7 main_v56 (broadcastInDim S600000 ![] bcast_S_S600000 : (⟨S_, .i32⟩ : BufTy).Contents (Elt F) → (⟨S600000, .i32⟩ : BufTy).Contents (Elt F)),
    binary main_v3 main_v56 main_v57 (cmpi .slt : (⟨S600000, .i32⟩ : BufTy).Contents (Elt F) → (⟨S600000, .i32⟩ : BufTy).Contents (Elt F) → (⟨S600000, .i1⟩ : BufTy).Contents (Elt F)),
    nullary main_c_8 (constantI S_ 32 100000#32),
    unary main_c_8 main_v58 (broadcastInDim S600000 ![] bcast_S_S600000 : (⟨S_, .i32⟩ : BufTy).Contents (Elt F) → (⟨S600000, .i32⟩ : BufTy).Contents (Elt F)),
    binary main_v3 main_v58 main_v59 (addi : (⟨S600000, .i32⟩ : BufTy).Contents (Elt F) → (⟨S600000, .i32⟩ : BufTy).Contents (Elt F) → (⟨S600000, .i32⟩ : BufTy).Contents (Elt F)),
    ternary main_v57 main_v59 main_v3 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v60 main_v61 (broadcastInDim S600000x1 ![0] bcast_S600000_S600000x1_0 : (⟨S600000, .i32⟩ : BufTy).Contents (Elt F) → (⟨S600000x1, .i32⟩ : BufTy).Contents (Elt F)),
    binary main_v48 main_v61 main_v62 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v55 main_v62 main_v63 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    unary main_arg3 main_v64 ((extractStridedSlice S1x256x1 ![1, 0, 0] · slices_S3x256x1_S1x256x1_1_0_0) : (⟨S3x256x1, .f32⟩ : BufTy).Contents (Elt F) → (⟨S1x256x1, .f32⟩ : BufTy).Contents (Elt F)),
    reshape main_v64 main_v65 rfl shapeCasts_S1x256x1_S256x1,
    binary main_v63 main_v65 main_v66 ((fun l r => Host.dotGeneral dot_S600000x256_S256x1_S600000x1_1_0_0_1_n_n none l r) : (⟨S600000x256, .f32⟩ : BufTy).Contents (Elt F) → (⟨S256x1, .f32⟩ : BufTy).Contents (Elt F) → (⟨S600000x1, .f32⟩ : BufTy).Contents (Elt F)),
    unary main_arg4 main_v67 ((extractStridedSlice S1x1 ![1, 0] · slices_S3x1_S1x1_1_0) : (⟨S3x1, .f32⟩ : BufTy).Contents (Elt F) → (⟨S1x1, .f32⟩ : BufTy).Contents (Elt F)),
    reshape main_v67 main_v68 rfl shapeCasts_S1x1_S1,
    unary main_v68 main_v69 (broadcastInDim S1x1 ![1] bcast_S1_S1x1_1 : (⟨S1, .f32⟩ : BufTy).Contents (Elt F) → (⟨S1x1, .f32⟩ : BufTy).Contents (Elt F)),
    unary main_v69 main_v70 (broadcastInDim S600000x1 ![0, 1] bcast_S1x1_S600000x1_0_1 : (⟨S1x1, .f32⟩ : BufTy).Contents (Elt F) → (⟨S600000x1, .f32⟩ : BufTy).Contents (Elt F)),
    binary main_v66 main_v70 main_v71 (addf : (⟨S600000x1, .f32⟩ : BufTy).Contents (Elt F) → (⟨S600000x1, .f32⟩ : BufTy).Contents (Elt F) → (⟨S600000x1, .f32⟩ : BufTy).Contents (Elt F)),
    unary main_v71 main_v72 (Host.negf : (⟨S600000x1, .f32⟩ : BufTy).Contents (Elt F) → (⟨S600000x1, .f32⟩ : BufTy).Contents (Elt F)),
    unary main_v72 main_v73 (Host.exp : (⟨S600000x1, .f32⟩ : BufTy).Contents (Elt F) → (⟨S600000x1, .f32⟩ : BufTy).Contents (Elt F)),
    nullary main_cst_9 (constant S_ .f32 0x3F800000#32),
    unary main_cst_9 main_v74 (broadcastInDim S600000x1 ![] bcast_S_S600000x1 : (⟨S_, .f32⟩ : BufTy).Contents (Elt F) → (⟨S600000x1, .f32⟩ : BufTy).Contents (Elt F)),
    binary main_v74 main_v73 main_v75 (addf : (⟨S600000x1, .f32⟩ : BufTy).Contents (Elt F) → (⟨S600000x1, .f32⟩ : BufTy).Contents (Elt F) → (⟨S600000x1, .f32⟩ : BufTy).Contents (Elt F)),
    nullary main_cst_10 (constant S_ .f32 0x3F800000#32),
    unary main_cst_10 main_v76 (broadcastInDim S600000x1 ![] bcast_S_S600000x1 : (⟨S_, .f32⟩ : BufTy).Contents (Elt F) → (⟨S600000x1, .f32⟩ : BufTy).Contents (Elt F)),
    binary main_v76 main_v75 main_v77 (Host.divf : (⟨S600000x1, .f32⟩ : BufTy).Contents (Elt F) → (⟨S600000x1, .f32⟩ : BufTy).Contents (Elt F) → (⟨S600000x1, .f32⟩ : BufTy).Contents (Elt F)),
    unary main_v77 main_v78 (broadcastInDim S600000x128 ![0, 1] bcast_S600000x1_S600000x128_0_1 : (⟨S600000x1, .f32⟩ : BufTy).Contents (Elt F) → (⟨S600000x128, .f32⟩ : BufTy).Contents (Elt F)),
    binary main_v55 main_v78 main_v79 (mulf : (⟨S600000x128, .f32⟩ : BufTy).Contents (Elt F) → (⟨S600000x128, .f32⟩ : BufTy).Contents (Elt F) → (⟨S600000x128, .f32⟩ : BufTy).Contents (Elt F)),
    nullary main_cst_11 (constant S_ .f32 0x00000000#32),
    unary main_cst_11 main_v80 (broadcastInDim S100000x128 ![] bcast_S_S100000x128 : (⟨S_, .f32⟩ : BufTy).Contents (Elt F) → (⟨S100000x128, .f32⟩ : BufTy).Contents (Elt F)),
    unary main_v3 main_v81 (broadcastInDim S600000x1 ![0] bcast_S600000_S600000x1_0 : (⟨S600000, .i32⟩ : BufTy).Contents (Elt F) → (⟨S600000x1, .i32⟩ : BufTy).Contents (Elt F)),
    ternary main_v80 main_v81 main_v79 main_v82 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v48 main_v82 main_v83 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v84 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v84 main_v85 rfl shapeCasts_S1x256x128_S256x128,
    binary main_v83 main_v85 main_v86 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v87 ((extractStridedSlice S1x128 ![1, 0] · slices_S3x128_S1x128_1_0) : (⟨S3x128, .f32⟩ : BufTy).Contents (Elt F) → (⟨S1x128, .f32⟩ : BufTy).Contents (Elt F)),
    reshape main_v87 main_v88 rfl shapeCasts_S1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v86 main_v90 main_v91 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v91) (TRef.of (T := ⟨S100000x128, .f32⟩) main_call1_v0) (TRef.of (T := ⟨S100000x128, .f32⟩) main_v92) maximumf ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsB_fresh : (opsB : List (HloOp τ sig (Elt F))).Forall fun op => op.fresh = ∅ := by
  simp only [List.Forall]; repeat' constructor

/-- Layer 2. -/
abbrev opsC : List (HloOp τ sig (Elt F)) :=
  [ nullary main_c_12 (constantI S_ 32 0#32),
    unary main_c_12 main_v93 (broadcastInDim S600000 ![] bcast_S_S600000 : (⟨S_, .i32⟩ : BufTy).Contents (Elt F) → (⟨S600000, .i32⟩ : BufTy).Contents (Elt F)),
    binary main_v1 main_v93 main_v94 (cmpi .slt : (⟨S600000, .i32⟩ : BufTy).Contents (Elt F) → (⟨S600000, .i32⟩ : BufTy).Contents (Elt F) → (⟨S600000, .i1⟩ : BufTy).Contents (Elt F)),
    nullary main_c_13 (constantI S_ 32 100000#32),
    unary main_c_13 main_v95 (broadcastInDim S600000 ![] bcast_S_S600000 : (⟨S_, .i32⟩ : BufTy).Contents (Elt F) → (⟨S600000, .i32⟩ : BufTy).Contents (Elt F)),
    binary main_v1 main_v95 main_v96 (addi : (⟨S600000, .i32⟩ : BufTy).Contents (Elt F) → (⟨S600000, .i32⟩ : BufTy).Contents (Elt F) → (⟨S600000, .i32⟩ : BufTy).Contents (Elt F)),
    ternary main_v94 main_v96 main_v1 main_v97 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v97 main_v98 (broadcastInDim S600000x1 ![0] bcast_S600000_S600000x1_0 : (⟨S600000, .i32⟩ : BufTy).Contents (Elt F) → (⟨S600000x1, .i32⟩ : BufTy).Contents (Elt F)),
    binary main_v92 main_v98 main_v99 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_14 (constantI S_ 32 0#32),
    unary main_c_14 main_v100 (broadcastInDim S600000 ![] bcast_S_S600000 : (⟨S_, .i32⟩ : BufTy).Contents (Elt F) → (⟨S600000, .i32⟩ : BufTy).Contents (Elt F)),
    binary main_v3 main_v100 main_v101 (cmpi .slt : (⟨S600000, .i32⟩ : BufTy).Contents (Elt F) → (⟨S600000, .i32⟩ : BufTy).Contents (Elt F) → (⟨S600000, .i1⟩ : BufTy).Contents (Elt F)),
    nullary main_c_15 (constantI S_ 32 100000#32),
    unary main_c_15 main_v102 (broadcastInDim S600000 ![] bcast_S_S600000 : (⟨S_, .i32⟩ : BufTy).Contents (Elt F) → (⟨S600000, .i32⟩ : BufTy).Contents (Elt F)),
    binary main_v3 main_v102 main_v103 (addi : (⟨S600000, .i32⟩ : BufTy).Contents (Elt F) → (⟨S600000, .i32⟩ : BufTy).Contents (Elt F) → (⟨S600000, .i32⟩ : BufTy).Contents (Elt F)),
    ternary main_v101 main_v103 main_v3 main_v104 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v104 main_v105 (broadcastInDim S600000x1 ![0] bcast_S600000_S600000x1_0 : (⟨S600000, .i32⟩ : BufTy).Contents (Elt F) → (⟨S600000x1, .i32⟩ : BufTy).Contents (Elt F)),
    binary main_v92 main_v105 main_v106 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v99 main_v106 main_v107 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    unary main_arg3 main_v108 ((extractStridedSlice S1x256x1 ![2, 0, 0] · slices_S3x256x1_S1x256x1_2_0_0) : (⟨S3x256x1, .f32⟩ : BufTy).Contents (Elt F) → (⟨S1x256x1, .f32⟩ : BufTy).Contents (Elt F)),
    reshape main_v108 main_v109 rfl shapeCasts_S1x256x1_S256x1,
    binary main_v107 main_v109 main_v110 ((fun l r => Host.dotGeneral dot_S600000x256_S256x1_S600000x1_1_0_0_1_n_n none l r) : (⟨S600000x256, .f32⟩ : BufTy).Contents (Elt F) → (⟨S256x1, .f32⟩ : BufTy).Contents (Elt F) → (⟨S600000x1, .f32⟩ : BufTy).Contents (Elt F)),
    unary main_arg4 main_v111 ((extractStridedSlice S1x1 ![2, 0] · slices_S3x1_S1x1_2_0) : (⟨S3x1, .f32⟩ : BufTy).Contents (Elt F) → (⟨S1x1, .f32⟩ : BufTy).Contents (Elt F)),
    reshape main_v111 main_v112 rfl shapeCasts_S1x1_S1,
    unary main_v112 main_v113 (broadcastInDim S1x1 ![1] bcast_S1_S1x1_1 : (⟨S1, .f32⟩ : BufTy).Contents (Elt F) → (⟨S1x1, .f32⟩ : BufTy).Contents (Elt F)),
    unary main_v113 main_v114 (broadcastInDim S600000x1 ![0, 1] bcast_S1x1_S600000x1_0_1 : (⟨S1x1, .f32⟩ : BufTy).Contents (Elt F) → (⟨S600000x1, .f32⟩ : BufTy).Contents (Elt F)),
    binary main_v110 main_v114 main_v115 (addf : (⟨S600000x1, .f32⟩ : BufTy).Contents (Elt F) → (⟨S600000x1, .f32⟩ : BufTy).Contents (Elt F) → (⟨S600000x1, .f32⟩ : BufTy).Contents (Elt F)),
    unary main_v115 main_v116 (Host.negf : (⟨S600000x1, .f32⟩ : BufTy).Contents (Elt F) → (⟨S600000x1, .f32⟩ : BufTy).Contents (Elt F)),
    unary main_v116 main_v117 (Host.exp : (⟨S600000x1, .f32⟩ : BufTy).Contents (Elt F) → (⟨S600000x1, .f32⟩ : BufTy).Contents (Elt F)),
    nullary main_cst_16 (constant S_ .f32 0x3F800000#32),
    unary main_cst_16 main_v118 (broadcastInDim S600000x1 ![] bcast_S_S600000x1 : (⟨S_, .f32⟩ : BufTy).Contents (Elt F) → (⟨S600000x1, .f32⟩ : BufTy).Contents (Elt F)),
    binary main_v118 main_v117 main_v119 (addf : (⟨S600000x1, .f32⟩ : BufTy).Contents (Elt F) → (⟨S600000x1, .f32⟩ : BufTy).Contents (Elt F) → (⟨S600000x1, .f32⟩ : BufTy).Contents (Elt F)),
    nullary main_cst_17 (constant S_ .f32 0x3F800000#32),
    unary main_cst_17 main_v120 (broadcastInDim S600000x1 ![] bcast_S_S600000x1 : (⟨S_, .f32⟩ : BufTy).Contents (Elt F) → (⟨S600000x1, .f32⟩ : BufTy).Contents (Elt F)),
    binary main_v120 main_v119 main_v121 (Host.divf : (⟨S600000x1, .f32⟩ : BufTy).Contents (Elt F) → (⟨S600000x1, .f32⟩ : BufTy).Contents (Elt F) → (⟨S600000x1, .f32⟩ : BufTy).Contents (Elt F)),
    unary main_v121 main_v122 (broadcastInDim S600000x128 ![0, 1] bcast_S600000x1_S600000x128_0_1 : (⟨S600000x1, .f32⟩ : BufTy).Contents (Elt F) → (⟨S600000x128, .f32⟩ : BufTy).Contents (Elt F)),
    binary main_v99 main_v122 main_v123 (mulf : (⟨S600000x128, .f32⟩ : BufTy).Contents (Elt F) → (⟨S600000x128, .f32⟩ : BufTy).Contents (Elt F) → (⟨S600000x128, .f32⟩ : BufTy).Contents (Elt F)),
    nullary main_cst_18 (constant S_ .f32 0x00000000#32),
    unary main_cst_18 main_v124 (broadcastInDim S100000x128 ![] bcast_S_S100000x128 : (⟨S_, .f32⟩ : BufTy).Contents (Elt F) → (⟨S100000x128, .f32⟩ : BufTy).Contents (Elt F)),
    unary main_v3 main_v125 (broadcastInDim S600000x1 ![0] bcast_S600000_S600000x1_0 : (⟨S600000, .i32⟩ : BufTy).Contents (Elt F) → (⟨S600000x1, .i32⟩ : BufTy).Contents (Elt F)),
    ternary main_v124 main_v125 main_v123 main_v126 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v92 main_v126 main_v127 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v128 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v128 main_v129 rfl shapeCasts_S1x256x128_S256x128,
    binary main_v127 main_v129 main_v130 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v131 ((extractStridedSlice S1x128 ![2, 0] · slices_S3x128_S1x128_2_0) : (⟨S3x128, .f32⟩ : BufTy).Contents (Elt F) → (⟨S1x128, .f32⟩ : BufTy).Contents (Elt F)),
    reshape main_v131 main_v132 rfl shapeCasts_S1x128_S128,
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v130 main_v134 main_v135 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v135) (TRef.of (T := ⟨S100000x128, .f32⟩) main_call2_v0) (TRef.of (T := ⟨S100000x128, .f32⟩) main_v136) maximumf ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsC_fresh : (opsC : List (HloOp τ sig (Elt F))).Forall fun op => op.fresh = ∅ := by
  simp only [List.Forall]; repeat' constructor

/-- The two results. -/
abbrev opsD : List (HloOp τ sig (Elt F)) :=
  [ unary main_v136 main_v137 ((extractStridedSlice S50000x128 ![0, 0] · slices_S100000x128_S50000x128_0_0) : (⟨S100000x128, .f32⟩ : BufTy).Contents (Elt F) → (⟨S50000x128, .f32⟩ : BufTy).Contents (Elt F)),
    unary main_v136 main_v138 ((extractStridedSlice S50000x128 ![50000, 0] · slices_S100000x128_S50000x128_50000_0) : (⟨S100000x128, .f32⟩ : BufTy).Contents (Elt F) → (⟨S50000x128, .f32⟩ : BufTy).Contents (Elt F)) ]

theorem opsD_sub : (opsD : List (HloOp τ sig (Elt F))).Forall fun op => op.bufs ⊆ tcRefs τ sig :=
  ⟨unary_bufs_sub .., unary_bufs_sub ..⟩

theorem opsD_fresh : (opsD : List (HloOp τ sig (Elt F))).Forall fun op => op.fresh = ∅ := by
  simp only [List.Forall]; repeat' constructor

/-- The whole program's operations. -/
abbrev ops4 : List (HloOp τ sig (Elt F)) := opsP ++ (opsA ++ (opsB ++ (opsC ++ opsD)))

set_option maxRecDepth 8192 in
set_option maxHeartbeats 4000000 in
theorem main_eq4 (c : Dev nD) : main (F := F) c = seq ops4 := rfl

theorem scopedRefs_eq4 : (Finset.univ.filter fun b : Ref sig .tc => b.isScoped) = ∅ := by decide
theorem scopedSems_eq4 : (Finset.univ.filter fun sm : SemLoc sig => sm.isScoped .tc) = ∅ := by decide

/-- A property of every operation of two stretches holds of the stretches joined. -/
theorem forall_append {α : Type} {p : α → Prop} {a b : List α} (ha : a.Forall p) (hb : b.Forall p) : (a ++ b).Forall p := by
  rw [List.forall_iff_forall_mem] at *
  intro x hx
  rcases List.mem_append.mp hx with h | h
  · exact ha x h
  · exact hb x h

theorem ops4_sub : (ops4 : List (HloOp τ sig (Elt F))).Forall fun op => op.bufs ⊆ tcRefs τ sig :=
  forall_append opsP_sub (forall_append opsA_sub (forall_append opsB_sub (forall_append opsC_sub opsD_sub)))

theorem ops4_fresh : ∀ op ∈ (ops4 : List (HloOp τ sig (Elt F))), op.fresh = ∅ :=
  List.forall_iff_forall_mem.mp (forall_append opsP_fresh (forall_append opsA_fresh (forall_append opsB_fresh (forall_append opsC_fresh opsD_fresh))))

/-- Running two stretches one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every weakly fair execution of the reference terminates without a fault, and every buffer ends at the fold of
    the five stretches over the launch memory. -/
theorem run4 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsD (after opsC (after opsB (after opsA (after opsP (launchContents m d))))) (Proc.devRef .tc b) :=
  (θ_run defs _ _).mono (fun r h d b => (h d b).trans (by rw [after_append, after_append, after_append, after_append]))
    (run_seq scopedRefs_eq4 scopedSems_eq4 defs main (fun _ => ops4) main_eq4 (fun _ => ops4_sub) m ρ (fun _ => ops4_fresh))

end Cert.ReferenceIdeal.Hand

end
-- ==== Proof.RefStep.lean ====
/-
  One layer of the reference, and why it is the kernel's layer.

  The reference computes a layer with whole-array host operations: it gathers the source and destination rows, joins
  them side by side into rows of 256 features, multiplies by the layer's 256 attention weights and adds the bias,
  takes `1 / (1 + exp (-score))`, scales the source rows, sums them by destination, joins the node table and the
  sums side by side, multiplies by the layer's 256 × 128 update weights, adds the bias and takes the maximum with 0.

  A sum over the 256 joined features is the sum over the first 128 plus the sum over the last 128 — the only law
  used, and it holds for every extended real. The first half of a joined row is the left operand's row, the second
  half the right operand's, and the matching halves of the weights are what the kernel's side cuts out. `0 - s`
  is `-s`. So the coefficient and the update are the specification's formulas of the same operands (`attR_eq`, `updR_eq`),
  the gather and the sum by destination are the same host operations, and the layer is the kernel's (`stepR_eq`).
-/
import proofs.«123907_j40140764349010_1_alg».proof.Proof.Gen.ReferenceIdeal
import proofs.«123907_j40140764349010_1_alg».proof.Proof.KerStep
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.ValueIdx Idealize.SL.Sem

/-! ## The layer's pieces, as the reference writes them -/

/-- The gathered rows. -/
def gathR (x : FVec Ideal S100000x128 .f32) (s : (⟨S600000, .i32⟩ : BufTy).Contents (Elt Ideal)) : FVec Ideal S600000x128 .f32 :=
  (Host.gather gather_S100000x128_S600000x1_S600000x128_1_0_n_n_0_1_1128 x (broadcastInDim S600000x1 ![0] bcast_S600000_S600000x1_0 (select (cmpi .slt s (broadcastInDim S600000 ![] bcast_S_S600000 (constantI S_ 32 0#32))) (addi s (broadcastInDim S600000 ![] bcast_S_S600000 (constantI S_ 32 100000#32))) s)))

/-- The scaled source rows. -/
def attR (gs gd : FVec Ideal S600000x128 .f32) (wa : FVec Ideal S256x1 .f32) (b1 : FVec Ideal S1 .f32) : FVec Ideal S600000x128 .f32 :=
  (mulf gs (broadcastInDim S600000x128 ![0, 1] bcast_S600000x1_S600000x128_0_1 (Host.divf (broadcastInDim S600000x1 ![] bcast_S_S600000x1 (constant (F := Ideal) S_ .f32 0x3F800000#32)) (addf (broadcastInDim S600000x1 ![] bcast_S_S600000x1 (constant (F := Ideal) S_ .f32 0x3F800000#32)) (Host.exp (Host.negf (addf (Host.dotGeneral dot_S600000x256_S256x1_S600000x1_1_0_0_1_n_n none (concatenate S600000x256 1 [⟨S600000x128, gs⟩, ⟨S600000x128, gd⟩] concatenates_S600000x128_S600000x128_S600000x256_d1) wa) (broadcastInDim S600000x1 ![0, 1] bcast_S1x1_S600000x1_0_1 (broadcastInDim S1x1 ![1] bcast_S1_S1x1_1 b1)))))))))

/-- The messages summed by destination. -/
def aggR (dst : (⟨S600000, .i32⟩ : BufTy).Contents (Elt Ideal)) (u : FVec Ideal S600000x128 .f32) : FVec Ideal S100000x128 .f32 :=
  (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 dst) u)

/-- The node update. -/
def updR (x a : FVec Ideal S100000x128 .f32) (wg : FVec Ideal S256x128 .f32) (bg : FVec Ideal S128 .f32) : FVec Ideal S100000x128 .f32 :=
  (maximumf (addf (Host.dotGeneral dot_S100000x256_S256x128_S100000x128_1_0_0_1_n_n none (concatenate S100000x256 1 [⟨S100000x128, x⟩, ⟨S100000x128, a⟩] concatenates_S100000x128_S100000x128_S100000x256_d1) wg) (broadcastInDim S100000x128 ![0, 1] bcast_S1x128_S100000x128_0_1 (broadcastInDim S1x128 ![1] bcast_S128_S1x128_1 bg))) (broadcastInDim S100000x128 ![] bcast_S_S100000x128 (constant (F := Ideal) S_ .f32 0x00000000#32)))

/-- One layer of the reference. -/
def stepR (src dst : (⟨S600000, .i32⟩ : BufTy).Contents (Elt Ideal)) (wa : FVec Ideal S256x1 .f32) (b1 : FVec Ideal S1 .f32) (wg : FVec Ideal S256x128 .f32)
    (bg : FVec Ideal S128 .f32) (x : FVec Ideal S100000x128 .f32) : FVec Ideal S100000x128 .f32 :=
  updR x (aggR dst (attR (gathR x src) (gathR x dst) wa b1)) wg bg

/-! ## The host operations the two programs share -/

theorem gathR_eq (x : FVec Ideal S100000x128 .f32) (s : (⟨S600000, .i32⟩ : BufTy).Contents (Elt Ideal)) : gathR x s = Cert.KernelIdeal.Hand.gath x s := rfl

theorem aggR_eq (dst : (⟨S600000, .i32⟩ : BufTy).Contents (Elt Ideal)) (u : FVec Ideal S600000x128 .f32) : aggR dst u = Cert.KernelIdeal.Hand.agg dst u := rfl

/-! ## Layout operations at coordinates -/

theorem hostDiv_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNeg_apply {s : Shape} (a : FVec Ideal s .f32) (i : s.Idx) : Host.negf a i = -(a i) := rfl

/-- A scalar repeated over any shape reads the scalar. -/
theorem splat_apply {t : Shape} (w : BitVec 32) (h : S_.BroadcastsInDim t (![] : Fin 0 → Fin t.rank)) (j : t.Idx) :
    broadcastInDim t ![] h (constant (F := Ideal) S_ .f32 w) j = Ideal.ofBits .f32 w :=
  (broadcastInDim_apply ![] h (constant (F := Ideal) S_ .f32 w) j ix0 (fun a => a.elim0)).trans rfl

/-- A column `[n,1]` repeated across `[n,128]` reads the column's entry. -/
theorem colAcross_apply {n : Nat} (v : FVec Ideal ⟨2, ![n, 1]⟩ .f32)
    (h : (⟨2, ![n, 1]⟩ : Shape).BroadcastsInDim ⟨2, ![n, 128]⟩ ![0, 1]) (e : Fin n) (q : Fin 128) :
    broadcastInDim ⟨2, ![n, 128]⟩ ![0, 1] h v (ix2 e q) = v (ix2 e 0) :=
  broadcastInDim_apply ![0, 1] h v (ix2 e q) (ix2 e 0) (fun a => match a with
    | ⟨0, _⟩ => by
      show e.val = if n = 1 then 0 else e.val
      split
      · have := e.isLt; omega
      · rfl
    | ⟨1, _⟩ => rfl)

/-- The attention bias, a vector of one entry, repeated down a column of any length. -/
theorem biasCol_apply {n : Nat} (b : FVec Ideal S1 .f32) (h1 : S1.BroadcastsInDim S1x1 ![1])
    (h2 : S1x1.BroadcastsInDim ⟨2, ![n, 1]⟩ ![0, 1]) (e : Fin n) :
    broadcastInDim ⟨2, ![n, 1]⟩ ![0, 1] h2 (broadcastInDim S1x1 ![1] h1 b) (ix2 e 0) = b (ix1 0) :=
  (broadcastInDim_apply ![0, 1] h2 _ (ix2 e 0) (ix2 0 0) (fun a => match a with | ⟨0, _⟩ => rfl | ⟨1, _⟩ => rfl)).trans
    (broadcastInDim_apply ![1] h1 b (ix2 0 0) (ix1 0) (fun a => match a with | ⟨0, _⟩ => rfl))

/-- The update bias, a vector of 128, repeated down every row. -/
theorem biasRow_apply {n : Nat} (b : FVec Ideal S128 .f32) (h1 : S128.BroadcastsInDim S1x128 ![1])
    (h2 : S1x128.BroadcastsInDim ⟨2, ![n, 128]⟩ ![0, 1]) (r : Fin n) (q : Fin 128) :
    broadcastInDim ⟨2, ![n, 128]⟩ ![0, 1] h2 (broadcastInDim S1x128 ![1] h1 b) (ix2 r q) = b (ix1 q) :=
  (broadcastInDim_apply ![0, 1] h2 _ (ix2 r q) (ix2 0 q) (fun a => match a with | ⟨0, _⟩ => rfl | ⟨1, _⟩ => rfl)).trans
    (broadcastInDim_apply ![1] h1 b (ix2 0 q) (ix1 q) (fun a => match a with | ⟨0, _⟩ => rfl))

/-- Two arrays of 128 columns joined side by side: the first 128 columns are the left array's. -/
theorem joinL_apply {n : Nat} (x₁ x₂ : (⟨2, ![n, 128]⟩ : Shape).Idx → EReal)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (Fin.castAdd 128 k)) = x₁ (ix2 r k) :=
  concatenate_pair_apply_left 1 x₁ x₂ h (ix2 r (Fin.castAdd 128 k)) rfl (ix2 r k) (fun b => match b with
    | ⟨0, _⟩ => rfl
    | ⟨1, _⟩ => rfl)

/-- … and the last 128 columns are the right array's. -/
theorem joinR_apply {n : Nat} (x₁ x₂ : (⟨2, ![n, 128]⟩ : Shape).Idx → EReal)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (Fin.natAdd 128 k)) = x₂ (ix2 r k) :=
  concatenate_pair_apply_right 1 x₁ x₂ h (ix2 r (Fin.natAdd 128 k)) rfl rfl (ix2 r k) (fun b hb => match b with
    | ⟨0, _⟩ => rfl
    | ⟨1, _⟩ => absurd rfl hb)
    (by show k.val + 128 = 128 + k.val; omega)

/-! ## The layer's weights, cut as the kernel's side cuts them -/

theorem waS_apply (wa : FVec Ideal S256x1 .f32) (k : Fin 128) :
    Cert.KernelIdeal.Hand.waS wa (ix2 0 k) = wa (ix2 (Fin.castAdd 128 k) 0) := by
  unfold Cert.KernelIdeal.Hand.waS
  refine (transpose_apply _ _ _ (ix2 0 k) (ix2 k 0) (fun b => match b with | ⟨0, _⟩ => rfl | ⟨1, _⟩ => rfl)).trans ?_
  exact extractStridedSlice_apply _ _ _ (ix2 k 0) (ix2 (Fin.castAdd 128 k) 0) (fun a => match a with
    | ⟨0, _⟩ => by show k.val = 0 + k.val; omega
    | ⟨1, _⟩ => rfl)

theorem waD_apply (wa : FVec Ideal S256x1 .f32) (k : Fin 128) :
    Cert.KernelIdeal.Hand.waD wa (ix2 0 k) = wa (ix2 (Fin.natAdd 128 k) 0) := by
  unfold Cert.KernelIdeal.Hand.waD
  refine (transpose_apply _ _ _ (ix2 0 k) (ix2 k 0) (fun b => match b with | ⟨0, _⟩ => rfl | ⟨1, _⟩ => rfl)).trans ?_
  exact extractStridedSlice_apply _ _ _ (ix2 k 0) (ix2 (Fin.natAdd 128 k) 0) (fun a => match a with
    | ⟨0, _⟩ => rfl
    | ⟨1, _⟩ => rfl)

theorem ba11_apply (b : FVec Ideal S1 .f32) : Cert.KernelIdeal.Hand.ba11 b (ix2 0 0) = b (ix1 0) := by
  unfold Cert.KernelIdeal.Hand.ba11
  exact shapeCast_apply _ _ (ix2 0 0) (ix1 0) (by rw [Shape.rowMajor_val_one, Shape.rowMajor_val_two]; rfl)

theorem wgX_apply (wg : FVec Ideal S256x128 .f32) (k q : Fin 128) :
    Cert.KernelIdeal.Hand.wgX wg (ix2 k q) = wg (ix2 (Fin.castAdd 128 k) q) := by
  unfold Cert.KernelIdeal.Hand.wgX
  exact extractStridedSlice_apply _ _ _ (ix2 k q) (ix2 (Fin.castAdd 128 k) q) (fun a => match a with
    | ⟨0, _⟩ => by show k.val = 0 + k.val; omega
    | ⟨1, _⟩ => by show q.val = 0 + q.val; omega)

theorem wgA_apply (wg : FVec Ideal S256x128 .f32) (k q : Fin 128) :
    Cert.KernelIdeal.Hand.wgA wg (ix2 k q) = wg (ix2 (Fin.natAdd 128 k) q) := by
  unfold Cert.KernelIdeal.Hand.wgA
  exact extractStridedSlice_apply _ _ _ (ix2 k q) (ix2 (Fin.natAdd 128 k) q) (fun a => match a with
    | ⟨0, _⟩ => rfl
    | ⟨1, _⟩ => by show q.val = 0 + q.val; omega)

theorem bgRow_apply (bg : FVec Ideal S128 .f32) (q : Fin 128) : Cert.KernelIdeal.Hand.bgRow bg (ix2 0 q) = bg (ix1 q) := by
  unfold Cert.KernelIdeal.Hand.bgRow
  exact shapeCast_apply _ _ (ix2 0 q) (ix1 q) (by
    rw [Shape.rowMajor_val_one, Shape.rowMajor_val_two]
    show q.val = 0 * 128 + q.val
    omega)

/-! ## The two products -/

/-- The reference's score product `[600000,256] × [256,1]`. -/
abbrev DA := dot_S600000x256_S256x1_S600000x1_1_0_0_1_n_n
/-- The reference's update product `[100000,256] × [256,128]`. -/
abbrev DU := dot_S100000x256_S256x128_S100000x128_1_0_0_1_n_n

theorem DA_lhs0 (i : S600000x1.Idx) (r : DA.contr.Idx) : (DA.lhsIdx i r 0).val = (i 0).val := by
  unfold DotDims.lhsIdx
  rw [dif_neg (show ¬(0 : Fin S600000x256.rank) ∈ DA.lhsBatch by decide), dif_pos (show (0 : Fin S600000x256.rank) ∈ DA.lhsNonContracting by decide)]
  rfl
theorem DA_lhs1 (i : S600000x1.Idx) (r : DA.contr.Idx) : (DA.lhsIdx i r 1).val = (r ⟨0, by decide⟩).val :=
  DA.lhsIdx_val_of_single rfl i r
theorem DA_rhs0 (i : S600000x1.Idx) (r : DA.contr.Idx) : (DA.rhsIdx i r 0).val = (r ⟨0, by decide⟩).val :=
  DA.rhsIdx_val_of_single rfl i r
theorem DA_rhs1 (i : S600000x1.Idx) (r : DA.contr.Idx) : (DA.rhsIdx i r 1).val = (i 1).val := by
  unfold DotDims.rhsIdx
  rw [dif_neg (show ¬(1 : Fin S256x1.rank) ∈ DA.rhsBatch by decide), dif_pos (show (1 : Fin S256x1.rank) ∈ DA.rhsNonContracting by decide)]
  rfl

/-- The score product at edge `e`: the joined row against the weight column. -/
theorem dotA_apply (l : FVec Ideal S600000x256 .f32) (w : FVec Ideal S256x1 .f32) (e : Fin 600000) :
    Host.dotGeneral DA none l w (ix2 e 0) = ∑ k : Fin 256, l (ix2 e k) * w (ix2 k 0) := by
  simp only [Host.dotGeneral]
  rw [Ideal.dotGeneral_apply, ← Equiv.sum_comp (contrEquiv1 DA 256 rfl rfl).symm]
  refine Finset.sum_congr rfl fun k _ => ?_
  have hk := contrEquiv1_symm_val DA 256 rfl rfl k
  have el : DA.lhsIdx (ix2 e 0) ((contrEquiv1 DA 256 rfl rfl).symm k) = ix2 e k := funext fun a => Fin.ext (by
    match a with
    | ⟨0, _⟩ => exact DA_lhs0 _ _
    | ⟨1, _⟩ => exact (DA_lhs1 _ _).trans hk)
  have er : DA.rhsIdx (ix2 e 0) ((contrEquiv1 DA 256 rfl rfl).symm k) = ix2 k 0 := funext fun a => Fin.ext (by
    match a with
    | ⟨0, _⟩ => exact (DA_rhs0 _ _).trans hk
    | ⟨1, _⟩ => exact DA_rhs1 _ _)
  rw [el, er]

theorem DU_lhs0 (i : S100000x128.Idx) (r : DU.contr.Idx) : (DU.lhsIdx i r 0).val = (i 0).val := by
  unfold DotDims.lhsIdx
  rw [dif_neg (show ¬(0 : Fin S100000x256.rank) ∈ DU.lhsBatch by decide), dif_pos (show (0 : Fin S100000x256.rank) ∈ DU.lhsNonContracting by decide)]
  rfl
theorem DU_lhs1 (i : S100000x128.Idx) (r : DU.contr.Idx) : (DU.lhsIdx i r 1).val = (r ⟨0, by decide⟩).val :=
  DU.lhsIdx_val_of_single rfl i r
theorem DU_rhs0 (i : S100000x128.Idx) (r : DU.contr.Idx) : (DU.rhsIdx i r 0).val = (r ⟨0, by decide⟩).val :=
  DU.rhsIdx_val_of_single rfl i r
theorem DU_rhs1 (i : S100000x128.Idx) (r : DU.contr.Idx) : (DU.rhsIdx i r 1).val = (i 1).val := by
  unfold DotDims.rhsIdx
  rw [dif_neg (show ¬(1 : Fin S256x128.rank) ∈ DU.rhsBatch by decide), dif_pos (show (1 : Fin S256x128.rank) ∈ DU.rhsNonContracting by decide)]
  rfl

/-- The update product at `(r, q)`: the joined row against column `q` of the weights. -/
theorem dotU_apply (l : FVec Ideal S100000x256 .f32) (w : FVec Ideal S256x128 .f32) (r : Fin 100000) (q : Fin 128) :
    Host.dotGeneral DU none l w (ix2 r q) = ∑ k : Fin 256, l (ix2 r k) * w (ix2 k q) := by
  simp only [Host.dotGeneral]
  rw [Ideal.dotGeneral_apply, ← Equiv.sum_comp (contrEquiv1 DU 256 rfl rfl).symm]
  refine Finset.sum_congr rfl fun k _ => ?_
  have hk := contrEquiv1_symm_val DU 256 rfl rfl k
  have el : DU.lhsIdx (ix2 r q) ((contrEquiv1 DU 256 rfl rfl).symm k) = ix2 r k := funext fun a => Fin.ext (by
    match a with
    | ⟨0, _⟩ => exact DU_lhs0 _ _
    | ⟨1, _⟩ => exact (DU_lhs1 _ _).trans hk)
  have er : DU.rhsIdx (ix2 r q) ((contrEquiv1 DU 256 rfl rfl).symm k) = ix2 k q := funext fun a => Fin.ext (by
    match a with
    | ⟨0, _⟩ => exact (DU_rhs0 _ _).trans hk
    | ⟨1, _⟩ => exact DU_rhs1 _ _)
  rw [el, er]

/-- A sum over 256 is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-! ## The coefficient and the update are the specification's -/

theorem attR_eq (gs gd : FVec Ideal S600000x128 .f32) (wa : FVec Ideal S256x1 .f32) (b1 : FVec Ideal S1 .f32) :
    attR gs gd wa b1 = Cert.Spec.attn gs gd (Cert.KernelIdeal.Hand.waS wa) (Cert.KernelIdeal.Hand.waD wa) (Cert.KernelIdeal.Hand.ba11 b1) := by
  funext j
  obtain ⟨e, q, rfl⟩ : ∃ (e : Fin 600000) (q : Fin 128), j = ix2 e q := ⟨j 0, j 1, eq_ix2 j⟩
  rw [Cert.Spec.attn_apply]
  unfold attR Cert.Spec.coef Cert.Spec.score
  rw [mulf_apply, colAcross_apply, hostDiv_apply, addf_apply, hostExp_apply, hostNeg_apply, addf_apply, splat_apply, biasCol_apply, dotA_apply,
    sum_halves]
  simp only [joinL_apply, joinR_apply, waS_apply, waD_apply, ba11_apply]
  rw [show Cert.Spec.zero = (0 : EReal) from Ideal.ofBits_zero_f32, zero_sub]

theorem updR_eq (x a : FVec Ideal S100000x128 .f32) (wg : FVec Ideal S256x128 .f32) (bg : FVec Ideal S128 .f32) :
    updR x a wg bg = Cert.Spec.upd x a (Cert.KernelIdeal.Hand.wgX wg) (Cert.KernelIdeal.Hand.wgA wg) (Cert.KernelIdeal.Hand.bgRow bg) := by
  funext j
  obtain ⟨r, q, rfl⟩ : ∃ (r : Fin 100000) (q : Fin 128), j = ix2 r q := ⟨j 0, j 1, eq_ix2 j⟩
  rw [Cert.Spec.upd_apply]
  unfold updR
  rw [maximumf_apply, addf_apply, splat_apply, biasRow_apply, dotU_apply, sum_halves]
  simp only [joinL_apply, joinR_apply, wgX_apply, wgA_apply, bgRow_apply]

/-- The reference's layer is the kernel's layer. -/
theorem stepR_eq (src dst : (⟨S600000, .i32⟩ : BufTy).Contents (Elt Ideal)) (wa : FVec Ideal S256x1 .f32) (b1 : FVec Ideal S1 .f32) (wg : FVec Ideal S256x128 .f32)
    (bg : FVec Ideal S128 .f32) (x : FVec Ideal S100000x128 .f32) :
    stepR src dst wa b1 wg bg x = Cert.KernelIdeal.Hand.step src dst wa b1 wg bg x := by
  unfold stepR Cert.KernelIdeal.Hand.step
  rw [updR_eq, aggR_eq, attR_eq, gathR_eq, gathR_eq]

end Cert.ReferenceIdeal.Hand

end
-- ==== Proof.RefSegP.lean ====
/-
  Stretch P of the reference read back: from any buffer contents `W`, what the buffers a later stretch reads hold
  after the stretch's operations — the node table is the user rows followed by the item rows —
  and the buffers the stretch leaves alone.
-/
import proofs.«123907_j40140764349010_1_alg».proof.Proof.RefOps
import proofs.«123907_j40140764349010_1_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (W : Valuation τ sig (Elt Ideal))

theorem segP_v1 : StableHlo.after (opsP (F := Ideal)) W (Proc.devRef .tc main_v1) = Cert.KernelIdeal.Hand.idxRow0 (W (Proc.devRef .tc main_arg0)) := by
  after_results_simp <;> rfl

theorem segP_v3 : StableHlo.after (opsP (F := Ideal)) W (Proc.devRef .tc main_v3) = Cert.KernelIdeal.Hand.idxRow1 (W (Proc.devRef .tc main_arg0)) := by
  after_results_simp <;> rfl

theorem segP_v4 : StableHlo.after (opsP (F := Ideal)) W (Proc.devRef .tc main_v4) = Cert.KernelIdeal.Hand.nodes0 (W (Proc.devRef .tc main_arg1)) (W (Proc.devRef .tc main_arg2)) := by
  after_results_simp <;> rfl

theorem segP_keep_arg0 : StableHlo.after (opsP (F := Ideal)) W (Proc.devRef .tc main_arg0) = W (Proc.devRef .tc main_arg0) := by
  after_results_simp <;> rfl

theorem segP_keep_arg1 : StableHlo.after (opsP (F := Ideal)) W (Proc.devRef .tc main_arg1) = W (Proc.devRef .tc main_arg1) := by
  after_results_simp <;> rfl

theorem segP_keep_arg2 : StableHlo.after (opsP (F := Ideal)) W (Proc.devRef .tc main_arg2) = W (Proc.devRef .tc main_arg2) := by
  after_results_simp <;> rfl

theorem segP_keep_arg3 : StableHlo.after (opsP (F := Ideal)) W (Proc.devRef .tc main_arg3) = W (Proc.devRef .tc main_arg3) := by
  after_results_simp <;> rfl

theorem segP_keep_arg4 : StableHlo.after (opsP (F := Ideal)) W (Proc.devRef .tc main_arg4) = W (Proc.devRef .tc main_arg4) := by
  after_results_simp <;> rfl

theorem segP_keep_arg5 : StableHlo.after (opsP (F := Ideal)) W (Proc.devRef .tc main_arg5) = W (Proc.devRef .tc main_arg5) := by
  after_results_simp <;> rfl

theorem segP_keep_arg6 : StableHlo.after (opsP (F := Ideal)) W (Proc.devRef .tc main_arg6) = W (Proc.devRef .tc main_arg6) := by
  after_results_simp <;> rfl

end Cert.ReferenceIdeal.Hand

end
-- ==== Proof.RefSegA.lean ====
/-
  Stretch A of the reference read back: from any buffer contents `W`, what the buffers a later stretch reads hold
  after the stretch's operations — the node table after the stretch's layer is the reference's layer of the table before it —
  and the buffers the stretch leaves alone.
-/
import proofs.«123907_j40140764349010_1_alg».proof.Proof.RefOps
import proofs.«123907_j40140764349010_1_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (W : Valuation τ sig (Elt Ideal))

theorem segA_v48 : StableHlo.after (opsA (F := Ideal)) W (Proc.devRef .tc main_v48) = stepR (W (Proc.devRef .tc main_v1)) (W (Proc.devRef .tc main_v3)) (Cert.KernelIdeal.Hand.wa0 (W (Proc.devRef .tc main_arg3))) (Cert.KernelIdeal.Hand.ba0 (W (Proc.devRef .tc main_arg4))) (Cert.KernelIdeal.Hand.wg0 (W (Proc.devRef .tc main_arg5))) (Cert.KernelIdeal.Hand.bg0 (W (Proc.devRef .tc main_arg6))) (W (Proc.devRef .tc main_v4)) := by
  after_results_simp <;> rfl

theorem segA_keep_v1 : StableHlo.after (opsA (F := Ideal)) W (Proc.devRef .tc main_v1) = W (Proc.devRef .tc main_v1) := by
  after_results_simp <;> rfl

theorem segA_keep_v3 : StableHlo.after (opsA (F := Ideal)) W (Proc.devRef .tc main_v3) = W (Proc.devRef .tc main_v3) := by
  after_results_simp <;> rfl

theorem segA_keep_arg0 : StableHlo.after (opsA (F := Ideal)) W (Proc.devRef .tc main_arg0) = W (Proc.devRef .tc main_arg0) := by
  after_results_simp <;> rfl

theorem segA_keep_arg1 : StableHlo.after (opsA (F := Ideal)) W (Proc.devRef .tc main_arg1) = W (Proc.devRef .tc main_arg1) := by
  after_results_simp <;> rfl

theorem segA_keep_arg2 : StableHlo.after (opsA (F := Ideal)) W (Proc.devRef .tc main_arg2) = W (Proc.devRef .tc main_arg2) := by
  after_results_simp <;> rfl

theorem segA_keep_arg3 : StableHlo.after (opsA (F := Ideal)) W (Proc.devRef .tc main_arg3) = W (Proc.devRef .tc main_arg3) := by
  after_results_simp <;> rfl

theorem segA_keep_arg4 : StableHlo.after (opsA (F := Ideal)) W (Proc.devRef .tc main_arg4) = W (Proc.devRef .tc main_arg4) := by
  after_results_simp <;> rfl

theorem segA_keep_arg5 : StableHlo.after (opsA (F := Ideal)) W (Proc.devRef .tc main_arg5) = W (Proc.devRef .tc main_arg5) := by
  after_results_simp <;> rfl

theorem segA_keep_arg6 : StableHlo.after (opsA (F := Ideal)) W (Proc.devRef .tc main_arg6) = W (Proc.devRef .tc main_arg6) := by
  after_results_simp <;> rfl

end Cert.ReferenceIdeal.Hand

end
-- ==== Proof.RefSegB.lean ====
/-
  Stretch B of the reference read back: from any buffer contents `W`, what the buffers a later stretch reads hold
  after the stretch's operations — the node table after the stretch's layer is the reference's layer of the table before it —
  and the buffers the stretch leaves alone.
-/
import proofs.«123907_j40140764349010_1_alg».proof.Proof.RefOps
import proofs.«123907_j40140764349010_1_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (W : Valuation τ sig (Elt Ideal))

theorem segB_v92 : StableHlo.after (opsB (F := Ideal)) W (Proc.devRef .tc main_v92) = stepR (W (Proc.devRef .tc main_v1)) (W (Proc.devRef .tc main_v3)) (Cert.KernelIdeal.Hand.wa1 (W (Proc.devRef .tc main_arg3))) (Cert.KernelIdeal.Hand.ba1 (W (Proc.devRef .tc main_arg4))) (Cert.KernelIdeal.Hand.wg1 (W (Proc.devRef .tc main_arg5))) (Cert.KernelIdeal.Hand.bg1 (W (Proc.devRef .tc main_arg6))) (W (Proc.devRef .tc main_v48)) := by
  after_results_simp <;> rfl

theorem segB_keep_v1 : StableHlo.after (opsB (F := Ideal)) W (Proc.devRef .tc main_v1) = W (Proc.devRef .tc main_v1) := by
  after_results_simp <;> rfl

theorem segB_keep_v3 : StableHlo.after (opsB (F := Ideal)) W (Proc.devRef .tc main_v3) = W (Proc.devRef .tc main_v3) := by
  after_results_simp <;> rfl

theorem segB_keep_arg0 : StableHlo.after (opsB (F := Ideal)) W (Proc.devRef .tc main_arg0) = W (Proc.devRef .tc main_arg0) := by
  after_results_simp <;> rfl

theorem segB_keep_arg1 : StableHlo.after (opsB (F := Ideal)) W (Proc.devRef .tc main_arg1) = W (Proc.devRef .tc main_arg1) := by
  after_results_simp <;> rfl

theorem segB_keep_arg2 : StableHlo.after (opsB (F := Ideal)) W (Proc.devRef .tc main_arg2) = W (Proc.devRef .tc main_arg2) := by
  after_results_simp <;> rfl

theorem segB_keep_arg3 : StableHlo.after (opsB (F := Ideal)) W (Proc.devRef .tc main_arg3) = W (Proc.devRef .tc main_arg3) := by
  after_results_simp <;> rfl

theorem segB_keep_arg4 : StableHlo.after (opsB (F := Ideal)) W (Proc.devRef .tc main_arg4) = W (Proc.devRef .tc main_arg4) := by
  after_results_simp <;> rfl

theorem segB_keep_arg5 : StableHlo.after (opsB (F := Ideal)) W (Proc.devRef .tc main_arg5) = W (Proc.devRef .tc main_arg5) := by
  after_results_simp <;> rfl

theorem segB_keep_arg6 : StableHlo.after (opsB (F := Ideal)) W (Proc.devRef .tc main_arg6) = W (Proc.devRef .tc main_arg6) := by
  after_results_simp <;> rfl

end Cert.ReferenceIdeal.Hand

end
-- ==== Proof.RefSegC.lean ====
/-
  Stretch C of the reference read back: from any buffer contents `W`, what the buffers a later stretch reads hold
  after the stretch's operations — the node table after the stretch's layer is the reference's layer of the table before it —
  and the buffers the stretch leaves alone.
-/
import proofs.«123907_j40140764349010_1_alg».proof.Proof.RefOps
import proofs.«123907_j40140764349010_1_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (W : Valuation τ sig (Elt Ideal))

theorem segC_v136 : StableHlo.after (opsC (F := Ideal)) W (Proc.devRef .tc main_v136) = stepR (W (Proc.devRef .tc main_v1)) (W (Proc.devRef .tc main_v3)) (Cert.KernelIdeal.Hand.wa2 (W (Proc.devRef .tc main_arg3))) (Cert.KernelIdeal.Hand.ba2 (W (Proc.devRef .tc main_arg4))) (Cert.KernelIdeal.Hand.wg2 (W (Proc.devRef .tc main_arg5))) (Cert.KernelIdeal.Hand.bg2 (W (Proc.devRef .tc main_arg6))) (W (Proc.devRef .tc main_v92)) := by
  after_results_simp <;> rfl

theorem segC_keep_arg0 : StableHlo.after (opsC (F := Ideal)) W (Proc.devRef .tc main_arg0) = W (Proc.devRef .tc main_arg0) := by
  after_results_simp <;> rfl

theorem segC_keep_arg1 : StableHlo.after (opsC (F := Ideal)) W (Proc.devRef .tc main_arg1) = W (Proc.devRef .tc main_arg1) := by
  after_results_simp <;> rfl

theorem segC_keep_arg2 : StableHlo.after (opsC (F := Ideal)) W (Proc.devRef .tc main_arg2) = W (Proc.devRef .tc main_arg2) := by
  after_results_simp <;> rfl

theorem segC_keep_arg3 : StableHlo.after (opsC (F := Ideal)) W (Proc.devRef .tc main_arg3) = W (Proc.devRef .tc main_arg3) := by
  after_results_simp <;> rfl

theorem segC_keep_arg4 : StableHlo.after (opsC (F := Ideal)) W (Proc.devRef .tc main_arg4) = W (Proc.devRef .tc main_arg4) := by
  after_results_simp <;> rfl

theorem segC_keep_arg5 : StableHlo.after (opsC (F := Ideal)) W (Proc.devRef .tc main_arg5) = W (Proc.devRef .tc main_arg5) := by
  after_results_simp <;> rfl

theorem segC_keep_arg6 : StableHlo.after (opsC (F := Ideal)) W (Proc.devRef .tc main_arg6) = W (Proc.devRef .tc main_arg6) := by
  after_results_simp <;> rfl

end Cert.ReferenceIdeal.Hand

end
-- ==== Proof.RefSegD.lean ====
/-
  Stretch D of the reference read back: from any buffer contents `W`, what the buffers a later stretch reads hold
  after the stretch's operations —
  and the buffers the stretch leaves alone.
-/
import proofs.«123907_j40140764349010_1_alg».proof.Proof.RefOps
import proofs.«123907_j40140764349010_1_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (W : Valuation τ sig (Elt Ideal))

theorem segD_v137 : StableHlo.after (opsD (F := Ideal)) W (Proc.devRef .tc main_v137) = extractStridedSlice S50000x128 ![0, 0] (W (Proc.devRef .tc main_v136)) slices_S100000x128_S50000x128_0_0 := by
  after_results_simp <;> rfl

theorem segD_v138 : StableHlo.after (opsD (F := Ideal)) W (Proc.devRef .tc main_v138) = extractStridedSlice S50000x128 ![50000, 0] (W (Proc.devRef .tc main_v136)) slices_S100000x128_S50000x128_50000_0 := by
  after_results_simp <;> rfl

theorem segD_keep_arg0 : StableHlo.after (opsD (F := Ideal)) W (Proc.devRef .tc main_arg0) = W (Proc.devRef .tc main_arg0) := by
  after_results_simp <;> rfl

theorem segD_keep_arg1 : StableHlo.after (opsD (F := Ideal)) W (Proc.devRef .tc main_arg1) = W (Proc.devRef .tc main_arg1) := by
  after_results_simp <;> rfl

theorem segD_keep_arg2 : StableHlo.after (opsD (F := Ideal)) W (Proc.devRef .tc main_arg2) = W (Proc.devRef .tc main_arg2) := by
  after_results_simp <;> rfl

theorem segD_keep_arg3 : StableHlo.after (opsD (F := Ideal)) W (Proc.devRef .tc main_arg3) = W (Proc.devRef .tc main_arg3) := by
  after_results_simp <;> rfl

theorem segD_keep_arg4 : StableHlo.after (opsD (F := Ideal)) W (Proc.devRef .tc main_arg4) = W (Proc.devRef .tc main_arg4) := by
  after_results_simp <;> rfl

theorem segD_keep_arg5 : StableHlo.after (opsD (F := Ideal)) W (Proc.devRef .tc main_arg5) = W (Proc.devRef .tc main_arg5) := by
  after_results_simp <;> rfl

theorem segD_keep_arg6 : StableHlo.after (opsD (F := Ideal)) W (Proc.devRef .tc main_arg6) = W (Proc.devRef .tc main_arg6) := by
  after_results_simp <;> rfl

end Cert.ReferenceIdeal.Hand

end
-- ==== Proof.RefRun.lean ====
/-
  The reference's two results as three layers applied to the launch arrays.

  The buffer contents after each of the reference's five stretches are followed from the launch memory: the edge
  table's two rows and the seven arguments are carried along unchanged, and the node table after each of the three
  middle stretches is the reference's layer applied to the table before. The results are the first and the last
  50000 rows of the third table; and the reference's layer is the kernel's (`stepR_eq`).
-/
import proofs.«123907_j40140764349010_1_alg».proof.Proof.RefOps
import proofs.«123907_j40140764349010_1_alg».proof.Proof.RefStep
import proofs.«123907_j40140764349010_1_alg».proof.Proof.RefSegP
import proofs.«123907_j40140764349010_1_alg».proof.Proof.RefSegA
import proofs.«123907_j40140764349010_1_alg».proof.Proof.RefSegB
import proofs.«123907_j40140764349010_1_alg».proof.Proof.RefSegC
import proofs.«123907_j40140764349010_1_alg».proof.Proof.RefSegD

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The buffer contents at launch, and after each stretch. -/
abbrev R0 : Valuation τ sig (Elt Ideal) := launchContents m c
abbrev R1 : Valuation τ sig (Elt Ideal) := after (opsP (F := Ideal)) (R0 m c)
abbrev R2 : Valuation τ sig (Elt Ideal) := after (opsA (F := Ideal)) (R1 m c)
abbrev R3 : Valuation τ sig (Elt Ideal) := after (opsB (F := Ideal)) (R2 m c)
abbrev R4 : Valuation τ sig (Elt Ideal) := after (opsC (F := Ideal)) (R3 m c)
abbrev R5 : Valuation τ sig (Elt Ideal) := after (opsD (F := Ideal)) (R4 m c)

/-- The reference's node table after layer 0, layer 1, layer 2. -/
def Y1 : FVec Ideal S100000x128 .f32 :=
  stepR (Cert.KernelIdeal.Hand.idxRow0 (m ((c.tc : Thread nD τ).loc main_arg0))) (Cert.KernelIdeal.Hand.idxRow1 (m ((c.tc : Thread nD τ).loc main_arg0))) (Cert.KernelIdeal.Hand.wa0 (m ((c.tc : Thread nD τ).loc main_arg3))) (Cert.KernelIdeal.Hand.ba0 (m ((c.tc : Thread nD τ).loc main_arg4))) (Cert.KernelIdeal.Hand.wg0 (m ((c.tc : Thread nD τ).loc main_arg5))) (Cert.KernelIdeal.Hand.bg0 (m ((c.tc : Thread nD τ).loc main_arg6))) (Cert.KernelIdeal.Hand.nodes0 (m ((c.tc : Thread nD τ).loc main_arg1)) (m ((c.tc : Thread nD τ).loc main_arg2)))
def Y2 : FVec Ideal S100000x128 .f32 :=
  stepR (Cert.KernelIdeal.Hand.idxRow0 (m ((c.tc : Thread nD τ).loc main_arg0))) (Cert.KernelIdeal.Hand.idxRow1 (m ((c.tc : Thread nD τ).loc main_arg0))) (Cert.KernelIdeal.Hand.wa1 (m ((c.tc : Thread nD τ).loc main_arg3))) (Cert.KernelIdeal.Hand.ba1 (m ((c.tc : Thread nD τ).loc main_arg4))) (Cert.KernelIdeal.Hand.wg1 (m ((c.tc : Thread nD τ).loc main_arg5))) (Cert.KernelIdeal.Hand.bg1 (m ((c.tc : Thread nD τ).loc main_arg6))) (Y1 m c)
def Y3 : FVec Ideal S100000x128 .f32 :=
  stepR (Cert.KernelIdeal.Hand.idxRow0 (m ((c.tc : Thread nD τ).loc main_arg0))) (Cert.KernelIdeal.Hand.idxRow1 (m ((c.tc : Thread nD τ).loc main_arg0))) (Cert.KernelIdeal.Hand.wa2 (m ((c.tc : Thread nD τ).loc main_arg3))) (Cert.KernelIdeal.Hand.ba2 (m ((c.tc : Thread nD τ).loc main_arg4))) (Cert.KernelIdeal.Hand.wg2 (m ((c.tc : Thread nD τ).loc main_arg5))) (Cert.KernelIdeal.Hand.bg2 (m ((c.tc : Thread nD τ).loc main_arg6))) (Y2 m c)

theorem r1_v1 : R1 m c (Proc.devRef .tc main_v1) = Cert.KernelIdeal.Hand.idxRow0 (m ((c.tc : Thread nD τ).loc main_arg0)) :=
  (segP_v1 (R0 m c)).trans (by rfl)

theorem r1_v3 : R1 m c (Proc.devRef .tc main_v3) = Cert.KernelIdeal.Hand.idxRow1 (m ((c.tc : Thread nD τ).loc main_arg0)) :=
  (segP_v3 (R0 m c)).trans (by rfl)

theorem r1_v4 : R1 m c (Proc.devRef .tc main_v4) = Cert.KernelIdeal.Hand.nodes0 (m ((c.tc : Thread nD τ).loc main_arg1)) (m ((c.tc : Thread nD τ).loc main_arg2)) :=
  (segP_v4 (R0 m c)).trans (by rfl)

theorem r1_arg0 : R1 m c (Proc.devRef .tc main_arg0) = m ((c.tc : Thread nD τ).loc main_arg0) :=
  (segP_keep_arg0 (R0 m c)).trans rfl

theorem r1_arg1 : R1 m c (Proc.devRef .tc main_arg1) = m ((c.tc : Thread nD τ).loc main_arg1) :=
  (segP_keep_arg1 (R0 m c)).trans rfl

theorem r1_arg2 : R1 m c (Proc.devRef .tc main_arg2) = m ((c.tc : Thread nD τ).loc main_arg2) :=
  (segP_keep_arg2 (R0 m c)).trans rfl

theorem r1_arg3 : R1 m c (Proc.devRef .tc main_arg3) = m ((c.tc : Thread nD τ).loc main_arg3) :=
  (segP_keep_arg3 (R0 m c)).trans rfl

theorem r1_arg4 : R1 m c (Proc.devRef .tc main_arg4) = m ((c.tc : Thread nD τ).loc main_arg4) :=
  (segP_keep_arg4 (R0 m c)).trans rfl

theorem r1_arg5 : R1 m c (Proc.devRef .tc main_arg5) = m ((c.tc : Thread nD τ).loc main_arg5) :=
  (segP_keep_arg5 (R0 m c)).trans rfl

theorem r1_arg6 : R1 m c (Proc.devRef .tc main_arg6) = m ((c.tc : Thread nD τ).loc main_arg6) :=
  (segP_keep_arg6 (R0 m c)).trans rfl

theorem r2_v48 : R2 m c (Proc.devRef .tc main_v48) = Y1 m c :=
  (segA_v48 (R1 m c)).trans (by rw [r1_v1 m c, r1_v3 m c, r1_arg3 m c, r1_arg4 m c, r1_arg5 m c, r1_arg6 m c, r1_v4 m c]; rfl)

theorem r2_v1 : R2 m c (Proc.devRef .tc main_v1) = Cert.KernelIdeal.Hand.idxRow0 (m ((c.tc : Thread nD τ).loc main_arg0)) :=
  (segA_keep_v1 (R1 m c)).trans (r1_v1 m c)

theorem r2_v3 : R2 m c (Proc.devRef .tc main_v3) = Cert.KernelIdeal.Hand.idxRow1 (m ((c.tc : Thread nD τ).loc main_arg0)) :=
  (segA_keep_v3 (R1 m c)).trans (r1_v3 m c)

theorem r2_arg0 : R2 m c (Proc.devRef .tc main_arg0) = m ((c.tc : Thread nD τ).loc main_arg0) :=
  (segA_keep_arg0 (R1 m c)).trans (r1_arg0 m c)

theorem r2_arg1 : R2 m c (Proc.devRef .tc main_arg1) = m ((c.tc : Thread nD τ).loc main_arg1) :=
  (segA_keep_arg1 (R1 m c)).trans (r1_arg1 m c)

theorem r2_arg2 : R2 m c (Proc.devRef .tc main_arg2) = m ((c.tc : Thread nD τ).loc main_arg2) :=
  (segA_keep_arg2 (R1 m c)).trans (r1_arg2 m c)

theorem r2_arg3 : R2 m c (Proc.devRef .tc main_arg3) = m ((c.tc : Thread nD τ).loc main_arg3) :=
  (segA_keep_arg3 (R1 m c)).trans (r1_arg3 m c)

theorem r2_arg4 : R2 m c (Proc.devRef .tc main_arg4) = m ((c.tc : Thread nD τ).loc main_arg4) :=
  (segA_keep_arg4 (R1 m c)).trans (r1_arg4 m c)

theorem r2_arg5 : R2 m c (Proc.devRef .tc main_arg5) = m ((c.tc : Thread nD τ).loc main_arg5) :=
  (segA_keep_arg5 (R1 m c)).trans (r1_arg5 m c)

theorem r2_arg6 : R2 m c (Proc.devRef .tc main_arg6) = m ((c.tc : Thread nD τ).loc main_arg6) :=
  (segA_keep_arg6 (R1 m c)).trans (r1_arg6 m c)

theorem r3_v92 : R3 m c (Proc.devRef .tc main_v92) = Y2 m c :=
  (segB_v92 (R2 m c)).trans (by rw [r2_v1 m c, r2_v3 m c, r2_arg3 m c, r2_arg4 m c, r2_arg5 m c, r2_arg6 m c, r2_v48 m c]; rfl)

theorem r3_v1 : R3 m c (Proc.devRef .tc main_v1) = Cert.KernelIdeal.Hand.idxRow0 (m ((c.tc : Thread nD τ).loc main_arg0)) :=
  (segB_keep_v1 (R2 m c)).trans (r2_v1 m c)

theorem r3_v3 : R3 m c (Proc.devRef .tc main_v3) = Cert.KernelIdeal.Hand.idxRow1 (m ((c.tc : Thread nD τ).loc main_arg0)) :=
  (segB_keep_v3 (R2 m c)).trans (r2_v3 m c)

theorem r3_arg0 : R3 m c (Proc.devRef .tc main_arg0) = m ((c.tc : Thread nD τ).loc main_arg0) :=
  (segB_keep_arg0 (R2 m c)).trans (r2_arg0 m c)

theorem r3_arg1 : R3 m c (Proc.devRef .tc main_arg1) = m ((c.tc : Thread nD τ).loc main_arg1) :=
  (segB_keep_arg1 (R2 m c)).trans (r2_arg1 m c)

theorem r3_arg2 : R3 m c (Proc.devRef .tc main_arg2) = m ((c.tc : Thread nD τ).loc main_arg2) :=
  (segB_keep_arg2 (R2 m c)).trans (r2_arg2 m c)

theorem r3_arg3 : R3 m c (Proc.devRef .tc main_arg3) = m ((c.tc : Thread nD τ).loc main_arg3) :=
  (segB_keep_arg3 (R2 m c)).trans (r2_arg3 m c)

theorem r3_arg4 : R3 m c (Proc.devRef .tc main_arg4) = m ((c.tc : Thread nD τ).loc main_arg4) :=
  (segB_keep_arg4 (R2 m c)).trans (r2_arg4 m c)

theorem r3_arg5 : R3 m c (Proc.devRef .tc main_arg5) = m ((c.tc : Thread nD τ).loc main_arg5) :=
  (segB_keep_arg5 (R2 m c)).trans (r2_arg5 m c)

theorem r3_arg6 : R3 m c (Proc.devRef .tc main_arg6) = m ((c.tc : Thread nD τ).loc main_arg6) :=
  (segB_keep_arg6 (R2 m c)).trans (r2_arg6 m c)

theorem r4_v136 : R4 m c (Proc.devRef .tc main_v136) = Y3 m c :=
  (segC_v136 (R3 m c)).trans (by rw [r3_v1 m c, r3_v3 m c, r3_arg3 m c, r3_arg4 m c, r3_arg5 m c, r3_arg6 m c, r3_v92 m c]; rfl)

theorem r4_arg0 : R4 m c (Proc.devRef .tc main_arg0) = m ((c.tc : Thread nD τ).loc main_arg0) :=
  (segC_keep_arg0 (R3 m c)).trans (r3_arg0 m c)

theorem r4_arg1 : R4 m c (Proc.devRef .tc main_arg1) = m ((c.tc : Thread nD τ).loc main_arg1) :=
  (segC_keep_arg1 (R3 m c)).trans (r3_arg1 m c)

theorem r4_arg2 : R4 m c (Proc.devRef .tc main_arg2) = m ((c.tc : Thread nD τ).loc main_arg2) :=
  (segC_keep_arg2 (R3 m c)).trans (r3_arg2 m c)

theorem r4_arg3 : R4 m c (Proc.devRef .tc main_arg3) = m ((c.tc : Thread nD τ).loc main_arg3) :=
  (segC_keep_arg3 (R3 m c)).trans (r3_arg3 m c)

theorem r4_arg4 : R4 m c (Proc.devRef .tc main_arg4) = m ((c.tc : Thread nD τ).loc main_arg4) :=
  (segC_keep_arg4 (R3 m c)).trans (r3_arg4 m c)

theorem r4_arg5 : R4 m c (Proc.devRef .tc main_arg5) = m ((c.tc : Thread nD τ).loc main_arg5) :=
  (segC_keep_arg5 (R3 m c)).trans (r3_arg5 m c)

theorem r4_arg6 : R4 m c (Proc.devRef .tc main_arg6) = m ((c.tc : Thread nD τ).loc main_arg6) :=
  (segC_keep_arg6 (R3 m c)).trans (r3_arg6 m c)

theorem r5_v137 : R5 m c (Proc.devRef .tc main_v137) = extractStridedSlice S50000x128 ![0, 0] (Y3 m c) slices_S100000x128_S50000x128_0_0 :=
  (segD_v137 (R4 m c)).trans (by rw [r4_v136 m c])

theorem r5_v138 : R5 m c (Proc.devRef .tc main_v138) = extractStridedSlice S50000x128 ![50000, 0] (Y3 m c) slices_S100000x128_S50000x128_50000_0 :=
  (segD_v138 (R4 m c)).trans (by rw [r4_v136 m c])

theorem r5_arg0 : R5 m c (Proc.devRef .tc main_arg0) = m ((c.tc : Thread nD τ).loc main_arg0) :=
  (segD_keep_arg0 (R4 m c)).trans (r4_arg0 m c)

theorem r5_arg1 : R5 m c (Proc.devRef .tc main_arg1) = m ((c.tc : Thread nD τ).loc main_arg1) :=
  (segD_keep_arg1 (R4 m c)).trans (r4_arg1 m c)

theorem r5_arg2 : R5 m c (Proc.devRef .tc main_arg2) = m ((c.tc : Thread nD τ).loc main_arg2) :=
  (segD_keep_arg2 (R4 m c)).trans (r4_arg2 m c)

theorem r5_arg3 : R5 m c (Proc.devRef .tc main_arg3) = m ((c.tc : Thread nD τ).loc main_arg3) :=
  (segD_keep_arg3 (R4 m c)).trans (r4_arg3 m c)

theorem r5_arg4 : R5 m c (Proc.devRef .tc main_arg4) = m ((c.tc : Thread nD τ).loc main_arg4) :=
  (segD_keep_arg4 (R4 m c)).trans (r4_arg4 m c)

theorem r5_arg5 : R5 m c (Proc.devRef .tc main_arg5) = m ((c.tc : Thread nD τ).loc main_arg5) :=
  (segD_keep_arg5 (R4 m c)).trans (r4_arg5 m c)

theorem r5_arg6 : R5 m c (Proc.devRef .tc main_arg6) = m ((c.tc : Thread nD τ).loc main_arg6) :=
  (segD_keep_arg6 (R4 m c)).trans (r4_arg6 m c)

/-- Every weakly fair execution of the reference terminates without a fault; its two results end at the first and the
    last 50000 rows of the table after three layers, and its arguments end as launched. -/
theorem ref_run : θ_run defs (onTc (τ := τ) (main (F := Ideal))) ⟨m, fun _ => 0, ρ⟩ fun r => ∀ c : Dev nD,
      r.2.mem ((c.tc : Thread nD τ).loc main_v137) = extractStridedSlice S50000x128 ![0, 0] (Y3 m c) slices_S100000x128_S50000x128_0_0
      ∧ r.2.mem ((c.tc : Thread nD τ).loc main_v138) = extractStridedSlice S50000x128 ![50000, 0] (Y3 m c) slices_S100000x128_S50000x128_50000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c main_v137).trans (r5_v137 m c), (h c main_v138).trans (r5_v138 m c),
      (h c main_arg0).trans (r5_arg0 m c), (h c main_arg1).trans (r5_arg1 m c), (h c main_arg2).trans (r5_arg2 m c), (h c main_arg3).trans (r5_arg3 m c), (h c main_arg4).trans (r5_arg4 m c), (h c main_arg5).trans (r5_arg5 m c), (h c main_arg6).trans (r5_arg6 m c)⟩)
    (run4 m ρ)

/-- The reference's third table is three of the kernel's layers applied to the same launch arrays. -/
theorem Y3_eq : Y3 m c = (Cert.KernelIdeal.Hand.step (Cert.KernelIdeal.Hand.idxRow0 (m ((c.tc : Thread nD τ).loc main_arg0))) (Cert.KernelIdeal.Hand.idxRow1 (m ((c.tc : Thread nD τ).loc main_arg0))) (Cert.KernelIdeal.Hand.wa2 (m ((c.tc : Thread nD τ).loc main_arg3))) (Cert.KernelIdeal.Hand.ba2 (m ((c.tc : Thread nD τ).loc main_arg4))) (Cert.KernelIdeal.Hand.wg2 (m ((c.tc : Thread nD τ).loc main_arg5))) (Cert.KernelIdeal.Hand.bg2 (m ((c.tc : Thread nD τ).loc main_arg6))) (Cert.KernelIdeal.Hand.step (Cert.KernelIdeal.Hand.idxRow0 (m ((c.tc : Thread nD τ).loc main_arg0))) (Cert.KernelIdeal.Hand.idxRow1 (m ((c.tc : Thread nD τ).loc main_arg0))) (Cert.KernelIdeal.Hand.wa1 (m ((c.tc : Thread nD τ).loc main_arg3))) (Cert.KernelIdeal.Hand.ba1 (m ((c.tc : Thread nD τ).loc main_arg4))) (Cert.KernelIdeal.Hand.wg1 (m ((c.tc : Thread nD τ).loc main_arg5))) (Cert.KernelIdeal.Hand.bg1 (m ((c.tc : Thread nD τ).loc main_arg6))) (Cert.KernelIdeal.Hand.step (Cert.KernelIdeal.Hand.idxRow0 (m ((c.tc : Thread nD τ).loc main_arg0))) (Cert.KernelIdeal.Hand.idxRow1 (m ((c.tc : Thread nD τ).loc main_arg0))) (Cert.KernelIdeal.Hand.wa0 (m ((c.tc : Thread nD τ).loc main_arg3))) (Cert.KernelIdeal.Hand.ba0 (m ((c.tc : Thread nD τ).loc main_arg4))) (Cert.KernelIdeal.Hand.wg0 (m ((c.tc : Thread nD τ).loc main_arg5))) (Cert.KernelIdeal.Hand.bg0 (m ((c.tc : Thread nD τ).loc main_arg6))) (Cert.KernelIdeal.Hand.nodes0 (m ((c.tc : Thread nD τ).loc main_arg1)) (m ((c.tc : Thread nD τ).loc main_arg2)))))) := by
  unfold Y3 Y2 Y1
  rw [stepR_eq, stepR_eq, stepR_eq]

end Cert.ReferenceIdeal.Hand

end
-- ==== Proof.lean ====
/-
  Three layers of attention-weighted message passing over a graph of 100000 nodes and 600000 edges: the kernel
  program against its reference, on the extended reals.

  Both programs build the node table from the user and item rows and apply three layers. A layer gathers the rows
  its edges name, scales every source row by the logistic function of an attention score, sums the scaled rows into
  their destination rows, and updates every node row by `max (x·Wx + agg·Wa + b) 0`. The kernel program computes the
  scaling and the update in kernel regions, block of rows by block of rows, with the layer's weights cut into a source
  half and a destination half; the reference computes them with whole-array operations on rows joined side by side.
  The two agree because a sum over 256 joined features is the sum over its two halves — a law of every commutative
  sum, so no precondition on the inputs is used — and because every block of rows of the result depends on that
  block of rows of the operands only. Gather and the sum by destination are the same host operations on both sides
  and are never opened.

  The kernel program's value: `KerRun` (the run with the results named), `KerRegion0 … 5` (each region's result
  array as one whole-array formula), `KerHost0 … 6` (each host stretch read back), `KerChain` (the thirteen
  boundaries followed to the results). The reference's value: `RefOps` (its operations in four stretches and its
  run), `RefSegA … D` (each stretch read back), `RefStep` (its layer is the kernel's), `RefRun` (its results are three
  layers). `Spec` holds the two formulas.
-/
import proofs.«123907_j40140764349010_1_alg».proof.Defs
import proofs.«123907_j40140764349010_1_alg».proof.Proof.Gen.Kernel
import proofs.«123907_j40140764349010_1_alg».proof.Proof.Gen.Kernel.Skeleton
import proofs.«123907_j40140764349010_1_alg».proof.Proof.Gen.Kernel.Launch
import proofs.«123907_j40140764349010_1_alg».proof.Proof.Gen.Kernel.Points
import proofs.«123907_j40140764349010_1_alg».proof.Proof.Gen.Kernel.Frame
import proofs.«123907_j40140764349010_1_alg».proof.Proof.Gen.KernelIdeal
import proofs.«123907_j40140764349010_1_alg».proof.Proof.Gen.KernelIdeal.Skeleton
import proofs.«123907_j40140764349010_1_alg».proof.Proof.Gen.KernelIdeal.Launch
import proofs.«123907_j40140764349010_1_alg».proof.Proof.Gen.KernelIdeal.Points
import proofs.«123907_j40140764349010_1_alg».proof.Proof.Gen.KernelIdeal.Frame
import proofs.«123907_j40140764349010_1_alg».proof.Proof.Gen.ReferenceIdeal
import proofs.«123907_j40140764349010_1_alg».proof.Proof.Gen.Pre_finite_inputs
import proofs.«123907_j40140764349010_1_alg».proof.Proof.KerRun
import proofs.«123907_j40140764349010_1_alg».proof.Proof.KerChain
import proofs.«123907_j40140764349010_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Hand.ref_run m ρ)

/-- The idealization rewrote nothing. -/
theorem preserves : Cert.preserves_Kernel_KernelIdeal := trivial

/-- Both programs end with the first and the last 50000 rows of the node table after three layers; the
    reference's layer is the kernel's, and the launch arrays agree. -/
theorem algebraic : Cert.algebraic_KernelIdeal_ReferenceIdeal := by
  intro m ρ m' ρ' _ hagree
  refine ⟨fun c => extractStridedSlice Cert.KernelIdeal.S50000x128 ![0, 0] (Cert.KernelIdeal.Hand.X3 m c) Cert.KernelIdeal.Gen.slices_S100000x128_S50000x128_0_0,
    fun c => extractStridedSlice Cert.KernelIdeal.S50000x128 ![50000, 0] (Cert.KernelIdeal.Hand.X3 m c) Cert.KernelIdeal.Gen.slices_S100000x128_S50000x128_50000_0, ?_, ?_⟩
  · exact (θ_run Cert.KernelIdeal.defs _ _).mono
      (fun r h c => ⟨(h c).1.trans (Cert.KernelIdeal.Hand.b13_v110 m ρ c), (h c).2.1.trans (Cert.KernelIdeal.Hand.b13_v111 m ρ c), (h c).2.2⟩)
      (Cert.KernelIdeal.Hand.run_results m ρ)
  · refine (θ_run Cert.ReferenceIdeal.defs _ _).mono (fun r h c => ?_) (Cert.ReferenceIdeal.Hand.ref_run m' ρ')
    have hY : Cert.ReferenceIdeal.Hand.Y3 m' c = Cert.KernelIdeal.Hand.X3 m c := by
      rw [Cert.ReferenceIdeal.Hand.Y3_eq]
      unfold Cert.KernelIdeal.Hand.X3 Cert.KernelIdeal.Hand.X2 Cert.KernelIdeal.Hand.X1 Cert.KernelIdeal.Hand.X0 Cert.KernelIdeal.Hand.SRC Cert.KernelIdeal.Hand.DST
      rw [(hagree c).1, (hagree c).2.1, (hagree c).2.2.1, (hagree c).2.2.2.1, (hagree c).2.2.2.2.1, (hagree c).2.2.2.2.2.1,
        (hagree c).2.2.2.2.2.2]
    refine ⟨(h c).1.trans ?_, (h c).2.1.trans ?_, (h c).2.2⟩
    · rw [hY]
    · rw [hY]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
